-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048 : Shape := ⟨2, ![128, 2048]⟩
abbrev S128x1 : Shape := ⟨2, ![128, 1]⟩
abbrev S512x15 : Shape := ⟨2, ![512, 15]⟩
abbrev S512x128 : Shape := ⟨2, ![512, 128]⟩
abbrev S512 : Shape := ⟨1, ![512]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S128x2048 : S_.BroadcastsInDim S128x2048 (![] : Fin 0 → Fin S128x2048.rank)
  reducesTo_S128x2048_S_d0_1 : S128x2048.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S512x15 : S_.BroadcastsInDim S512x15 (![] : Fin 0 → Fin S512x15.rank)
  reducesTo_S512x15_S_d0_1 : S512x15.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg20 : FVec F S1x128 .f32) (main_arg21 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S1x128 .f32 := Host.absf main_arg20
  let main_cst_34 : FVec F S_ .f32 := constant S_ .f32 0x7F800000#32
  let main_v90 : FVec F S1x128 .f32 := broadcastInDim S1x128 ![] bcast_S_S1x128 main_cst_34
  let main_v91 : IVec S1x128 1 := cmpf .olt main_v89 main_v90
  let main_c_35 : IVec S_ 1 := constantI S_ 1 1#1
  let main_v92 : IVec S_ 1 := (fun x v => Host.reduce IntOp.andi x v reducesTo_S1x128_S_d0_1 h_S_) main_v91 main_c_35
  let main_v93 : IVec S_ 1 := andi main_v88 main_v92
  let main_v94 : FVec F S1 .f32 := Host.absf main_arg21
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg16 : FVec F S512 .f32) (main_arg17 : FVec F S512 .f32) (main_arg18 : FVec F S128x128 .f32) (main_arg19 : FVec F S128 .f32) (main_arg20 : FVec F S1x128 .f32) (main_arg21 : FVec F S1 .f32) (main_v63 : IVec S_ 1) (main_v67 : IVec S_ 1) : IVec S_ 1 :=
  let main_v68 : IVec S_ 1 := andi main_v63 main_v67
  let main_v69 : FVec F S512 .f32 := Host.absf main_arg16
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg17
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg11 : FVec F S128x2048 .f32) (main_arg14 : FVec F S512x15 .f32) (main_arg15 : FVec F S512x128 .f32) (main_arg16 : FVec F S512 .f32) (main_arg17 : FVec F S512 .f32) (main_arg18 : FVec F S128x128 .f32) (main_arg19 : FVec F S128 .f32) (main_arg20 : FVec F S1x128 .f32) (main_arg21 : FVec F S1 .f32) (main_v48 : IVec S_ 1) (main_v49 : FVec F S128x2048 .f32) (main_v50 : FVec F S128x2048 .f32) : IVec S_ 1 :=
  let main_v51 : IVec S128x2048 1 := cmpf .olt main_v49 main_v50
  let main_c_19 : IVec S_ 1 := constantI S_ 1 1#1
  let main_v52 : IVec S_ 1 := (fun x v => Host.reduce IntOp.andi x v reducesTo_S128x2048_S_d0_1 h_S_) main_v51 main_c_19
  let main_v53 : IVec S_ 1 := andi main_v48 main_v52
  let main_v54 : FVec F S128x2048 .f32 := Host.absf main_arg11
  let main_cst_20 : FVec F S_ .f32 := constant S_ .f32 0x7F800000#32
  let main_v55 : FVec F S128x2048 .f32 := broadcastInDim S128x2048 ![] bcast_S_S128x2048 main_cst_20
  let main_v56 : IVec S128x2048 1 := cmpf .olt main_v54 main_v55
  let main_c_21 : IVec S_ 1 := constantI S_ 1 1#1
  let main_v57 : IVec S_ 1 := (fun x v => Host.reduce IntOp.andi x v reducesTo_S128x2048_S_d0_1 h_S_) main_v56 main_c_21
  let main_v58 : IVec S_ 1 := andi main_v53 main_v57
  let main_v59 : FVec F S512x15 .f32 := Host.absf main_arg14
  let main_cst_22 : FVec F S_ .f32 := constant S_ .f32 0x7F800000#32
  let main_v60 : FVec F S512x15 .f32 := broadcastInDim S512x15 ![] bcast_S_S512x15 main_cst_22
  let main_v61 : IVec S512x15 1 := cmpf .olt main_v59 main_v60
  let main_c_23 : IVec S_ 1 := constantI S_ 1 1#1
  let main_v62 : IVec S_ 1 := (fun x v => Host.reduce IntOp.andi x v reducesTo_S512x15_S_d0_1 h_S_) main_v61 main_c_23
  let main_v63 : IVec S_ 1 := andi main_v58 main_v62
  let main_v64 : FVec F S512x128 .f32 := Host.absf main_arg15
  let main_cst_24 : FVec F S_ .f32 := constant S_ .f32 0x7F800000#32
  let main_v65 : FVec F S512x128 .f32 := broadcastInDim S512x128 ![] bcast_S_S512x128 main_cst_24
  let main_v66 : IVec S512x128 1 := cmpf .olt main_v64 main_v65
  let main_c_25 : IVec S_ 1 := constantI S_ 1 1#1
  let main_v67 : IVec S_ 1 := (fun x v => Host.reduce IntOp.andi x v reducesTo_S512x128_S_d0_1 h_S_) main_v66 main_c_25
  fn_part4 (F := F) main_arg16 main_arg17 main_arg18 main_arg19 main_arg20 main_arg21 main_v63 main_v67

def fn_part2 {F : FTy → Type} [FloatOps F] (main_arg7 : FVec F S128x2048 .f32) (main_arg8 : FVec F S128x2048 .f32) (main_arg9 : FVec F S128x1 .f32) (main_arg10 : FVec F S128x2048 .f32) (main_arg11 : FVec F S128x2048 .f32) (main_arg14 : FVec F S512x15 .f32) (main_arg15 : FVec F S512x128 .f32) (main_arg16 : FVec F S512 .f32) (main_arg17 : FVec F S512 .f32) (main_arg18 : FVec F S128x128 .f32) (main_arg19 : FVec F S128 .f32) (main_arg20 : FVec F S1x128 .f32) (main_arg21 : FVec F S1 .f32) (main_v33 : IVec S_ 1) : IVec S_ 1 :=
  let main_v34 : FVec F S128x2048 .f32 := Host.absf main_arg7
  let main_cst_12 : FVec F S_ .f32 := constant S_ .f32 0x7F800000#32
  let main_v35 : FVec F S128x2048 .f32 := broadcastInDim S128x2048 ![] bcast_S_S128x2048 main_cst_12
  let main_v36 : IVec S128x2048 1 := cmpf .olt main_v34 main_v35
  let main_c_13 : IVec S_ 1 := constantI S_ 1 1#1
  let main_v37 : IVec S_ 1 := (fun x v => Host.reduce IntOp.andi x v reducesTo_S128x2048_S_d0_1 h_S_) main_v36 main_c_13
  let main_v38 : IVec S_ 1 := andi main_v33 main_v37
  let main_v39 : FVec F S128x2048 .f32 := Host.absf main_arg8
  let main_cst_14 : FVec F S_ .f32 := constant S_ .f32 0x7F800000#32
  let main_v40 : FVec F S128x2048 .f32 := broadcastInDim S128x2048 ![] bcast_S_S128x2048 main_cst_14
  let main_v41 : IVec S128x2048 1 := cmpf .olt main_v39 main_v40
  let main_c_15 : IVec S_ 1 := constantI S_ 1 1#1
  let main_v42 : IVec S_ 1 := (fun x v => Host.reduce IntOp.andi x v reducesTo_S128x2048_S_d0_1 h_S_) main_v41 main_c_15
  let main_v43 : IVec S_ 1 := andi main_v38 main_v42
  let main_v44 : FVec F S128x1 .f32 := Host.absf main_arg9
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S128x2048 .f32 := Host.absf main_arg10
  let main_cst_18 : FVec F S_ .f32 := constant S_ .f32 0x7F800000#32
  let main_v50 : FVec F S128x2048 .f32 := broadcastInDim S128x2048 ![] bcast_S_S128x2048 main_cst_18
  fn_part3 (F := F) main_arg11 main_arg14 main_arg15 main_arg16 main_arg17 main_arg18 main_arg19 main_arg20 main_arg21 main_v48 main_v49 main_v50

def fn_part1 {F : FTy → Type} [FloatOps F] (main_arg4 : FVec F S128x2048 .f32) (main_arg5 : FVec F S128x2048 .f32) (main_arg6 : FVec F S128x2048 .f32) (main_arg7 : FVec F S128x2048 .f32) (main_arg8 : FVec F S128x2048 .f32) (main_arg9 : FVec F S128x1 .f32) (main_arg10 : FVec F S128x2048 .f32) (main_arg11 : FVec F S128x2048 .f32) (main_arg14 : FVec F S512x15 .f32) (main_arg15 : FVec F S512x128 .f32) (main_arg16 : FVec F S512 .f32) (main_arg17 : FVec F S512 .f32) (main_arg18 : FVec F S128x128 .f32) (main_arg19 : FVec F S128 .f32) (main_arg20 : FVec F S1x128 .f32) (main_arg21 : FVec F S1 .f32) (main_v13 : IVec S_ 1) (main_v16 : IVec S128x2048 1) : IVec S_ 1 :=
  let main_c_5 : IVec S_ 1 := constantI S_ 1 1#1
  let main_v17 : IVec S_ 1 := (fun x v => Host.reduce IntOp.andi x v reducesTo_S128x2048_S_d0_1 h_S_) main_v16 main_c_5
  let main_v18 : IVec S_ 1 := andi main_v13 main_v17
  let main_v19 : FVec F S128x2048 .f32 := Host.absf main_arg4
  let main_cst_6 : FVec F S_ .f32 := constant S_ .f32 0x7F800000#32
  let main_v20 : FVec F S128x2048 .f32 := broadcastInDim S128x2048 ![] bcast_S_S128x2048 main_cst_6
  let main_v21 : IVec S128x2048 1 := cmpf .olt main_v19 main_v20
  let main_c_7 : IVec S_ 1 := constantI S_ 1 1#1
  let main_v22 : IVec S_ 1 := (fun x v => Host.reduce IntOp.andi x v reducesTo_S128x2048_S_d0_1 h_S_) main_v21 main_c_7
  let main_v23 : IVec S_ 1 := andi main_v18 main_v22
  let main_v24 : FVec F S128x2048 .f32 := Host.absf main_arg5
  let main_cst_8 : FVec F S_ .f32 := constant S_ .f32 0x7F800000#32
  let main_v25 : FVec F S128x2048 .f32 := broadcastInDim S128x2048 ![] bcast_S_S128x2048 main_cst_8
  let main_v26 : IVec S128x2048 1 := cmpf .olt main_v24 main_v25
  let main_c_9 : IVec S_ 1 := constantI S_ 1 1#1
  let main_v27 : IVec S_ 1 := (fun x v => Host.reduce IntOp.andi x v reducesTo_S128x2048_S_d0_1 h_S_) main_v26 main_c_9
  let main_v28 : IVec S_ 1 := andi main_v23 main_v27
  let main_v29 : FVec F S128x2048 .f32 := Host.absf main_arg6
  let main_cst_10 : FVec F S_ .f32 := constant S_ .f32 0x7F800000#32
  let main_v30 : FVec F S128x2048 .f32 := broadcastInDim S128x2048 ![] bcast_S_S128x2048 main_cst_10
  let main_v31 : IVec S128x2048 1 := cmpf .olt main_v29 main_v30
  let main_c_11 : IVec S_ 1 := constantI S_ 1 1#1
  let main_v32 : IVec S_ 1 := (fun x v => Host.reduce IntOp.andi x v reducesTo_S128x2048_S_d0_1 h_S_) main_v31 main_c_11
  let main_v33 : IVec S_ 1 := andi main_v28 main_v32
  fn_part2 (F := F) main_arg7 main_arg8 main_arg9 main_arg10 main_arg11 main_arg14 main_arg15 main_arg16 main_arg17 main_arg18 main_arg19 main_arg20 main_arg21 main_v33

def fn {F : FTy → Type} [FloatOps F] (main_arg0 : FVec F S128x2048 .f32) (main_arg1 : FVec F S128x2048 .f32) (main_arg2 : FVec F S128x2048 .f32) (main_arg3 : FVec F S128x2048 .f32) (main_arg4 : FVec F S128x2048 .f32) (main_arg5 : FVec F S128x2048 .f32) (main_arg6 : FVec F S128x2048 .f32) (main_arg7 : FVec F S128x2048 .f32) (main_arg8 : FVec F S128x2048 .f32) (main_arg9 : FVec F S128x1 .f32) (main_arg10 : FVec F S128x2048 .f32) (main_arg11 : FVec F S128x2048 .f32) (main_arg12 : IVec S128x2048 1) (main_arg13 : IVec S128x2048 1) (main_arg14 : FVec F S512x15 .f32) (main_arg15 : FVec F S512x128 .f32) (main_arg16 : FVec F S512 .f32) (main_arg17 : FVec F S512 .f32) (main_arg18 : FVec F S128x128 .f32) (main_arg19 : FVec F S128 .f32) (main_arg20 : FVec F S1x128 .f32) (main_arg21 : FVec F S1 .f32) : IVec S_ 1 :=
  let main_v0 : FVec F S128x2048 .f32 := Host.absf main_arg0
  let main_cst : FVec F S_ .f32 := constant S_ .f32 0x7F800000#32
  let main_v1 : FVec F S128x2048 .f32 := broadcastInDim S128x2048 ![] bcast_S_S128x2048 main_cst
  let main_v2 : IVec S128x2048 1 := cmpf .olt main_v0 main_v1
  let main_c : IVec S_ 1 := constantI S_ 1 1#1
  let main_v3 : IVec S_ 1 := (fun x v => Host.reduce IntOp.andi x v reducesTo_S128x2048_S_d0_1 h_S_) main_v2 main_c
  let main_v4 : FVec F S128x2048 .f32 := Host.absf main_arg1
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S128x2048 .f32 := Host.absf main_arg3
  let main_cst_4 : FVec F S_ .f32 := constant S_ .f32 0x7F800000#32
  let main_v15 : FVec F S128x2048 .f32 := broadcastInDim S128x2048 ![] bcast_S_S128x2048 main_cst_4
  let main_v16 : IVec S128x2048 1 := cmpf .olt main_v14 main_v15
  fn_part1 (F := F) main_arg4 main_arg5 main_arg6 main_arg7 main_arg8 main_arg9 main_arg10 main_arg11 main_arg14 main_arg15 main_arg16 main_arg17 main_arg18 main_arg19 main_arg20 main_arg21 main_v13 main_v16
-- ==== Kernel.lean ====
abbrev S128x2048 : Shape := ⟨2, ![128, 2048]⟩
abbrev S128x1 : Shape := ⟨2, ![128, 1]⟩
abbrev S512x15 : Shape := ⟨2, ![512, 15]⟩
abbrev S512x128 : Shape := ⟨2, ![512, 128]⟩
abbrev S512 : Shape := ⟨1, ![512]⟩
abbrev S128x128 : Shape := ⟨2, ![128, 128]⟩
abbrev S128 : Shape := ⟨1, ![128]⟩
abbrev S1x128 : Shape := ⟨2, ![1, 128]⟩
abbrev S1 : Shape := ⟨1, ![1]⟩
abbrev S128x15 : Shape := ⟨2, ![128, 15]⟩
abbrev S384x15 : Shape := ⟨2, ![384, 15]⟩
abbrev S15x384 : Shape := ⟨2, ![15, 384]⟩
abbrev S384 : Shape := ⟨1, ![384]⟩
abbrev S1x384 : Shape := ⟨2, ![1, 384]⟩
abbrev S1x1 : Shape := ⟨2, ![1, 1]⟩
abbrev S128x5x2048 : Shape := ⟨3, ![128, 5, 2048]⟩
abbrev S32x256 : Shape := ⟨2, ![32, 256]⟩
abbrev S32x1 : Shape := ⟨2, ![32, 1]⟩
abbrev S32x5x256 : Shape := ⟨3, ![32, 5, 256]⟩
abbrev S32x256x1 : Shape := ⟨3, ![32, 256, 1]⟩
abbrev S32x256x15 : Shape := ⟨3, ![32, 256, 15]⟩
abbrev S8192x15 : Shape := ⟨2, ![8192, 15]⟩
abbrev S8192x384 : Shape := ⟨2, ![8192, 384]⟩
abbrev S8192x128 : Shape := ⟨2, ![8192, 128]⟩
abbrev S8192 : Shape := ⟨1, ![8192]⟩
abbrev S8192x1 : Shape := ⟨2, ![8192, 1]⟩
abbrev S32x1x256 : Shape := ⟨3, ![32, 1, 256]⟩
abbrev S128x10240 : Shape := ⟨2, ![128, 10240]⟩

abbrev nBuf : Space → Nat
  | .hbm => 45
  | .vmem => 36
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S128x2048, .f32⟩
  | .hbm, ⟨3, _⟩ => ⟨S128x2048, .f32⟩
  | .hbm, ⟨4, _⟩ => ⟨S128x2048, .f32⟩
  | .hbm, ⟨5, _⟩ => ⟨S128x2048, .f32⟩
  | .hbm, ⟨6, _⟩ => ⟨S128x2048, .f32⟩
  | .hbm, ⟨7, _⟩ => ⟨S128x2048, .f32⟩
  | .hbm, ⟨8, _⟩ => ⟨S128x2048, .f32⟩
  | .hbm, ⟨9, _⟩ => ⟨S128x1, .f32⟩
  | .hbm, ⟨10, _⟩ => ⟨S128x2048, .f32⟩
  | .hbm, ⟨11, _⟩ => ⟨S128x2048, .f32⟩
  | .hbm, ⟨12, _⟩ => ⟨S128x2048, .i1⟩
  | .hbm, ⟨13, _⟩ => ⟨S128x2048, .i1⟩
  | .hbm, ⟨14, _⟩ => ⟨S512x15, .f32⟩
  | .hbm, ⟨15, _⟩ => ⟨S512x128, .f32⟩
  | .hbm, ⟨16, _⟩ => ⟨S512, .f32⟩
  | .hbm, ⟨17, _⟩ => ⟨S512, .f32⟩
  | .hbm, ⟨18, _⟩ => ⟨S128x128, .f32⟩
  | .hbm, ⟨19, _⟩ => ⟨S128, .f32⟩
  | .hbm, ⟨20, _⟩ => ⟨S1x128, .f32⟩
  | .hbm, ⟨21, _⟩ => ⟨S1, .f32⟩
  | .hbm, ⟨22, _⟩ => ⟨S128x15, .f32⟩
  | .hbm, ⟨23, _⟩ => ⟨S128x15, .f32⟩
  | .hbm, ⟨24, _⟩ => ⟨S128x15, .f32⟩
  | .hbm, ⟨25, _⟩ => ⟨S384x15, .f32⟩
  | .hbm, ⟨26, _⟩ => ⟨S15x384, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S384, .f32⟩
  | .hbm, ⟨37, _⟩ => ⟨S1x384, .f32⟩
  | .hbm, ⟨38, _⟩ => ⟨S128x128, .f32⟩
  | .hbm, ⟨39, _⟩ => ⟨S1x128, .f32⟩
  | .hbm, ⟨40, _⟩ => ⟨S1x1, .f32⟩
  | .hbm, ⟨41, _⟩ => ⟨S128x2048, .f32⟩
  | .hbm, ⟨42, _⟩ => ⟨S128x2048, .f32⟩
  | .hbm, ⟨43, _⟩ => ⟨S128x5x2048, .f32⟩
  | .hbm, ⟨44, _⟩ => ⟨S128x10240, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S32x256, .f32⟩
  | .local _ .vmem, ⟨12, _⟩ => ⟨S32x256, .f32⟩
  | .local _ .vmem, ⟨13, _⟩ => ⟨S32x256, .f32⟩
  | .local _ .vmem, ⟨14, _⟩ => ⟨S32x256, .f32⟩
  | .local _ .vmem, ⟨15, _⟩ => ⟨S32x256, .f32⟩
  | .local _ .vmem, ⟨16, _⟩ => ⟨S32x256, .f32⟩
  | .local _ .vmem, ⟨17, _⟩ => ⟨S32x256, .f32⟩
  | .local _ .vmem, ⟨18, _⟩ => ⟨S32x1, .f32⟩
  | .local _ .vmem, ⟨19, _⟩ => ⟨S32x1, .f32⟩
  | .local _ .vmem, ⟨20, _⟩ => ⟨S32x256, .f32⟩
  | .local _ .vmem, ⟨21, _⟩ => ⟨S32x256, .f32⟩
  | .local _ .vmem, ⟨22, _⟩ => ⟨S32x256, .f32⟩
  | .local _ .vmem, ⟨23, _⟩ => ⟨S32x256, .f32⟩
  | .local _ .vmem, ⟨24, _⟩ => ⟨S32x256, .f32⟩
  | .local _ .vmem, ⟨25, _⟩ => ⟨S32x256, .f32⟩
  | .local _ .vmem, ⟨26, _⟩ => ⟨S32x256, .f32⟩
  | .local _ .vmem, ⟨27, _⟩ => ⟨S32x256, .f32⟩
  | .local _ .vmem, ⟨28, _⟩ => ⟨S15x384, .f32⟩
  | .local _ .vmem, ⟨29, _⟩ => ⟨S1x384, .f32⟩
  | .local _ .vmem, ⟨30, _⟩ => ⟨S128x128, .f32⟩
  | .local _ .vmem, ⟨31, _⟩ => ⟨S1x128, .f32⟩
  | .local _ .vmem, ⟨32, _⟩ => ⟨S1x128, .f32⟩
  | .local _ .vmem, ⟨33, _⟩ => ⟨S1x1, .f32⟩
  | .local _ .vmem, ⟨34, _⟩ => ⟨S32x5x256, .f32⟩
  | .local _ .vmem, ⟨35, _⟩ => ⟨S32x5x256, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg20_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S32x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S15x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S32x5x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

class Facts₀ : Prop where
  slices_S512x15_S128x15_0_0 : S512x15.Slices ![0, 0] S128x15
  slices_S512x15_S128x15_256_0 : S512x15.Slices ![256, 0] S128x15
  slices_S512x15_S128x15_384_0 : S512x15.Slices ![384, 0] S128x15
  concatenates_S128x15_S128x15_S128x15_S384x15_d0 : Shape.Concatenates [S128x15, S128x15, S128x15] S384x15 0
  transposes_S384x15_S15x384_1_0 : S384x15.Transposes [1, 0] S15x384
  slices_S512_S128_0 : S512.Slices ![0] S128
  slices_S512_S128_256 : S512.Slices ![256] S128
  slices_S512_S128_384 : S512.Slices ![384] S128
  concatenates_S128_S128_S128_S384_d0 : Shape.Concatenates [S128, S128, S128] S384 0
  shapeCasts_S384_S1x384 : S384.ShapeCasts S1x384
  transposes_S128x128_S128x128_1_0 : S128x128.Transposes [1, 0] S128x128
  shapeCasts_S128_S1x128 : S128.ShapeCasts S1x128
  shapeCasts_S1_S1x1 : S1.ShapeCasts S1x1
  inb_S32x256_S32x256_0_0 : ∀ a, (![0, 0] : Fin 2 → Nat) a + S32x256.size a ≤ S32x256.size a
  h_S32x256 : 0 < S32x256.numel
  inb_S32x1_S32x1_0_0 : ∀ a, (![0, 0] : Fin 2 → Nat) a + S32x1.size a ≤ S32x1.size a
  h_S32x1 : 0 < S32x1.numel
  shapeCasts_S32x256_S32x256 : S32x256.ShapeCasts S32x256
  shapeCasts_S32x1_S32x1 : S32x1.ShapeCasts S32x1
  broadcasts_S32x1_S32x256 : S32x1.Broadcasts S32x256
  bitsLt_bf16_f32 : FTy.bits .bf16 < FTy.bits .f32
  shapeCasts_S32x256_S32x256x1 : S32x256.ShapeCasts S32x256x1
  concatenates_S32x256x1_S32x256x1_S32x256x1_S32x256x1_S32x256x1_S32x256x1_S32x256x1_S32x256x1_S32x256x1_S32x256x1_S32x256x1_S32x256x1_S32x256x1_S32x256x1_S32x256x1_S32x256x15_d2 : Shape.Concatenates [S32x256x1, S32x256x1, S32x256x1, S32x256x1, S32x256x1, S32x256x1, S32x256x1, S32x256x1, S32x256x1, S32x256x1, S32x256x1, S32x256x1, S32x256x1, S32x256x1, S32x256x1] S32x256x15 2
  shapeCasts_S32x256x15_S8192x15 : S32x256x15.ShapeCasts S8192x15
  inb_S15x384_S15x384_0_0 : ∀ a, (![0, 0] : Fin 2 → Nat) a + S15x384.size a ≤ S15x384.size a
  h_S15x384 : 0 < S15x384.numel
  shapeCasts_S15x384_S15x384 : S15x384.ShapeCasts S15x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S8192x384 : S1x384.Broadcasts S8192x384
  slices_S8192x384_o0_0_S8192x128 : S8192x384.Slices ![0, 0] S8192x128
  slices_S8192x384_o0_128_S8192x128 : S8192x384.Slices ![0, 128] S8192x128
  slices_S8192x384_o0_256_S8192x128 : S8192x384.Slices ![0, 256] S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  reduces_S8192x128_S8192 : S8192x128.Reduces [1] S8192
  shapeCasts_S8192_S8192x1 : S8192.ShapeCasts S8192x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  shapeCasts_S8192x1_S32x256 : S8192x1.ShapeCasts S32x256
  shapeCasts_S32x256_S32x1x256 : S32x256.ShapeCasts S32x1x256
  concatenates_S32x1x256_S32x1x256_S32x1x256_S32x1x256_S32x1x256_S32x5x256_d1 : Shape.Concatenates [S32x1x256, S32x1x256, S32x1x256, S32x1x256, S32x1x256] S32x5x256 1
  inb_S32x5x256_S32x5x256_0_0_0 : ∀ a, (![0, 0, 0] : Fin 3 → Nat) a + S32x5x256.size a ≤ S32x5x256.size a
  h_S32x5x256 : 0 < S32x5x256.numel
  shapeCasts_S128x5x2048_S128x10240 : S128x5x2048.ShapeCasts S128x10240
  dot_S8192x15_S15x384_S8192x384_1_0_0_1_n_n_wf : DotDims.WF S8192x15 S15x384 S8192x384 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S128x2048.size a
  hwx0_0 : ∀ i : grid0.Coords, EltTy.bits .f32 = 32 ∨ (Rect.block (s := S128x2048) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S128x2048.size a
  hwx0_1 : ∀ i : grid0.Coords, EltTy.bits .f32 = 32 ∨ (Rect.block (s := S128x2048) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S128x2048.size a
  hwx0_2 : ∀ i : grid0.Coords, EltTy.bits .f32 = 32 ∨ (Rect.block (s := S128x2048) S32x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S128x2048.size a
  hwx0_3 : ∀ i : grid0.Coords, EltTy.bits .f32 = 32 ∨ (Rect.block (s := S128x2048) S32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S128x2048.size a
  hwx0_4 : ∀ i : grid0.Coords, EltTy.bits .f32 = 32 ∨ (Rect.block (s := S128x2048) S32x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x256.size a ≤ S128x2048.size a
  hwx0_5 : ∀ i : grid0.Coords, EltTy.bits .f32 = 32 ∨ (Rect.block (s := S128x2048) S32x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x256.size a ≤ S128x2048.size a
  hwx0_6 : ∀ i : grid0.Coords, EltTy.bits .f32 = 32 ∨ (Rect.block (s := S128x2048) S32x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x256.size a ≤ S128x2048.size a
  hwx0_7 : ∀ i : grid0.Coords, EltTy.bits .f32 = 32 ∨ (Rect.block (s := S128x2048) S32x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x256.size a ≤ S128x2048.size a
  hwx0_8 : ∀ i : grid0.Coords, EltTy.bits .f32 = 32 ∨ (Rect.block (s := S128x2048) S32x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x1.size a ≤ S128x1.size a
  hwx0_9 : ∀ i : grid0.Coords, EltTy.bits .f32 = 32 ∨ (Rect.block (s := S128x1) S32x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x256.size a ≤ S128x2048.size a
  hwx0_10 : ∀ i : grid0.Coords, EltTy.bits .f32 = 32 ∨ (Rect.block (s := S128x2048) S32x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S32x256.size a ≤ S128x2048.size a
  hwx0_11 : ∀ i : grid0.Coords, EltTy.bits .f32 = 32 ∨ (Rect.block (s := S128x2048) S32x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S32x256.size a ≤ S128x2048.size a
  hwx0_12 : ∀ i : grid0.Coords, EltTy.bits .f32 = 32 ∨ (Rect.block (s := S128x2048) S32x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S32x256.size a ≤ S128x2048.size a
  hwx0_13 : ∀ i : grid0.Coords, EltTy.bits .f32 = 32 ∨ (Rect.block (s := S128x2048) S32x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S15x384.size a ≤ S15x384.size a
  hwx0_14 : ∀ i : grid0.Coords, EltTy.bits .f32 = 32 ∨ (Rect.block (s := S15x384) S15x384.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x384.size a ≤ S1x384.size a
  hwx0_15 : ∀ i : grid0.Coords, EltTy.bits .f32 = 32 ∨ (Rect.block (s := S1x384) S1x384.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x128.size a ≤ S128x128.size a
  hwx0_16 : ∀ i : grid0.Coords, EltTy.bits .f32 = 32 ∨ (Rect.block (s := S128x128) S128x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x1.size a ≤ S1x1.size a
  hwx0_19 : ∀ i : grid0.Coords, EltTy.bits .f32 = 32 ∨ (Rect.block (s := S1x1) S1x1.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S32x5x256.size a ≤ S128x5x2048.size a
  hwx0_20 : ∀ i : grid0.Coords, EltTy.bits .f32 = 32 ∨ (Rect.block (s := S128x5x2048) S32x5x256.size (cc0_transform_20 i) (hinb0_20 i)).WholeWords (EltTy.packing .f32)

variable [Facts₀]

def dot_S8192x15_S15x384_S8192x384_1_0_0_1_n_n : DotDims S8192x15 S15x384 S8192x384 where
  lhsContracting := [1]
  rhsContracting := [0]
  lhsNonContracting := [0]
  rhsNonContracting := [1]
  lhsBatch := []
  rhsBatch := []
  wf := dot_S8192x15_S15x384_S8192x384_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S32x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S32x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S32x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v19) S32x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v20) S32x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v4) S15x384.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15) S1x384.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v16) S128x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v17) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg20) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v18) S1x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v21) S32x5x256.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S128x2048 : Shape := ⟨2, ![128, 2048]⟩
abbrev S128x1 : Shape := ⟨2, ![128, 1]⟩
abbrev S512x15 : Shape := ⟨2, ![512, 15]⟩
abbrev S512x128 : Shape := ⟨2, ![512, 128]⟩
abbrev S512 : Shape := ⟨1, ![512]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S128x2048x1 : Shape := ⟨3, ![128, 2048, 1]⟩
abbrev S128x2048x15 : Shape := ⟨3, ![128, 2048, 15]⟩
abbrev S262144x15 : Shape := ⟨2, ![262144, 15]⟩
abbrev S15x512 : Shape := ⟨2, ![15, 512]⟩
abbrev S262144x512 : Shape := ⟨2, ![262144, 512]⟩
abbrev S1x512 : Shape := ⟨2, ![1, 512]⟩
abbrev S262144x128 : Shape := ⟨2, ![262144, 128]⟩
abbrev S262144x1 : Shape := ⟨2, ![262144, 1]⟩
abbrev S1x1 : Shape := ⟨2, ![1, 1]⟩
abbrev S128x10240 : Shape := ⟨2, ![128, 10240]⟩

abbrev nBuf : Space → Nat
  | .hbm => 160
  | .vmem => 0
  | .smem => 0
  | _ => 0

abbrev hbmTy0_0 (i : Nat) : BufTy := match i % 128 with
  | 0 => ⟨S128x2048, .f32⟩
  | 1 => ⟨S128x2048, .f32⟩
  | 2 => ⟨S128x2048, .f32⟩
  | 3 => ⟨S128x2048, .f32⟩
  | 4 => ⟨S128x2048, .f32⟩
  | 5 => ⟨S128x2048, .f32⟩
  | 6 => ⟨S128x2048, .f32⟩
  | 7 => ⟨S128x2048, .f32⟩
  | 8 => ⟨S128x2048, .f32⟩
  | 9 => ⟨S128x1, .f32⟩
  | 10 => ⟨S128x2048, .f32⟩
  | 11 => ⟨S128x2048, .f32⟩
  | 12 => ⟨S128x2048, .i1⟩
  | 13 => ⟨S128x2048, .i1⟩
  | 14 => ⟨S512x15, .f32⟩
  | 15 => ⟨S512x128, .f32⟩
  | 16 => ⟨S512, .f32⟩
  | 17 => ⟨S512, .f32⟩
  | 18 => ⟨S128x128, .f32⟩
  | 19 => ⟨S128, .f32⟩
  | 20 => ⟨S1x128, .f32⟩
  | 21 => ⟨S1, .f32⟩
  | 22 => ⟨S128x2048, .f32⟩
  | 23 => ⟨S128x2048, .f32⟩
  | 24 => ⟨S_, .f32⟩
  | 25 => ⟨S128x2048, .f32⟩
  | 26 => ⟨S128x2048, .i1⟩
  | 27 => ⟨S_, .f32⟩
  | 28 => ⟨S_, .f32⟩
  | 29 => ⟨S128x2048, .f32⟩
  | 30 => ⟨S128x2048, .f32⟩
  | 31 => ⟨S128x2048, .f32⟩
  | 32 => ⟨S128x2048, .f32⟩
  | 33 => ⟨S_, .f32⟩
  | 34 => ⟨S128x2048, .f32⟩
  | 35 => ⟨S128x2048, .i1⟩
  | 36 => ⟨S_, .f32⟩
  | 37 => ⟨S_, .f32⟩
  | 38 => ⟨S128x2048, .f32⟩
  | 39 => ⟨S128x2048, .f32⟩
  | 40 => ⟨S128x2048, .f32⟩
  | 41 => ⟨S128x2048, .f32⟩
  | 42 => ⟨S128x2048, .f32⟩
  | 43 => ⟨S128x2048, .f32⟩
  | 44 => ⟨S_, .f32⟩
  | 45 => ⟨S128x2048, .f32⟩
  | 46 => ⟨S128x2048, .f32⟩
  | 47 => ⟨S128x2048, .f32⟩
  | 48 => ⟨S_, .f32⟩
  | 49 => ⟨S_, .f32⟩
  | 50 => ⟨S_, .f32⟩
  | 51 => ⟨S128x2048, .f32⟩
  | 52 => ⟨S128x2048, .f32⟩
  | 53 => ⟨S_, .f32⟩
  | 54 => ⟨S128x2048, .f32⟩
  | 55 => ⟨S128x2048, .f32⟩
  | 56 => ⟨S128x2048, .f32⟩
  | 57 => ⟨S128x2048, .f32⟩
  | 58 => ⟨S128x2048, .f32⟩
  | 59 => ⟨S128x2048, .f32⟩
  | 60 => ⟨S_, .f32⟩
  | 61 => ⟨S128x2048, .f32⟩
  | 62 => ⟨S128x2048, .f32⟩
  | 63 => ⟨S128x2048, .f32⟩
  | 64 => ⟨S_, .f32⟩
  | 65 => ⟨S_, .f32⟩
  | 66 => ⟨S_, .f32⟩
  | 67 => ⟨S128x2048, .f32⟩
  | 68 => ⟨S128x2048, .f32⟩
  | 69 => ⟨S_, .f32⟩
  | 70 => ⟨S128x2048, .f32⟩
  | 71 => ⟨S128x2048, .f32⟩
  | 72 => ⟨S128x2048, .f32⟩
  | 73 => ⟨S128x2048x1, .f32⟩
  | 74 => ⟨S128x2048x1, .f32⟩
  | 75 => ⟨S128x2048x1, .f32⟩
  | 76 => ⟨S128x2048x1, .f32⟩
  | 77 => ⟨S128x2048x1, .f32⟩
  | 78 => ⟨S128x2048x1, .f32⟩
  | 79 => ⟨S128x2048x1, .f32⟩
  | 80 => ⟨S128x2048x1, .f32⟩
  | 81 => ⟨S128x2048x1, .f32⟩
  | 82 => ⟨S128x2048x1, .f32⟩
  | 83 => ⟨S128x2048x1, .f32⟩
  | 84 => ⟨S128x2048x1, .f32⟩
  | 85 => ⟨S128x2048x1, .f32⟩
  | 86 => ⟨S128x2048x1, .f32⟩
  | 87 => ⟨S128x2048x1, .f32⟩
  | 88 => ⟨S128x2048x15, .f32⟩
  | 89 => ⟨S262144x15, .f32⟩
  | 90 => ⟨S15x512, .f32⟩
  | 91 => ⟨S262144x512, .f32⟩
  | 92 => ⟨S1x512, .f32⟩
  | 93 => ⟨S262144x512, .f32⟩
  | 94 => ⟨S262144x512, .f32⟩
  | 95 => ⟨S1x512, .f32⟩
  | 96 => ⟨S262144x512, .f32⟩
  | 97 => ⟨S262144x512, .f32⟩
  | 98 => ⟨S262144x128, .f32⟩
  | 99 => ⟨S262144x128, .f32⟩
  | 100 => ⟨S262144x128, .f32⟩
  | 101 => ⟨S262144x128, .f32⟩
  | 102 => ⟨S262144x128, .f32⟩
  | 103 => ⟨S262144x128, .f32⟩
  | 104 => ⟨S_, .f32⟩
  | 105 => ⟨S262144x128, .f32⟩
  | 106 => ⟨S262144x128, .f32⟩
  | 107 => ⟨S_, .f32⟩
  | 108 => ⟨S262144x128, .f32⟩
  | 109 => ⟨S262144x128, .f32⟩
  | 110 => ⟨S262144x128, .f32⟩
  | 111 => ⟨S262144x128, .f32⟩
  | 112 => ⟨S262144x128, .f32⟩
  | 113 => ⟨S262144x128, .f32⟩
  | 114 => ⟨S_, .f32⟩
  | 115 => ⟨S262144x128, .f32⟩
  | 116 => ⟨S262144x128, .f32⟩
  | 117 => ⟨S_, .f32⟩
  | 118 => ⟨S262144x128, .f32⟩
  | 119 => ⟨S262144x128, .f32⟩
  | 120 => ⟨S262144x128, .f32⟩
  | 121 => ⟨S262144x128, .f32⟩
  | 122 => ⟨S128x128, .f32⟩
  | 123 => ⟨S262144x128, .f32⟩
  | 124 => ⟨S1x128, .f32⟩
  | 125 => ⟨S262144x128, .f32⟩
  | 126 => ⟨S262144x128, .f32⟩
  | 127 => ⟨S_, .f32⟩
  | _ => ⟨S128x2048, .f32⟩

abbrev hbmTy0_1 (i : Nat) : BufTy := match i % 128 with
  | 0 => ⟨S262144x128, .f32⟩
  | 1 => ⟨S262144x128, .f32⟩
  | 2 => ⟨S128x1, .f32⟩
  | 3 => ⟨S262144x1, .f32⟩
  | 4 => ⟨S1x1, .f32⟩
  | 5 => ⟨S262144x1, .f32⟩
  | 6 => ⟨S262144x1, .f32⟩
  | 7 => ⟨S262144x1, .f32⟩
  | 8 => ⟨S128x2048, .f32⟩
  | 9 => ⟨S128x2048, .f32⟩
  | 10 => ⟨S128x2048, .f32⟩
  | 11 => ⟨S128x2048, .f32⟩
  | 12 => ⟨S128x2048, .f32⟩
  | 13 => ⟨S128x2048, .f32⟩
  | 14 => ⟨S128x2048, .f32⟩
  | 15 => ⟨S128x2048, .f32⟩
  | 16 => ⟨S128x2048, .f32⟩
  | 17 => ⟨S128x2048, .f32⟩
  | 18 => ⟨S128x2048, .f32⟩
  | 19 => ⟨S128x2048, .f32⟩
  | 20 => ⟨S128x2048, .f32⟩
  | 21 => ⟨S128x2048, .f32⟩
  | 22 => ⟨S_, .f32⟩
  | 23 => ⟨S_, .f32⟩
  | 24 => ⟨S128x2048, .f32⟩
  | 25 => ⟨S128x2048, .f32⟩
  | 26 => ⟨S128x2048, .f32⟩
  | 27 => ⟨S_, .f32⟩
  | 28 => ⟨S_, .f32⟩
  | 29 => ⟨S128x2048, .f32⟩
  | 30 => ⟨S128x2048, .f32⟩
  | 31 => ⟨S128x10240, .f32⟩
  | _ => ⟨S128x2048, .f32⟩

abbrev hbmTy (i : Nat) : BufTy := match i / 128 with
  | 0 => hbmTy0_0 i
  | 1 => hbmTy0_1 i
  | _ => ⟨S128x2048, .f32⟩

abbrev bufTy : (tb : Table) → Fin (tcTables nBuf tb) → BufTy
  | .hbm, ⟨i, _⟩ => hbmTy i
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_v3 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst_1 : Ref sig .tc := ⟨.hbm, 33, rfl⟩
abbrev main_v7 : Ref sig .tc := ⟨.hbm, 34, rfl⟩
abbrev main_v8 : Ref sig .tc := ⟨.hbm, 35, rfl⟩
abbrev main_cst_2 : Ref sig .tc := ⟨.hbm, 36, rfl⟩
abbrev main_call1_v0 : Ref sig .tc := ⟨.hbm, 37, rfl⟩
abbrev main_call1_v1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_3 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_4 : Ref sig .tc := ⟨.hbm, 48, rfl⟩
abbrev main_cst_5 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_cst_6 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_7 : Ref sig .tc := ⟨.hbm, 64, rfl⟩
abbrev main_cst_8 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_9 : Ref sig .tc := ⟨.hbm, 104, rfl⟩
abbrev main_v58 : Ref sig .tc := ⟨.hbm, 105, rfl⟩
abbrev main_v59 : Ref sig .tc := ⟨.hbm, 106, rfl⟩
abbrev main_cst_10 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_11 : Ref sig .tc := ⟨.hbm, 114, rfl⟩
abbrev main_v66 : Ref sig .tc := ⟨.hbm, 115, rfl⟩
abbrev main_v67 : Ref sig .tc := ⟨.hbm, 116, rfl⟩
abbrev main_cst_12 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_call4_cst : Ref sig .tc := ⟨.hbm, 127, rfl⟩
abbrev main_call4_v0 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_13 : Ref sig .tc := ⟨.hbm, 150, rfl⟩
abbrev main_call5_v0 : Ref sig .tc := ⟨.hbm, 151, rfl⟩
abbrev main_call5_v1 : Ref sig .tc := ⟨.hbm, 152, rfl⟩
abbrev main_v98 : Ref sig .tc := ⟨.hbm, 153, rfl⟩
abbrev main_v99 : Ref sig .tc := ⟨.hbm, 154, rfl⟩
abbrev main_cst_14 : Ref sig .tc := ⟨.hbm, 155, rfl⟩
abbrev main_call6_v0 : Ref sig .tc := ⟨.hbm, 156, rfl⟩
abbrev main_call6_v1 : Ref sig .tc := ⟨.hbm, 157, rfl⟩
abbrev main_v100 : Ref sig .tc := ⟨.hbm, 158, rfl⟩
abbrev main_v101 : Ref sig .tc := ⟨.hbm, 159, rfl⟩

abbrev nD : Nat := 1
abbrev τ : Topo := Topo.v7x

variable {F : FTy → Type} [FloatOps F]

class Facts₀ : Prop where
  bcast_S128x1_S128x2048_0_1 : S128x1.BroadcastsInDim S128x2048 (![0, 1] : Fin 2 → Fin S128x2048.rank)
  bcast_S_S128x2048 : S_.BroadcastsInDim S128x2048 (![] : Fin 0 → Fin S128x2048.rank)
  bcast_S128x2048_S128x2048x1_0_1 : S128x2048.BroadcastsInDim S128x2048x1 (![0, 1] : Fin 2 → Fin S128x2048x1.rank)
  concatenates_S128x2048x1_S128x2048x1_S128x2048x1_S128x2048x1_S128x2048x1_S128x2048x1_S128x2048x1_S128x2048x1_S128x2048x1_S128x2048x1_S128x2048x1_S128x2048x1_S128x2048x1_S128x2048x1_S128x2048x1_S128x2048x15_d2 : Shape.Concatenates [S128x2048x1, S128x2048x1, S128x2048x1, S128x2048x1, S128x2048x1, S128x2048x1, S128x2048x1, S128x2048x1, S128x2048x1, S128x2048x1, S128x2048x1, S128x2048x1, S128x2048x1, S128x2048x1, S128x2048x1] S128x2048x15 2
  shapeCasts_S128x2048x15_S262144x15 : S128x2048x15.ShapeCasts S262144x15
  transposes_S512x15_S15x512_1_0 : S512x15.Transposes [1, 0] S15x512
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  slices_S262144x512_S262144x128_0_0 : S262144x512.Slices ![0, 0] S262144x128
  slices_S262144x512_S262144x128_0_128 : S262144x512.Slices ![0, 128] S262144x128
  slices_S262144x512_S262144x128_0_256 : S262144x512.Slices ![0, 256] S262144x128
  slices_S262144x512_S262144x128_0_384 : S262144x512.Slices ![0, 384] S262144x128
  bcast_S_S262144x128 : S_.BroadcastsInDim S262144x128 (![] : Fin 0 → Fin S262144x128.rank)
  transposes_S128x128_S128x128_1_0 : S128x128.Transposes [1, 0] S128x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  transposes_S1x128_S128x1_1_0 : S1x128.Transposes [1, 0] S128x1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  shapeCasts_S262144x1_S128x2048 : S262144x1.ShapeCasts S128x2048
  concatenates_S128x2048_S128x2048_S128x2048_S128x2048_S128x2048_S128x10240_d1 : Shape.Concatenates [S128x2048, S128x2048, S128x2048, S128x2048, S128x2048] S128x10240 1
  dot_S262144x15_S15x512_S262144x512_1_0_0_1_n_n_wf : DotDims.WF S262144x15 S15x512 S262144x512 [1] [0] [0] [1] [] []
  dot_S262144x128_S128x128_S262144x128_1_0_0_1_n_n_wf : DotDims.WF S262144x128 S128x128 S262144x128 [1] [0] [0] [1] [] []
  dot_S262144x128_S128x1_S262144x1_1_0_0_1_n_n_wf : DotDims.WF S262144x128 S128x1 S262144x1 [1] [0] [0] [1] [] []

variable [Facts₀]

def dot_S262144x15_S15x512_S262144x512_1_0_0_1_n_n : DotDims S262144x15 S15x512 S262144x512 where
  lhsContracting := [1]
  rhsContracting := [0]
  lhsNonContracting := [0]
  rhsNonContracting := [1]
  lhsBatch := []
  rhsBatch := []
  wf := dot_S262144x15_S15x512_S262144x512_1_0_0_1_n_n_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x128_S128x1_S262144x1_1_0_0_1_n_n : DotDims S262144x128 S128x1 S262144x1 where
  lhsContracting := [1]
  rhsContracting := [0]
  lhsNonContracting := [0]
  rhsNonContracting := [1]
  lhsBatch := []
  rhsBatch := []
  wf := dot_S262144x128_S128x1_S262144x1_1_0_0_1_n_n_wf

class Facts : Prop extends Facts₀ where

variable [Facts]
-- ==== Proof.EntryBits.lean ====
/-
  The arrays as the kernel's region finds them: the program's memory after the host operations that precede the
  region (the gate rows sliced, joined and transposed; the two bias vectors added slice by slice and joined; the
  head's first layer transposed; three reshapes; the two flag arrays converted to floats).
-/
import proofs.«101781_j12919261626992_2_alg».proof.Proof.Gen.Kernel.Launch

noncomputable section

namespace Cert.Kernel.Entry

open Idealize.ShloMosaic Idealize.ShloMosaic.TcCoe Idealize.SL.Sem Cert.Kernel Cert.Kernel.Gen

variable {F : FTy → Type} [FloatOps F]

variable (m : (ℓ : Loc nD τ sig) → Buf (Elt F) ℓ)

/-- Core `c`'s buffers when the region is entered, as a valuation. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

end Cert.Kernel.Entry

end
-- ==== Proof.BodyTermBits.lean ====
/-
  The value the kernel body stores, as ONE term of the twenty blocks it loads.  The body is straight-line: it
  loads each input window's block whole (twelve coordinate blocks and the two bound-flag blocks of shape [32, 256],
  the barrier-weight column [32, 1], the fused gate table [15, 384] with its bias row [1, 384], the head's first
  layer [128, 128] with its bias row, the head's last row [1, 128] and its bias [1, 1]), computes, and stores one
  [32, 5, 256] block.  Written over any float instance.
-/
import proofs.«101781_j12919261626992_2_alg».proof.Proof.Gen.Kernel.Skeleton

noncomputable section

namespace Cert.Kernel.Body

open Idealize.ShloMosaic Idealize.SL.Sem Cert.Kernel Cert.Kernel.Gen

variable {F : FTy → Type} [FloatOps F]

/-- The body's stored block from its loads `l0 … l19` (window by window): the guarded multipliers and clipped
    ratios, the fifteen stacked features as an [8192, 15] matrix, the gates, the cell, the head, the step size, and
    the five updated quantities stacked along the middle axis. -/
def bodyVal (l0 l1 l2 l3 l4 l5 l6 l7 l8 : Vec F S32x256 .f32) (l9 : Vec F S32x1 .f32)
    (l10 l11 l12 l13 : Vec F S32x256 .f32) (l14 : Vec F S15x384 .f32) (l15 : Vec F S1x384 .f32)
    (l16 : Vec F S128x128 .f32) (l17 l18 : Vec F S1x128 .f32) (l19 : Vec F S1x1 .f32) : FVec F S32x5x256 .f32 :=
  k0_pay1 l0 l10 l11 (k0_pay2 l12) (k0_pay3 l13) (k0_pay5 l3 l9)
    (k0_pay7 l4 (k0_pay6 l4 l9) (Scalar.ofBits .f32 0x00000000#32))
    (k0_pay8 l1 (k0_pay4 l9) (k0_pay5 l3 l9))
    (k0_pay9 l2 l4 (k0_pay4 l9) (k0_pay6 l4 l9) (Scalar.ofBits .f32 0x00000000#32))
    (k0_pay11 (k0_pay10 l0 l1 l2 l4 l5 l6 l7 l8 (k0_pay4 l9) (k0_pay5 l3 l9) (k0_pay6 l4 l9) (Scalar.ofBits .f32 0x00000000#32)) l14 l15 l16 l17 l18 l19)
    (k0_pay12 l0 (k0_pay10 l0 l1 l2 l4 l5 l6 l7 l8 (k0_pay4 l9) (k0_pay5 l3 l9) (k0_pay6 l4 l9) (Scalar.ofBits .f32 0x00000000#32)) l14 l15 l16 l17 l18 l19)
    (k0_pay13 (F := F))

end Cert.Kernel.Body

end
-- ==== Proof.FrameBits.lean ====
/-
  The frame of the program: every weakly fair execution of @main terminates without a fault and leaves the twenty-two
  argument arrays as they were — together with what the result array holds at the end.  @main is a stretch of host
  operations, one pipelined region over a 4 × 8 grid, and one final reshape.  At every grid point the region's body
  finds each of its twenty input windows' staging buffers holding that window's block of the array the region found
  (whether the block was fetched at this point or is still there from an earlier one), loads them whole, and
  overwrites the output window's buffer whole with one function of those loads (`Body.bodyVal`); nothing else is
  touched.  So after the run the region's result array is, block by block, that function of the input blocks, the
  final reshape reads it, and every argument array — staged or bypassing the region — is unchanged.  Stated over any
  float instance.
-/
import proofs.«101781_j12919261626992_2_alg».proof.Proof.Gen.Kernel.Launch
import proofs.«101781_j12919261626992_2_alg».proof.Proof.Gen.Kernel.Skeleton
import proofs.«101781_j12919261626992_2_alg».proof.Proof.Gen.Kernel.Points
import proofs.«101781_j12919261626992_2_alg».proof.Proof.EntryBits
import proofs.«101781_j12919261626992_2_alg».proof.Proof.BodyTermBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Entry Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it: it reduces to the region
    continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only the region's arrays and the buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array of the region: its one result is the reshaped copy. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host operation -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 21: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Argument 12 bypasses the region, and the reshape after it does not write it: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg12 (by exact (by decide : ∀ w, Pipeline.arrRef spec0 w ≠ main_arg12))]
  exact V_main_arg12 m c

/-- Argument 13 bypasses the region, and the reshape after it does not write it: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg13 (by exact (by decide : ∀ w, Pipeline.arrRef spec0 w ≠ main_arg13))]
  exact V_main_arg13 m c

/-- Argument 14 bypasses the region, and the reshape after it does not write it: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg14 (by exact (by decide : ∀ w, Pipeline.arrRef spec0 w ≠ main_arg14))]
  exact V_main_arg14 m c

/-- Argument 15 bypasses the region, and the reshape after it does not write it: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg15 (by exact (by decide : ∀ w, Pipeline.arrRef spec0 w ≠ main_arg15))]
  exact V_main_arg15 m c

/-- Argument 16 bypasses the region, and the reshape after it does not write it: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg16 (by exact (by decide : ∀ w, Pipeline.arrRef spec0 w ≠ main_arg16))]
  exact V_main_arg16 m c

/-- Argument 17 bypasses the region, and the reshape after it does not write it: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg17 (by exact (by decide : ∀ w, Pipeline.arrRef spec0 w ≠ main_arg17))]
  exact V_main_arg17 m c

/-- Argument 18 bypasses the region, and the reshape after it does not write it: it ends as launched. -/
theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg18 (by exact (by decide : ∀ w, Pipeline.arrRef spec0 w ≠ main_arg18))]
  exact V_main_arg18 m c

/-- Argument 19 bypasses the region, and the reshape after it does not write it: it ends as launched. -/
theorem W_main_arg19 (dats : (p : Fin _) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) := by
  unfold Pipeline.afterTail₀
  rw [StableHlo.after_of_forall_not_mem (b := Proc.devRef .tc main_arg19) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg19 (by exact (by decide : ∀ w, Pipeline.arrRef spec0 w ≠ main_arg19))]
  exact V_main_arg19 m c

/-- Argument 21 bypasses the region, and the reshape after it does not write it: it ends as launched. -/
theorem W_main_arg21 (dats : (p : Fin _) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg21 (by exact (by decide : ∀ w, Pipeline.arrRef spec0 w ≠ main_arg21))]
  exact V_main_arg21 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched
    window's block index has not moved), for any proof data over the region-entry arrays whose body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (an unfetched
    window's block index has not moved), for any proof data over the region-entry arrays whose body leaves it in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (an unfetched
    window's block index has not moved), for any proof data over the region-entry arrays whose body leaves it in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (an unfetched
    window's block index has not moved), for any proof data over the region-entry arrays whose body leaves it in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (an unfetched
    window's block index has not moved), for any proof data over the region-entry arrays whose body leaves it in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (an unfetched
    window's block index has not moved), for any proof data over the region-entry arrays whose body leaves it in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not (an unfetched
    window's block index has not moved), for any proof data over the region-entry arrays whose body leaves it in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not (an unfetched
    window's block index has not moved), for any proof data over the region-entry arrays whose body leaves it in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not (an unfetched
    window's block index has not moved), for any proof data over the region-entry arrays whose body leaves it in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not (an unfetched
    window's block index has not moved), for any proof data over the region-entry arrays whose body leaves it in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not (an unfetched
    window's block index has not moved), for any proof data over the region-entry arrays whose body leaves it in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, fetched there or not (an unfetched
    window's block index has not moved), for any proof data over the region-entry arrays whose body leaves it in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current staging buffer holds its block at every point, fetched there or not (an unfetched
    window's block index has not moved), for any proof data over the region-entry arrays whose body leaves it in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's current staging buffer holds its block at every point, fetched there or not (an unfetched
    window's block index has not moved), for any proof data over the region-entry arrays whose body leaves it in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's current staging buffer holds its block at every point, fetched there or not (an unfetched
    window's block index has not moved), for any proof data over the region-entry arrays whose body leaves it in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- Input window 15's current staging buffer holds its block at every point, fetched there or not (an unfetched
    window's block index has not moved), for any proof data over the region-entry arrays whose body leaves it in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-- Input window 16's current staging buffer holds its block at every point, fetched there or not (an unfetched
    window's block index has not moved), for any proof data over the region-entry arrays whose body leaves it in place. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-- Input window 17's current staging buffer holds its block at every point, fetched there or not (an unfetched
    window's block index has not moved), for any proof data over the region-entry arrays whose body leaves it in place. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-- Input window 18's current staging buffer holds its block at every point, fetched there or not (an unfetched
    window's block index has not moved), for any proof data over the region-entry arrays whose body leaves it in place. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

/-- Input window 19's current staging buffer holds its block at every point, fetched there or not (an unfetched
    window's block index has not moved), for any proof data over the region-entry arrays whose body leaves it in place. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

/-! ## The claims' posts from the region's run -/

/-- In a final state of the library's frame post — every array of the region at what the proof data computes, every
    other buffer as the reshape leaves it — the result array holds the reshape's result, -/
theorem post_main_v22 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_v22) = Pipeline.afterTail₀ cfgs dats 0 (V0 m) [hostOps1] c main_v22 :=
  (h c).2 main_v22 (Pipeline.mem_restRefs_of main_v22 (by decide) (by decide))

/-- and argument 0, staged by window 0 and only read, is as launched; -/
theorem kept_main_arg0 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0) :=
  ((h c).1 0).trans (((dats 0 c).arrAt_in 0 rfl _).trans ((hA c 0).trans (V_main_arg0 m c)))

/-- and argument 1, staged by window 1 and only read, is as launched; -/
theorem kept_main_arg1 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg1) = m ((c.tc : Thread nD τ).loc main_arg1) :=
  ((h c).1 1).trans (((dats 0 c).arrAt_in 1 rfl _).trans ((hA c 1).trans (V_main_arg1 m c)))

/-- and argument 2, staged by window 2 and only read, is as launched; -/
theorem kept_main_arg2 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg2) = m ((c.tc : Thread nD τ).loc main_arg2) :=
  ((h c).1 2).trans (((dats 0 c).arrAt_in 2 rfl _).trans ((hA c 2).trans (V_main_arg2 m c)))

/-- and argument 3, staged by window 3 and only read, is as launched; -/
theorem kept_main_arg3 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg3) = m ((c.tc : Thread nD τ).loc main_arg3) :=
  ((h c).1 3).trans (((dats 0 c).arrAt_in 3 rfl _).trans ((hA c 3).trans (V_main_arg3 m c)))

/-- and argument 4, staged by window 4 and only read, is as launched; -/
theorem kept_main_arg4 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg4) = m ((c.tc : Thread nD τ).loc main_arg4) :=
  ((h c).1 4).trans (((dats 0 c).arrAt_in 4 rfl _).trans ((hA c 4).trans (V_main_arg4 m c)))

/-- and argument 5, staged by window 5 and only read, is as launched; -/
theorem kept_main_arg5 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg5) = m ((c.tc : Thread nD τ).loc main_arg5) :=
  ((h c).1 5).trans (((dats 0 c).arrAt_in 5 rfl _).trans ((hA c 5).trans (V_main_arg5 m c)))

/-- and argument 6, staged by window 6 and only read, is as launched; -/
theorem kept_main_arg6 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg6) = m ((c.tc : Thread nD τ).loc main_arg6) :=
  ((h c).1 6).trans (((dats 0 c).arrAt_in 6 rfl _).trans ((hA c 6).trans (V_main_arg6 m c)))

/-- and argument 7, staged by window 7 and only read, is as launched; -/
theorem kept_main_arg7 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg7) = m ((c.tc : Thread nD τ).loc main_arg7) :=
  ((h c).1 7).trans (((dats 0 c).arrAt_in 7 rfl _).trans ((hA c 7).trans (V_main_arg7 m c)))

/-- and argument 8, staged by window 8 and only read, is as launched; -/
theorem kept_main_arg8 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg8) = m ((c.tc : Thread nD τ).loc main_arg8) :=
  ((h c).1 8).trans (((dats 0 c).arrAt_in 8 rfl _).trans ((hA c 8).trans (V_main_arg8 m c)))

/-- and argument 9, staged by window 9 and only read, is as launched; -/
theorem kept_main_arg9 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg9) = m ((c.tc : Thread nD τ).loc main_arg9) :=
  ((h c).1 9).trans (((dats 0 c).arrAt_in 9 rfl _).trans ((hA c 9).trans (V_main_arg9 m c)))

/-- and argument 10, staged by window 10 and only read, is as launched; -/
theorem kept_main_arg10 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg10) = m ((c.tc : Thread nD τ).loc main_arg10) :=
  ((h c).1 10).trans (((dats 0 c).arrAt_in 10 rfl _).trans ((hA c 10).trans (V_main_arg10 m c)))

/-- and argument 11, staged by window 11 and only read, is as launched; -/
theorem kept_main_arg11 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg11) = m ((c.tc : Thread nD τ).loc main_arg11) :=
  ((h c).1 11).trans (((dats 0 c).arrAt_in 11 rfl _).trans ((hA c 11).trans (V_main_arg11 m c)))

/-- and argument 12, which bypasses the region and is written by nothing, is as launched; -/
theorem kept_main_arg12 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg12) = m ((c.tc : Thread nD τ).loc main_arg12) :=
  ((h c).2 main_arg12 (Pipeline.mem_restRefs_of main_arg12 (by decide) (by decide))).trans (W_main_arg12 m dats c)

/-- and argument 13, which bypasses the region and is written by nothing, is as launched; -/
theorem kept_main_arg13 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg13) = m ((c.tc : Thread nD τ).loc main_arg13) :=
  ((h c).2 main_arg13 (Pipeline.mem_restRefs_of main_arg13 (by decide) (by decide))).trans (W_main_arg13 m dats c)

/-- and argument 14, which bypasses the region and is written by nothing, is as launched; -/
theorem kept_main_arg14 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg14) = m ((c.tc : Thread nD τ).loc main_arg14) :=
  ((h c).2 main_arg14 (Pipeline.mem_restRefs_of main_arg14 (by decide) (by decide))).trans (W_main_arg14 m dats c)

/-- and argument 15, which bypasses the region and is written by nothing, is as launched; -/
theorem kept_main_arg15 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg15) = m ((c.tc : Thread nD τ).loc main_arg15) :=
  ((h c).2 main_arg15 (Pipeline.mem_restRefs_of main_arg15 (by decide) (by decide))).trans (W_main_arg15 m dats c)

/-- and argument 16, which bypasses the region and is written by nothing, is as launched; -/
theorem kept_main_arg16 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg16) = m ((c.tc : Thread nD τ).loc main_arg16) :=
  ((h c).2 main_arg16 (Pipeline.mem_restRefs_of main_arg16 (by decide) (by decide))).trans (W_main_arg16 m dats c)

/-- and argument 17, which bypasses the region and is written by nothing, is as launched; -/
theorem kept_main_arg17 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg17) = m ((c.tc : Thread nD τ).loc main_arg17) :=
  ((h c).2 main_arg17 (Pipeline.mem_restRefs_of main_arg17 (by decide) (by decide))).trans (W_main_arg17 m dats c)

/-- and argument 18, which bypasses the region and is written by nothing, is as launched; -/
theorem kept_main_arg18 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg18) = m ((c.tc : Thread nD τ).loc main_arg18) :=
  ((h c).2 main_arg18 (Pipeline.mem_restRefs_of main_arg18 (by decide) (by decide))).trans (W_main_arg18 m dats c)

/-- and argument 19, which bypasses the region and is written by nothing, is as launched; -/
theorem kept_main_arg19 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg19) = m ((c.tc : Thread nD τ).loc main_arg19) :=
  ((h c).2 main_arg19 (Pipeline.mem_restRefs_of main_arg19 (by decide) (by decide))).trans (W_main_arg19 m dats c)

/-- and argument 20, staged by window 18 and only read, is as launched; -/
theorem kept_main_arg20 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg20) = m ((c.tc : Thread nD τ).loc main_arg20) :=
  ((h c).1 18).trans (((dats 0 c).arrAt_in 18 rfl _).trans ((hA c 18).trans (V_main_arg20 m c)))

/-- and argument 21, which bypasses the region and is written by nothing, is as launched; -/
theorem kept_main_arg21 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg21) = m ((c.tc : Thread nD τ).loc main_arg21) :=
  ((h c).2 main_arg21 (Pipeline.mem_restRefs_of main_arg21 (by decide) (by decide))).trans (W_main_arg21 m dats c)

/-- so a run to that post is a run to: the result array named, the arguments unchanged. -/
theorem full_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v22) = Pipeline.afterTail₀ cfgs dats 0 (V0 m) [hostOps1] c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨post_main_v22 m dats r h c,
      kept_main_arg0 m dats hA r h c,
      kept_main_arg1 m dats hA r h c,
      kept_main_arg2 m dats hA r h c,
      kept_main_arg3 m dats hA r h c,
      kept_main_arg4 m dats hA r h c,
      kept_main_arg5 m dats hA r h c,
      kept_main_arg6 m dats hA r h c,
      kept_main_arg7 m dats hA r h c,
      kept_main_arg8 m dats hA r h c,
      kept_main_arg9 m dats hA r h c,
      kept_main_arg10 m dats hA r h c,
      kept_main_arg11 m dats hA r h c,
      kept_main_arg12 m dats r h c,
      kept_main_arg13 m dats r h c,
      kept_main_arg14 m dats r h c,
      kept_main_arg15 m dats r h c,
      kept_main_arg16 m dats r h c,
      kept_main_arg17 m dats r h c,
      kept_main_arg18 m dats r h c,
      kept_main_arg19 m dats r h c,
      kept_main_arg20 m dats hA r h c,
      kept_main_arg21 m dats r h c⟩) h

/-! ## The body's accesses: each buffer whole -/

abbrev rA : Rect S32x256 := Rect.unit (s := S32x256) ![0, 0] S32x256.size inb_S32x256_S32x256_0_0
abbrev rB : Rect S32x1 := Rect.unit (s := S32x1) ![0, 0] S32x1.size inb_S32x1_S32x1_0_0
abbrev rC : Rect S15x384 := Rect.unit (s := S15x384) ![0, 0] S15x384.size inb_S15x384_S15x384_0_0
abbrev rD : Rect S1x384 := Rect.unit (s := S1x384) ![0, 0] S1x384.size inb_S1x384_S1x384_0_0
abbrev rE : Rect S128x128 := Rect.unit (s := S128x128) ![0, 0] S128x128.size inb_S128x128_S128x128_0_0
abbrev rG : Rect S1x128 := Rect.unit (s := S1x128) ![0, 0] S1x128.size inb_S1x128_S1x128_0_0
abbrev rH : Rect S1x1 := Rect.unit (s := S1x1) ![0, 0] S1x1.size inb_S1x1_S1x1_0_0
abbrev rO : Rect S32x5x256 := Rect.unit (s := S32x5x256) ![0, 0, 0] S32x5x256.size inb_S32x5x256_S32x5x256_0_0_0

/-! ## What the body leaves in the output window's buffer -/

/-- The output window's staging buffer after the body, from the input windows' blocks: its one store, of the body's
    value at the loaded blocks, over the whole buffer. -/
def out0_20 (x0 : Vec F S32x256 .f32) (x1 : Vec F S32x256 .f32) (x2 : Vec F S32x256 .f32) (x3 : Vec F S32x256 .f32) (x4 : Vec F S32x256 .f32) (x5 : Vec F S32x256 .f32) (x6 : Vec F S32x256 .f32) (x7 : Vec F S32x256 .f32) (x8 : Vec F S32x256 .f32) (x9 : Vec F S32x1 .f32) (x10 : Vec F S32x256 .f32) (x11 : Vec F S32x256 .f32) (x12 : Vec F S32x256 .f32) (x13 : Vec F S32x256 .f32) (x14 : Vec F S15x384 .f32) (x15 : Vec F S1x384 .f32) (x16 : Vec F S128x128 .f32) (x17 : Vec F S1x128 .f32) (x18 : Vec F S1x128 .f32) (x19 : Vec F S1x1 .f32) : Vec F S32x5x256 .f32 :=
  View.canon [⟨rO, bodyVal (View.ld x0 rA) (View.ld x1 rA) (View.ld x2 rA) (View.ld x3 rA) (View.ld x4 rA) (View.ld x5 rA) (View.ld x6 rA) (View.ld x7 rA) (View.ld x8 rA) (View.ld x9 rB) (View.ld x10 rA) (View.ld x11 rA) (View.ld x12 rA) (View.ld x13 rA) (View.ld x14 rC) (View.ld x15 rD) (View.ld x16 rE) (View.ld x17 rG) (View.ld x18 rG) (View.ld x19 rH)⟩]

/-- The store covers the buffer. -/
theorem cover0_20 (p0 : Vec F S32x5x256 .f32) (y : S32x5x256.Idx) :
    ∃ pc ∈ ([⟨rO, p0⟩] : List (View.Piece (Elt F) S32x5x256 .f32)), y ∈ pc.1.set :=
  View.cover_of_tiled [⟨rO, p0⟩] S32x5x256.size (by rfl) y

/-! ## The body's triple -/

set_option maxHeartbeats 4000000 in
/-- The kernel body on whole staging buffers, the inputs' at contents `xW` and the output's at anything, runs to the
    continuation with the inputs' as they were and the output's at `out0_20` of the inputs'. -/
theorem sound_kernel (c : Dev nD) (E : Set ℕ) (i : grid0.Coords) (arg2 : Memref sig .tc .vmem S32x256 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256 .f32) (harg8 : arg8.IsWhole) (arg9 : Memref sig .tc .vmem S32x256 .f32) (harg9 : arg9.IsWhole) (arg10 : Memref sig .tc .vmem S32x256 .f32) (harg10 : arg10.IsWhole) (arg11 : Memref sig .tc .vmem S32x1 .f32) (harg11 : arg11.IsWhole) (arg12 : Memref sig .tc .vmem S32x256 .f32) (harg12 : arg12.IsWhole) (arg13 : Memref sig .tc .vmem S32x256 .f32) (harg13 : arg13.IsWhole) (arg14 : Memref sig .tc .vmem S32x256 .f32) (harg14 : arg14.IsWhole) (arg15 : Memref sig .tc .vmem S32x256 .f32) (harg15 : arg15.IsWhole) (arg16 : Memref sig .tc .vmem S15x384 .f32) (harg16 : arg16.IsWhole) (arg17 : Memref sig .tc .vmem S1x384 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x1 .f32) (harg21 : arg21.IsWhole) (arg22 : Memref sig .tc .vmem S32x5x256 .f32) (harg22 : arg22.IsWhole)
    (x0 : Vec F S32x256 .f32) (x1 : Vec F S32x256 .f32) (x2 : Vec F S32x256 .f32) (x3 : Vec F S32x256 .f32) (x4 : Vec F S32x256 .f32) (x5 : Vec F S32x256 .f32) (x6 : Vec F S32x256 .f32) (x7 : Vec F S32x256 .f32) (x8 : Vec F S32x256 .f32) (x9 : Vec F S32x1 .f32) (x10 : Vec F S32x256 .f32) (x11 : Vec F S32x256 .f32) (x12 : Vec F S32x256 .f32) (x13 : Vec F S32x256 .f32) (x14 : Vec F S15x384 .f32) (x15 : Vec F S1x384 .f32) (x16 : Vec F S128x128 .f32) (x17 : Vec F S1x128 .f32) (x18 : Vec F S1x128 .f32) (x19 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare (out0_20 x0 x1 x2 x3 x4 x5 x6 x7 x8 x9 x10 x11 x12 x13 x14 x15 x16 x17 x18 x19)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  iexists _; isplitr
  swap; · iexact H20
  ipureintro
  exact View.read_writes_eq_canon _ _ _ (cover0_20 _)

/-! ## The region's proof data -/

/-- On core `c`: the arrays as the region finds them; after the body at point `t` each input's buffer still at its
    block and the output's at `out0_20` of the input blocks; the rest of the core's memory untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨n + 21, hn⟩ => absurd hn (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

set_option maxHeartbeats 4000000 in
/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel c Set.univ (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem body_obligation (c : Dev nD) : BodyObligation (dats (F := F) m 0 c) (defs₀ (F := F)) Variants.none () Set.univ := fun t => by
  rw [bigSep_W0, bigSep_W0]
  exact sound_body m c t

/-! ## The run, the frame, and the result -/

set_option backward.isDefEq.respectTransparency.types false in
/-- Every weakly fair execution of @main terminates, and every final state has every array of the region at what the
    proof data computes and every other buffer as the reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run with the result array named and the arguments unchanged. -/
theorem run_full : θ_run defs (onTc (τ := τ) (main (F := F))) ⟨m, fun _ => 0, ρ⟩ (fun r => ∀ c : Dev nD,
      r.2.mem ((c.tc : Thread nD τ).loc main_v22) = Pipeline.afterTail₀ cfgs (dats m) 0 (V0 m) [hostOps1] c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  full_of m ρ (dats m) (A_eq m) (run_main m ρ)

end Cert.Kernel.Frm

end
-- ==== Proof.EntryIdeal.lean ====
/-
  The arrays as the kernel's region finds them: the program's memory after the host operations that precede the
  region (the gate rows sliced, joined and transposed; the two bias vectors added slice by slice and joined; the
  head's first layer transposed; three reshapes; the two flag arrays converted to floats).
-/
import proofs.«101781_j12919261626992_2_alg».proof.Proof.Gen.KernelIdeal.Launch

noncomputable section

namespace Cert.KernelIdeal.Entry

open Idealize.ShloMosaic Idealize.ShloMosaic.TcCoe Idealize.SL.Sem Cert.KernelIdeal Cert.KernelIdeal.Gen

variable {F : FTy → Type} [FloatOps F]

variable (m : (ℓ : Loc nD τ sig) → Buf (Elt F) ℓ)

/-- Core `c`'s buffers when the region is entered, as a valuation. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

end Cert.KernelIdeal.Entry

end
-- ==== Proof.BodyTermIdeal.lean ====
/-
  The value the kernel body stores, as ONE term of the twenty blocks it loads.  The body is straight-line: it
  loads each input window's block whole (twelve coordinate blocks and the two bound-flag blocks of shape [32, 256],
  the barrier-weight column [32, 1], the fused gate table [15, 384] with its bias row [1, 384], the head's first
  layer [128, 128] with its bias row, the head's last row [1, 128] and its bias [1, 1]), computes, and stores one
  [32, 5, 256] block.  Written over any float instance.
-/
import proofs.«101781_j12919261626992_2_alg».proof.Proof.Gen.KernelIdeal.Skeleton

noncomputable section

namespace Cert.KernelIdeal.Body

open Idealize.ShloMosaic Idealize.SL.Sem Cert.KernelIdeal Cert.KernelIdeal.Gen

variable {F : FTy → Type} [FloatOps F]

/-- The body's stored block from its loads `l0 … l19` (window by window): the guarded multipliers and clipped
    ratios, the fifteen stacked features as an [8192, 15] matrix, the gates, the cell, the head, the step size, and
    the five updated quantities stacked along the middle axis. -/
def bodyVal (l0 l1 l2 l3 l4 l5 l6 l7 l8 : Vec F S32x256 .f32) (l9 : Vec F S32x1 .f32)
    (l10 l11 l12 l13 : Vec F S32x256 .f32) (l14 : Vec F S15x384 .f32) (l15 : Vec F S1x384 .f32)
    (l16 : Vec F S128x128 .f32) (l17 l18 : Vec F S1x128 .f32) (l19 : Vec F S1x1 .f32) : FVec F S32x5x256 .f32 :=
  k0_pay1 l0 l10 l11 (k0_pay2 l12) (k0_pay3 l13) (k0_pay5 l3 l9)
    (k0_pay7 l4 (k0_pay6 l4 l9) (Scalar.ofBits .f32 0x00000000#32))
    (k0_pay8 l1 (k0_pay4 l9) (k0_pay5 l3 l9))
    (k0_pay9 l2 l4 (k0_pay4 l9) (k0_pay6 l4 l9) (Scalar.ofBits .f32 0x00000000#32))
    (k0_pay11 (k0_pay10 l0 l1 l2 l4 l5 l6 l7 l8 (k0_pay4 l9) (k0_pay5 l3 l9) (k0_pay6 l4 l9) (Scalar.ofBits .f32 0x00000000#32)) l14 l15 l16 l17 l18 l19)
    (k0_pay12 l0 (k0_pay10 l0 l1 l2 l4 l5 l6 l7 l8 (k0_pay4 l9) (k0_pay5 l3 l9) (k0_pay6 l4 l9) (Scalar.ofBits .f32 0x00000000#32)) l14 l15 l16 l17 l18 l19)
    (k0_pay13 (F := F))

end Cert.KernelIdeal.Body

end
-- ==== Proof.FrameIdeal.lean ====
/-
  The frame of the program: every weakly fair execution of @main terminates without a fault and leaves the twenty-two
  argument arrays as they were — together with what the result array holds at the end.  @main is a stretch of host
  operations, one pipelined region over a 4 × 8 grid, and one final reshape.  At every grid point the region's body
  finds each of its twenty input windows' staging buffers holding that window's block of the array the region found
  (whether the block was fetched at this point or is still there from an earlier one), loads them whole, and
  overwrites the output window's buffer whole with one function of those loads (`Body.bodyVal`); nothing else is
  touched.  So after the run the region's result array is, block by block, that function of the input blocks, the
  final reshape reads it, and every argument array — staged or bypassing the region — is unchanged.  Stated over any
  float instance.
-/
import proofs.«101781_j12919261626992_2_alg».proof.Proof.Gen.KernelIdeal.Launch
import proofs.«101781_j12919261626992_2_alg».proof.Proof.Gen.KernelIdeal.Skeleton
import proofs.«101781_j12919261626992_2_alg».proof.Proof.Gen.KernelIdeal.Points
import proofs.«101781_j12919261626992_2_alg».proof.Proof.EntryIdeal
import proofs.«101781_j12919261626992_2_alg».proof.Proof.BodyTermIdeal
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Entry Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it: it reduces to the region
    continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only the region's arrays and the buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array of the region: its one result is the reshaped copy. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host operation -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 21: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Argument 12 bypasses the region, and the reshape after it does not write it: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg12 (by exact (by decide : ∀ w, Pipeline.arrRef spec0 w ≠ main_arg12))]
  exact V_main_arg12 m c

/-- Argument 13 bypasses the region, and the reshape after it does not write it: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg13 (by exact (by decide : ∀ w, Pipeline.arrRef spec0 w ≠ main_arg13))]
  exact V_main_arg13 m c

/-- Argument 14 bypasses the region, and the reshape after it does not write it: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg14 (by exact (by decide : ∀ w, Pipeline.arrRef spec0 w ≠ main_arg14))]
  exact V_main_arg14 m c

/-- Argument 15 bypasses the region, and the reshape after it does not write it: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg15 (by exact (by decide : ∀ w, Pipeline.arrRef spec0 w ≠ main_arg15))]
  exact V_main_arg15 m c

/-- Argument 16 bypasses the region, and the reshape after it does not write it: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg16 (by exact (by decide : ∀ w, Pipeline.arrRef spec0 w ≠ main_arg16))]
  exact V_main_arg16 m c

/-- Argument 17 bypasses the region, and the reshape after it does not write it: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg17 (by exact (by decide : ∀ w, Pipeline.arrRef spec0 w ≠ main_arg17))]
  exact V_main_arg17 m c

/-- Argument 18 bypasses the region, and the reshape after it does not write it: it ends as launched. -/
theorem W_main_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg18 (by exact (by decide : ∀ w, Pipeline.arrRef spec0 w ≠ main_arg18))]
  exact V_main_arg18 m c

/-- Argument 19 bypasses the region, and the reshape after it does not write it: it ends as launched. -/
theorem W_main_arg19 (dats : (p : Fin _) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) := by
  unfold Pipeline.afterTail₀
  rw [StableHlo.after_of_forall_not_mem (b := Proc.devRef .tc main_arg19) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg19 (by exact (by decide : ∀ w, Pipeline.arrRef spec0 w ≠ main_arg19))]
  exact V_main_arg19 m c

/-- Argument 21 bypasses the region, and the reshape after it does not write it: it ends as launched. -/
theorem W_main_arg21 (dats : (p : Fin _) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg21 (by exact (by decide : ∀ w, Pipeline.arrRef spec0 w ≠ main_arg21))]
  exact V_main_arg21 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (an unfetched
    window's block index has not moved), for any proof data over the region-entry arrays whose body leaves it in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (an unfetched
    window's block index has not moved), for any proof data over the region-entry arrays whose body leaves it in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (an unfetched
    window's block index has not moved), for any proof data over the region-entry arrays whose body leaves it in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (an unfetched
    window's block index has not moved), for any proof data over the region-entry arrays whose body leaves it in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (an unfetched
    window's block index has not moved), for any proof data over the region-entry arrays whose body leaves it in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (an unfetched
    window's block index has not moved), for any proof data over the region-entry arrays whose body leaves it in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not (an unfetched
    window's block index has not moved), for any proof data over the region-entry arrays whose body leaves it in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not (an unfetched
    window's block index has not moved), for any proof data over the region-entry arrays whose body leaves it in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not (an unfetched
    window's block index has not moved), for any proof data over the region-entry arrays whose body leaves it in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not (an unfetched
    window's block index has not moved), for any proof data over the region-entry arrays whose body leaves it in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not (an unfetched
    window's block index has not moved), for any proof data over the region-entry arrays whose body leaves it in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, fetched there or not (an unfetched
    window's block index has not moved), for any proof data over the region-entry arrays whose body leaves it in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current staging buffer holds its block at every point, fetched there or not (an unfetched
    window's block index has not moved), for any proof data over the region-entry arrays whose body leaves it in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's current staging buffer holds its block at every point, fetched there or not (an unfetched
    window's block index has not moved), for any proof data over the region-entry arrays whose body leaves it in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's current staging buffer holds its block at every point, fetched there or not (an unfetched
    window's block index has not moved), for any proof data over the region-entry arrays whose body leaves it in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- Input window 15's current staging buffer holds its block at every point, fetched there or not (an unfetched
    window's block index has not moved), for any proof data over the region-entry arrays whose body leaves it in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-- Input window 16's current staging buffer holds its block at every point, fetched there or not (an unfetched
    window's block index has not moved), for any proof data over the region-entry arrays whose body leaves it in place. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-- Input window 17's current staging buffer holds its block at every point, fetched there or not (an unfetched
    window's block index has not moved), for any proof data over the region-entry arrays whose body leaves it in place. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-- Input window 18's current staging buffer holds its block at every point, fetched there or not (an unfetched
    window's block index has not moved), for any proof data over the region-entry arrays whose body leaves it in place. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)

/-- Input window 19's current staging buffer holds its block at every point, fetched there or not (an unfetched
    window's block index has not moved), for any proof data over the region-entry arrays whose body leaves it in place. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

/-! ## The claims' posts from the region's run -/

/-- In a final state of the library's frame post — every array of the region at what the proof data computes, every
    other buffer as the reshape leaves it — the result array holds the reshape's result, -/
theorem post_main_v22 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_v22) = Pipeline.afterTail₀ cfgs dats 0 (V0 m) [hostOps1] c main_v22 :=
  (h c).2 main_v22 (Pipeline.mem_restRefs_of main_v22 (by decide) (by decide))

/-- and argument 0, staged by window 0 and only read, is as launched; -/
theorem kept_main_arg0 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0) :=
  ((h c).1 0).trans (((dats 0 c).arrAt_in 0 rfl _).trans ((hA c 0).trans (V_main_arg0 m c)))

/-- and argument 1, staged by window 1 and only read, is as launched; -/
theorem kept_main_arg1 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg1) = m ((c.tc : Thread nD τ).loc main_arg1) :=
  ((h c).1 1).trans (((dats 0 c).arrAt_in 1 rfl _).trans ((hA c 1).trans (V_main_arg1 m c)))

/-- and argument 2, staged by window 2 and only read, is as launched; -/
theorem kept_main_arg2 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg2) = m ((c.tc : Thread nD τ).loc main_arg2) :=
  ((h c).1 2).trans (((dats 0 c).arrAt_in 2 rfl _).trans ((hA c 2).trans (V_main_arg2 m c)))

/-- and argument 3, staged by window 3 and only read, is as launched; -/
theorem kept_main_arg3 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg3) = m ((c.tc : Thread nD τ).loc main_arg3) :=
  ((h c).1 3).trans (((dats 0 c).arrAt_in 3 rfl _).trans ((hA c 3).trans (V_main_arg3 m c)))

/-- and argument 4, staged by window 4 and only read, is as launched; -/
theorem kept_main_arg4 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg4) = m ((c.tc : Thread nD τ).loc main_arg4) :=
  ((h c).1 4).trans (((dats 0 c).arrAt_in 4 rfl _).trans ((hA c 4).trans (V_main_arg4 m c)))

/-- and argument 5, staged by window 5 and only read, is as launched; -/
theorem kept_main_arg5 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg5) = m ((c.tc : Thread nD τ).loc main_arg5) :=
  ((h c).1 5).trans (((dats 0 c).arrAt_in 5 rfl _).trans ((hA c 5).trans (V_main_arg5 m c)))

/-- and argument 6, staged by window 6 and only read, is as launched; -/
theorem kept_main_arg6 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg6) = m ((c.tc : Thread nD τ).loc main_arg6) :=
  ((h c).1 6).trans (((dats 0 c).arrAt_in 6 rfl _).trans ((hA c 6).trans (V_main_arg6 m c)))

/-- and argument 7, staged by window 7 and only read, is as launched; -/
theorem kept_main_arg7 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg7) = m ((c.tc : Thread nD τ).loc main_arg7) :=
  ((h c).1 7).trans (((dats 0 c).arrAt_in 7 rfl _).trans ((hA c 7).trans (V_main_arg7 m c)))

/-- and argument 8, staged by window 8 and only read, is as launched; -/
theorem kept_main_arg8 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg8) = m ((c.tc : Thread nD τ).loc main_arg8) :=
  ((h c).1 8).trans (((dats 0 c).arrAt_in 8 rfl _).trans ((hA c 8).trans (V_main_arg8 m c)))

/-- and argument 9, staged by window 9 and only read, is as launched; -/
theorem kept_main_arg9 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg9) = m ((c.tc : Thread nD τ).loc main_arg9) :=
  ((h c).1 9).trans (((dats 0 c).arrAt_in 9 rfl _).trans ((hA c 9).trans (V_main_arg9 m c)))

/-- and argument 10, staged by window 10 and only read, is as launched; -/
theorem kept_main_arg10 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg10) = m ((c.tc : Thread nD τ).loc main_arg10) :=
  ((h c).1 10).trans (((dats 0 c).arrAt_in 10 rfl _).trans ((hA c 10).trans (V_main_arg10 m c)))

/-- and argument 11, staged by window 11 and only read, is as launched; -/
theorem kept_main_arg11 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg11) = m ((c.tc : Thread nD τ).loc main_arg11) :=
  ((h c).1 11).trans (((dats 0 c).arrAt_in 11 rfl _).trans ((hA c 11).trans (V_main_arg11 m c)))

/-- and argument 12, which bypasses the region and is written by nothing, is as launched; -/
theorem kept_main_arg12 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg12) = m ((c.tc : Thread nD τ).loc main_arg12) :=
  ((h c).2 main_arg12 (Pipeline.mem_restRefs_of main_arg12 (by decide) (by decide))).trans (W_main_arg12 m dats c)

/-- and argument 13, which bypasses the region and is written by nothing, is as launched; -/
theorem kept_main_arg13 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg13) = m ((c.tc : Thread nD τ).loc main_arg13) :=
  ((h c).2 main_arg13 (Pipeline.mem_restRefs_of main_arg13 (by decide) (by decide))).trans (W_main_arg13 m dats c)

/-- and argument 14, which bypasses the region and is written by nothing, is as launched; -/
theorem kept_main_arg14 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg14) = m ((c.tc : Thread nD τ).loc main_arg14) :=
  ((h c).2 main_arg14 (Pipeline.mem_restRefs_of main_arg14 (by decide) (by decide))).trans (W_main_arg14 m dats c)

/-- and argument 15, which bypasses the region and is written by nothing, is as launched; -/
theorem kept_main_arg15 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg15) = m ((c.tc : Thread nD τ).loc main_arg15) :=
  ((h c).2 main_arg15 (Pipeline.mem_restRefs_of main_arg15 (by decide) (by decide))).trans (W_main_arg15 m dats c)

/-- and argument 16, which bypasses the region and is written by nothing, is as launched; -/
theorem kept_main_arg16 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg16) = m ((c.tc : Thread nD τ).loc main_arg16) :=
  ((h c).2 main_arg16 (Pipeline.mem_restRefs_of main_arg16 (by decide) (by decide))).trans (W_main_arg16 m dats c)

/-- and argument 17, which bypasses the region and is written by nothing, is as launched; -/
theorem kept_main_arg17 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg17) = m ((c.tc : Thread nD τ).loc main_arg17) :=
  ((h c).2 main_arg17 (Pipeline.mem_restRefs_of main_arg17 (by decide) (by decide))).trans (W_main_arg17 m dats c)

/-- and argument 18, which bypasses the region and is written by nothing, is as launched; -/
theorem kept_main_arg18 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg18) = m ((c.tc : Thread nD τ).loc main_arg18) :=
  ((h c).2 main_arg18 (Pipeline.mem_restRefs_of main_arg18 (by decide) (by decide))).trans (W_main_arg18 m dats c)

/-- and argument 19, which bypasses the region and is written by nothing, is as launched; -/
theorem kept_main_arg19 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg19) = m ((c.tc : Thread nD τ).loc main_arg19) :=
  ((h c).2 main_arg19 (Pipeline.mem_restRefs_of main_arg19 (by decide) (by decide))).trans (W_main_arg19 m dats c)

/-- and argument 20, staged by window 18 and only read, is as launched; -/
theorem kept_main_arg20 (dats : (p : Fin 1) → (c : Dev nD) → Dat τ (Elt F) Unit ℕ (UR sig nD τ) ℕ (cfgs p) c) (hA : ∀ c w, (dats 0 c).A w = V m c (Pipeline.arrRef spec0 w)) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg20) = m ((c.tc : Thread nD τ).loc main_arg20) :=
  ((h c).1 18).trans (((dats 0 c).arrAt_in 18 rfl _).trans ((hA c 18).trans (V_main_arg20 m c)))

/-- and argument 21, which bypasses the region and is written by nothing, is as launched; -/
theorem kept_main_arg21 (dats : (p : Fin 1) → (c : Dev nD) → Dat τ (Elt F) Unit ℕ (UR sig nD τ) ℕ (cfgs p) c) (r : PUnit × MemSt nD τ sig (Elt F)) (h : Pipeline.FramePost cfgs dats 0 (Pipeline.afterTail₀ cfgs dats 0 (V0 m) [hostOps1]) r) (c : Dev nD) :
    r.2.mem ((c.tc : Thread nD τ).loc main_arg21) = m ((c.tc : Thread nD τ).loc main_arg21) :=
  ((h c).2 main_arg21 (Pipeline.mem_restRefs_of main_arg21 (by decide) (by decide))).trans (W_main_arg21 m dats c)

/-- so a run to that post is a run to: the result array named, the arguments unchanged. -/
theorem full_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v22) = Pipeline.afterTail₀ cfgs dats 0 (V0 m) [hostOps1] c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨post_main_v22 m dats r h c,
      kept_main_arg0 m dats hA r h c,
      kept_main_arg1 m dats hA r h c,
      kept_main_arg2 m dats hA r h c,
      kept_main_arg3 m dats hA r h c,
      kept_main_arg4 m dats hA r h c,
      kept_main_arg5 m dats hA r h c,
      kept_main_arg6 m dats hA r h c,
      kept_main_arg7 m dats hA r h c,
      kept_main_arg8 m dats hA r h c,
      kept_main_arg9 m dats hA r h c,
      kept_main_arg10 m dats hA r h c,
      kept_main_arg11 m dats hA r h c,
      kept_main_arg12 m dats r h c,
      kept_main_arg13 m dats r h c,
      kept_main_arg14 m dats r h c,
      kept_main_arg15 m dats r h c,
      kept_main_arg16 m dats r h c,
      kept_main_arg17 m dats r h c,
      kept_main_arg18 m dats r h c,
      kept_main_arg19 m dats r h c,
      kept_main_arg20 m dats hA r h c,
      kept_main_arg21 m dats r h c⟩) h

/-! ## The body's accesses: each buffer whole -/

abbrev rA : Rect S32x256 := Rect.unit (s := S32x256) ![0, 0] S32x256.size inb_S32x256_S32x256_0_0
abbrev rB : Rect S32x1 := Rect.unit (s := S32x1) ![0, 0] S32x1.size inb_S32x1_S32x1_0_0
abbrev rC : Rect S15x384 := Rect.unit (s := S15x384) ![0, 0] S15x384.size inb_S15x384_S15x384_0_0
abbrev rD : Rect S1x384 := Rect.unit (s := S1x384) ![0, 0] S1x384.size inb_S1x384_S1x384_0_0
abbrev rE : Rect S128x128 := Rect.unit (s := S128x128) ![0, 0] S128x128.size inb_S128x128_S128x128_0_0
abbrev rG : Rect S1x128 := Rect.unit (s := S1x128) ![0, 0] S1x128.size inb_S1x128_S1x128_0_0
abbrev rH : Rect S1x1 := Rect.unit (s := S1x1) ![0, 0] S1x1.size inb_S1x1_S1x1_0_0
abbrev rO : Rect S32x5x256 := Rect.unit (s := S32x5x256) ![0, 0, 0] S32x5x256.size inb_S32x5x256_S32x5x256_0_0_0

/-! ## What the body leaves in the output window's buffer -/

/-- The output window's staging buffer after the body, from the input windows' blocks: its one store, of the body's
    value at the loaded blocks, over the whole buffer. -/
def out0_20 (x0 : Vec F S32x256 .f32) (x1 : Vec F S32x256 .f32) (x2 : Vec F S32x256 .f32) (x3 : Vec F S32x256 .f32) (x4 : Vec F S32x256 .f32) (x5 : Vec F S32x256 .f32) (x6 : Vec F S32x256 .f32) (x7 : Vec F S32x256 .f32) (x8 : Vec F S32x256 .f32) (x9 : Vec F S32x1 .f32) (x10 : Vec F S32x256 .f32) (x11 : Vec F S32x256 .f32) (x12 : Vec F S32x256 .f32) (x13 : Vec F S32x256 .f32) (x14 : Vec F S15x384 .f32) (x15 : Vec F S1x384 .f32) (x16 : Vec F S128x128 .f32) (x17 : Vec F S1x128 .f32) (x18 : Vec F S1x128 .f32) (x19 : Vec F S1x1 .f32) : Vec F S32x5x256 .f32 :=
  View.canon [⟨rO, bodyVal (View.ld x0 rA) (View.ld x1 rA) (View.ld x2 rA) (View.ld x3 rA) (View.ld x4 rA) (View.ld x5 rA) (View.ld x6 rA) (View.ld x7 rA) (View.ld x8 rA) (View.ld x9 rB) (View.ld x10 rA) (View.ld x11 rA) (View.ld x12 rA) (View.ld x13 rA) (View.ld x14 rC) (View.ld x15 rD) (View.ld x16 rE) (View.ld x17 rG) (View.ld x18 rG) (View.ld x19 rH)⟩]

/-- The store covers the buffer. -/
theorem cover0_20 (p0 : Vec F S32x5x256 .f32) (y : S32x5x256.Idx) :
    ∃ pc ∈ ([⟨rO, p0⟩] : List (View.Piece (Elt F) S32x5x256 .f32)), y ∈ pc.1.set :=
  View.cover_of_tiled [⟨rO, p0⟩] S32x5x256.size (by rfl) y

/-! ## The body's triple -/

set_option maxHeartbeats 4000000 in
/-- The kernel body on whole staging buffers, the inputs' at contents `xW` and the output's at anything, runs to the
    continuation with the inputs' as they were and the output's at `out0_20` of the inputs'. -/
theorem sound_kernel (c : Dev nD) (E : Set ℕ) (i : grid0.Coords) (arg2 : Memref sig .tc .vmem S32x256 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S32x256 .f32) (harg5 : arg5.IsWhole) (arg6 : Memref sig .tc .vmem S32x256 .f32) (harg6 : arg6.IsWhole) (arg7 : Memref sig .tc .vmem S32x256 .f32) (harg7 : arg7.IsWhole) (arg8 : Memref sig .tc .vmem S32x256 .f32) (harg8 : arg8.IsWhole) (arg9 : Memref sig .tc .vmem S32x256 .f32) (harg9 : arg9.IsWhole) (arg10 : Memref sig .tc .vmem S32x256 .f32) (harg10 : arg10.IsWhole) (arg11 : Memref sig .tc .vmem S32x1 .f32) (harg11 : arg11.IsWhole) (arg12 : Memref sig .tc .vmem S32x256 .f32) (harg12 : arg12.IsWhole) (arg13 : Memref sig .tc .vmem S32x256 .f32) (harg13 : arg13.IsWhole) (arg14 : Memref sig .tc .vmem S32x256 .f32) (harg14 : arg14.IsWhole) (arg15 : Memref sig .tc .vmem S32x256 .f32) (harg15 : arg15.IsWhole) (arg16 : Memref sig .tc .vmem S15x384 .f32) (harg16 : arg16.IsWhole) (arg17 : Memref sig .tc .vmem S1x384 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S1x1 .f32) (harg21 : arg21.IsWhole) (arg22 : Memref sig .tc .vmem S32x5x256 .f32) (harg22 : arg22.IsWhole)
    (x0 : Vec F S32x256 .f32) (x1 : Vec F S32x256 .f32) (x2 : Vec F S32x256 .f32) (x3 : Vec F S32x256 .f32) (x4 : Vec F S32x256 .f32) (x5 : Vec F S32x256 .f32) (x6 : Vec F S32x256 .f32) (x7 : Vec F S32x256 .f32) (x8 : Vec F S32x256 .f32) (x9 : Vec F S32x1 .f32) (x10 : Vec F S32x256 .f32) (x11 : Vec F S32x256 .f32) (x12 : Vec F S32x256 .f32) (x13 : Vec F S32x256 .f32) (x14 : Vec F S15x384 .f32) (x15 : Vec F S1x384 .f32) (x16 : Vec F S128x128 .f32) (x17 : Vec F S1x128 .f32) (x18 : Vec F S1x128 .f32) (x19 : Vec F S1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare (out0_20 x0 x1 x2 x3 x4 x5 x6 x7 x8 x9 x10 x11 x12 x13 x14 x15 x16 x17 x18 x19)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  iexists _; isplitr
  swap; · iexact H20
  ipureintro
  exact View.read_writes_eq_canon _ _ _ (cover0_20 _)

/-! ## The region's proof data -/

/-- On core `c`: the arrays as the region finds them; after the body at point `t` each input's buffer still at its
    block and the output's at `out0_20` of the input blocks; the rest of the core's memory untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨n + 21, hn⟩ => absurd hn (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

set_option maxHeartbeats 4000000 in
/-- The body at any point: the inputs' buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel c Set.univ (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem body_obligation (c : Dev nD) : BodyObligation (dats (F := F) m 0 c) (defs₀ (F := F)) Variants.none () Set.univ := fun t => by
  rw [bigSep_W0, bigSep_W0]
  exact sound_body m c t

/-! ## The run, the frame, and the result -/

set_option backward.isDefEq.respectTransparency.types false in
/-- Every weakly fair execution of @main terminates, and every final state has every array of the region at what the
    proof data computes and every other buffer as the reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run with the result array named and the arguments unchanged. -/
theorem run_full : θ_run defs (onTc (τ := τ) (main (F := F))) ⟨m, fun _ => 0, ρ⟩ (fun r => ∀ c : Dev nD,
      r.2.mem ((c.tc : Thread nD τ).loc main_v22) = Pipeline.afterTail₀ cfgs (dats m) 0 (V0 m) [hostOps1] c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  full_of m ρ (dats m) (A_eq m) (run_main m ρ)

end Cert.KernelIdeal.Frm

end
-- ==== Proof.StepSpec.lean ====
/-
  One learned update step of a box-constrained interior-point iteration, coordinate by coordinate, over the
  extended reals.  For a coordinate with iterate x, slacks x1 x2, multipliers z1 z2, four auxiliary values, barrier
  weight mu and bounds lb ub:  a multiplier whose sum with mu is not positive is dropped to zero;  the clipped ratios
  d1 = clip((z1 + mu) / (x1 + mu + eps), 0, 100) and d2 likewise;  fifteen features of the coordinate go through one
  LSTM cell started from the zero state (so only the input, cell and output gates matter) and a two-layer head, and
  the absolute value of the head's output is the step size p;  then
      x'  = x + (0 - p) * x,      z1' = z1 - d1 * ((0 - p) * x + z1),      z2' = z2 - d2 * (p * x + z2),
      x1' = x' - lb where a lower bound is present, else 0,      x2' = ub - x' where an upper bound is present, else 0.
  Nothing here needs finiteness: both programs compute exactly these expressions, and they differ only in how the
  gate weights and biases are laid out (see `gateRow`) and in the association of the two bias additions.
-/
import Idealize.ShloMosaic.PureOps.Ideal
import Idealize.ShloMosaic.Lib.ValueIdx

noncomputable section

open scoped BigOperators

namespace Cert.StepSpec

open Idealize.ShloMosaic Idealize.ShloMosaic.ValueIdx

/-- The float words the step names — 0, the single-precision rounding of 1e-12, 100 and 1/2 — kept as words: the
    same word stands on both sides and is never evaluated. -/
abbrev w0 : EReal := Ideal.ofBits .f32 0x00000000#32
abbrev wEps : EReal := Ideal.ofBits .f32 0x2B8CBCCC#32
abbrev w100 : EReal := Ideal.ofBits .f32 0x42C80000#32
abbrev wHalf : EReal := Ideal.ofBits .f32 0x3F000000#32

/-- A multiplier is dropped to zero when it and the barrier weight do not sum to something positive. -/
def guard (z mu : EReal) : EReal := Scalar.select (Ideal.cmp .ole (z + mu) w0) w0 z

/-- The ratio (z + mu) / ((x + mu) + eps) clipped into [0, 100]. -/
def ratio (zg x mu : EReal) : EReal := min w100 (max w0 (Ideal.div (zg + mu) ((x + mu) + wEps)))

/-- The fifteen features of one coordinate, in the order both programs stack them. -/
def feat (x x1 x2 z1g z2g x1E x2E z1E z2E mu d1 d2 : EReal) : Fin 15 → EReal :=
  ![x, x1, x2, z1g, z2g, x, z1g, z2g, x1E, x2E, z1E, z2E, mu, d1, d2]

/-- An affine form: the inner product of `f` with one column of weights, plus that column's bias. -/
def lin {n : Nat} (f w : Fin n → EReal) (b : EReal) : EReal := (∑ k, f k * w k) + b

/-- The absolute value on the extended reals. -/
def absE (s : EReal) : EReal := max s (-s)

/-- The step size of one coordinate.  `Wg k c` is the weight of feature `k` in gate column `c`: columns 0–127
    are the input gate, 128–255 the cell gate, 256–383 the output gate.  The cell state is
    sigmoid(input) · tanh(cell), the hidden state sigmoid(output) · tanh(cell state); the head is
    relu(h · W1ᵀ + b1) · w2 + b2. -/
def stepSize (f : Fin 15 → EReal) (Wg : Fin 15 → Fin 384 → EReal) (bg : Fin 384 → EReal)
    (W1T : Fin 128 → Fin 128 → EReal) (b1 : Fin 128 → EReal) (w2 : Fin 128 → EReal) (b2 : EReal) : EReal :=
  let g : Fin 384 → EReal := fun c => lin f (fun k => Wg k c) (bg c)
  let h : Fin 128 → EReal := fun j =>
    Ideal.logistic (g ⟨j.val + 256, by have := j.isLt; omega⟩)
      * Ideal.tanh (Ideal.logistic (g ⟨j.val, by have := j.isLt; omega⟩) * Ideal.tanh (g ⟨j.val + 128, by have := j.isLt; omega⟩))
  let t : Fin 128 → EReal := fun i => max (lin h (fun j => W1T j i) (b1 i)) w0
  absE (lin t w2 b2)

/-- The five results of one coordinate: x', x1', x2', z1', z2'.  `hl` / `hu` are the bound-present flags as
    floats (1 or 0), tested against 1/2. -/
def row (x x1 x2 z1 z2 x1E x2E z1E z2E mu lb ub hl hu : EReal)
    (Wg : Fin 15 → Fin 384 → EReal) (bg : Fin 384 → EReal)
    (W1T : Fin 128 → Fin 128 → EReal) (b1 : Fin 128 → EReal) (w2 : Fin 128 → EReal) (b2 : EReal) : Fin 5 → EReal :=
  let z1g := guard z1 mu
  let z2g := guard z2 mu
  let d1 := ratio z1g x1 mu
  let d2 := ratio z2g x2 mu
  let p := stepSize (feat x x1 x2 z1g z2g x1E x2E z1E z2E mu d1 d2) Wg bg W1T b1 w2 b2
  let xn := x + (w0 - p) * x
  ![xn,
    Scalar.select (Ideal.cmp .ogt hl wHalf) (xn - lb) w0,
    Scalar.select (Ideal.cmp .ogt hu wHalf) (ub - xn) w0,
    z1g - d1 * ((w0 - p) * x + z1g),
    z2g - d2 * (p * x + z2g)]

/-- Gate column `c` of the fused 384-column table is row `gateRow c` of the 512-row LSTM table (gate order input,
    forget, cell, output): the input gate's rows 0–127, the cell gate's 256–383, the output gate's 384–511. -/
def gateRow (c : Fin 384) : Fin 512 :=
  ⟨if c.val < 128 then c.val else c.val + 128, by have := c.isLt; split <;> omega⟩

/-- THE SPECIFICATION: the [128, 5·2048] result as one function of the argument arrays.  Entry (b, k·2048 + n) is
    result `k` of coordinate (b, n).  The arguments are, in the programs' order: x, x1, x2, z1, z2, the four
    auxiliary arrays, mu (one per row b), lb, ub, the two flag arrays (one bit each), the LSTM input weights
    [512, 15], its two bias vectors [512], the head's W1 [128, 128], b1 [128], W2 [1, 128] and b2 [1].  (The
    recurrent weights multiply the zero state and do not appear.) -/
def G (a0 a1 a2 a3 a4 a5 a6 a7 a8 : (⟨2, ![128, 2048]⟩ : Shape).Idx → EReal)
    (a9 : (⟨2, ![128, 1]⟩ : Shape).Idx → EReal)
    (a10 a11 : (⟨2, ![128, 2048]⟩ : Shape).Idx → EReal)
    (a12 a13 : (⟨2, ![128, 2048]⟩ : Shape).Idx → BitVec 1)
    (a14 : (⟨2, ![512, 15]⟩ : Shape).Idx → EReal)
    (a16 a17 : (⟨1, ![512]⟩ : Shape).Idx → EReal)
    (a18 : (⟨2, ![128, 128]⟩ : Shape).Idx → EReal)
    (a19 : (⟨1, ![128]⟩ : Shape).Idx → EReal)
    (a20 : (⟨2, ![1, 128]⟩ : Shape).Idx → EReal)
    (a21 : (⟨1, ![1]⟩ : Shape).Idx → EReal) :
    (⟨2, ![128, 10240]⟩ : Shape).Idx → EReal :=
  fun i =>
    let b : Fin 128 := i 0
    let n : Fin 2048 := ⟨(i 1).val % 2048, Nat.mod_lt _ (by norm_num)⟩
    let k : Fin 5 := ⟨(i 1).val / 2048, by have := idx2_lt1 i; omega⟩
    row (a0 (ix2 b n)) (a1 (ix2 b n)) (a2 (ix2 b n)) (a3 (ix2 b n)) (a4 (ix2 b n)) (a5 (ix2 b n))
      (a6 (ix2 b n)) (a7 (ix2 b n)) (a8 (ix2 b n)) (a9 (ix2 b (0 : Fin 1))) (a10 (ix2 b n)) (a11 (ix2 b n))
      (FloatOps.uitofp (F := Ideal) .f32 (a12 (ix2 b n))) (FloatOps.uitofp (F := Ideal) .f32 (a13 (ix2 b n)))
      (fun kk c => a14 (ix2 (gateRow c) kk)) (fun c => a16 (ix1 (gateRow c)) + a17 (ix1 (gateRow c)))
      (fun j i' => a18 (ix2 i' j)) (fun i' => a19 (ix1 i')) (fun i' => a20 (ix2 (0 : Fin 1) i')) (a21 (ix1 (0 : Fin 1))) k

end Cert.StepSpec

end
-- ==== Proof.EntryValue.lean ====
/-
  The arrays the kernel's region finds, and the final reshape, read at an index.  Before the region the program
  prepares seven arrays from its arguments: the rows of the three gates that matter (input, cell, output) are cut out
  of the [512, 15] weight table, stacked and transposed into a [15, 384] table; the two [512] bias vectors are added
  slice by slice and the three sums laid end to end as a [1, 384] row; the head's first-layer weights are transposed;
  its two biases are reshaped to a row and to a one-by-one array; the two one-bit flag arrays are converted to floats.
  Each is read here at an index as a function of the argument arrays: column `col` of the gate table and of the bias
  row is row `gateRow col` of the arguments.  After the region its [128, 5, 2048] result is reshaped to [128, 10240]:
  entry (b, k · 2048 + n) is entry (b, k, n).
-/
import proofs.«101781_j12919261626992_2_alg».proof.Proof.EntryIdeal
import proofs.«101781_j12919261626992_2_alg».proof.Proof.StepSpec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.EntryValue

open Idealize.ShloMosaic Idealize.ShloMosaic.TcCoe Idealize.SL.Sem Idealize.ShloMosaic.ValueIdx
open Cert.KernelIdeal Cert.KernelIdeal.Gen Cert.KernelIdeal.Entry
open Cert.StepSpec (gateRow)

variable (m : (ℓ : Loc nD τ sig) → Buf (Elt Ideal) ℓ) (c : Dev nD)

/-! ## Reading the operations' results -/

/-- A three-operand operation's result, each operand's contents at its own reference. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- The same statement, in the form the one-pass reading of the results below takes. -/
theorem nary3_result' {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The host operations' results read off in one pass: each operation at its own result buffer is its function of
    its operands' contents, at any other buffer what was there. -/
macro "host_results" : tactic =>
  `(tactic| (simp (disch := decide) only [StableHlo.after_cons, StableHlo.after_nil,
      nary3_result', StableHlo.unary_result', StableHlo.binary_result', StableHlo.reshape_result',
      StableHlo.unary_result_ne', StableHlo.binary_result_ne', StableHlo.reshape_result_ne', StableHlo.nary_result_ne']))

/-! ## Three pieces laid end to end, and a cut of a vector, at an index -/

/-- Three pieces of one shape laid end to end along an axis: at an index whose axis coordinate lies in the first
    extent, and whose other coordinates are the piece index's, the whole reads the first piece … -/
theorem concatenate3_apply_fst {α : Type} {t s : Shape} (a : Fin t.rank) (x0 x1 x2 : s.Idx → α)
    (h : Shape.Concatenates [s, s, s] t a) (j : t.Idx) (hr : s.rank = t.rank) (i : s.Idx)
    (hi : ∀ b : Fin s.rank, b.cast hr ≠ a → (i b).val = (j (b.cast hr)).val)
    (ha : (i (a.cast hr.symm)).val = (j a).val) :
    concatenate t a [⟨s, x0⟩, ⟨s, x1⟩, ⟨s, x2⟩] h j = x0 i :=
  concatenate_apply_piece a [⟨s, x0⟩, ⟨s, x1⟩, ⟨s, x2⟩] h j 0 (by simp) s x0 rfl hr 0 (by simp) i hi
    (by simpa using ha)

/-- … one extent further on the second … -/
theorem concatenate3_apply_snd {α : Type} {t s : Shape} (a : Fin t.rank) (x0 x1 x2 : s.Idx → α)
    (h : Shape.Concatenates [s, s, s] t a) (j : t.Idx) (hr : s.rank = t.rank) (i : s.Idx)
    (hi : ∀ b : Fin s.rank, b.cast hr ≠ a → (i b).val = (j (b.cast hr)).val)
    (ha : s.size (a.cast hr.symm) + (i (a.cast hr.symm)).val = (j a).val) :
    concatenate t a [⟨s, x0⟩, ⟨s, x1⟩, ⟨s, x2⟩] h j = x1 i :=
  concatenate_apply_piece a [⟨s, x0⟩, ⟨s, x1⟩, ⟨s, x2⟩] h j 1 (by simp) s x1 rfl hr (s.size (a.cast hr.symm))
    (by simp [hr]) i hi ha

/-- … and two extents further on the third. -/
theorem concatenate3_apply_thd {α : Type} {t s : Shape} (a : Fin t.rank) (x0 x1 x2 : s.Idx → α)
    (h : Shape.Concatenates [s, s, s] t a) (j : t.Idx) (hr : s.rank = t.rank) (i : s.Idx)
    (hi : ∀ b : Fin s.rank, b.cast hr ≠ a → (i b).val = (j (b.cast hr)).val)
    (ha : 2 * s.size (a.cast hr.symm) + (i (a.cast hr.symm)).val = (j a).val) :
    concatenate t a [⟨s, x0⟩, ⟨s, x1⟩, ⟨s, x2⟩] h j = x2 i :=
  concatenate_apply_piece a [⟨s, x0⟩, ⟨s, x1⟩, ⟨s, x2⟩] h j 2 (by simp) s x2 rfl hr (2 * s.size (a.cast hr.symm))
    (by simp [hr, Nat.two_mul]) i hi ha

/-! ## The prepared arrays at an index -/

/-- The head's first-layer weights, transposed. -/
theorem V_v16_apply (j i : Fin 128) :
    (V m c main_v16 : S128x128.Idx → EReal) (ix2 j i) = (m ((c : Thread nD τ).loc main_arg18) : S128x128.Idx → EReal) (ix2 i j) := by
  have e : (V m c main_v16 : S128x128.Idx → EReal) = transpose S128x128 [1, 0] (m ((c : Thread nD τ).loc main_arg18) : S128x128.Idx → EReal) transposes_S128x128_S128x128_1_0 := by
    show StableHlo.after hostOps0 (fun b => m (c, b)) (Proc.devRef .tc main_v16) = _
    after_results
  rw [e]
  exact transpose_ix2_apply _ _ j i

/-- The head's first-layer bias as a row. -/
theorem V_v17_apply (i : Fin 128) :
    (V m c main_v17 : S1x128.Idx → EReal) (ix2 (0 : Fin 1) i) = (m ((c : Thread nD τ).loc main_arg19) : S128.Idx → EReal) (ix1 i) := by
  have e : (V m c main_v17 : S1x128.Idx → EReal) = shapeCast S1x128 (m ((c : Thread nD τ).loc main_arg19) : S128.Idx → EReal) shapeCasts_S128_S1x128 := by
    show StableHlo.after hostOps0 (fun b => m (c, b)) (Proc.devRef .tc main_v17) = _
    after_results
    rfl
  rw [e]
  exact shapeCast_a_1a_apply _ _ (0 : Fin 1) i

/-- The head's second-layer bias as a one-by-one array. -/
theorem V_v18_apply :
    (V m c main_v18 : S1x1.Idx → EReal) (ix2 (0 : Fin 1) (0 : Fin 1)) = (m ((c : Thread nD τ).loc main_arg21) : S1.Idx → EReal) (ix1 (0 : Fin 1)) := by
  have e : (V m c main_v18 : S1x1.Idx → EReal) = shapeCast S1x1 (m ((c : Thread nD τ).loc main_arg21) : S1.Idx → EReal) shapeCasts_S1_S1x1 := by
    show StableHlo.after hostOps0 (fun b => m (c, b)) (Proc.devRef .tc main_v18) = _
    after_results
    rfl
  rw [e]
  exact shapeCast_a_1a_apply _ _ (0 : Fin 1) (0 : Fin 1)

/-- The lower-bound flags as floats. -/
theorem V_v19_apply (b : Fin 128) (n : Fin 2048) :
    (V m c main_v19 : S128x2048.Idx → EReal) (ix2 b n)
      = FloatOps.uitofp (F := Ideal) .f32 ((m ((c : Thread nD τ).loc main_arg12) : S128x2048.Idx → BitVec 1) (ix2 b n)) := by
  have e : (V m c main_v19 : S128x2048.Idx → EReal) = uitofp (F := Ideal) .f32 (m ((c : Thread nD τ).loc main_arg12) : S128x2048.Idx → BitVec 1) := by
    show StableHlo.after hostOps0 (fun b => m (c, b)) (Proc.devRef .tc main_v19) = _
    after_results
  rw [e]
  rfl

/-- The upper-bound flags as floats. -/
theorem V_v20_apply (b : Fin 128) (n : Fin 2048) :
    (V m c main_v20 : S128x2048.Idx → EReal) (ix2 b n)
      = FloatOps.uitofp (F := Ideal) .f32 ((m ((c : Thread nD τ).loc main_arg13) : S128x2048.Idx → BitVec 1) (ix2 b n)) := by
  have e : (V m c main_v20 : S128x2048.Idx → EReal) = uitofp (F := Ideal) .f32 (m ((c : Thread nD τ).loc main_arg13) : S128x2048.Idx → BitVec 1) := by
    show StableHlo.after hostOps0 (fun b => m (c, b)) (Proc.devRef .tc main_v20) = _
    after_results
  rw [e]
  rfl

/-- The gate table as the operations build it: three row blocks of the weight table, stacked, transposed. -/
theorem V_v4_eq :
    (V m c main_v4 : S15x384.Idx → EReal)
      = transpose S15x384 [1, 0]
          (concatenate S384x15 0
            [⟨S128x15, extractStridedSlice S128x15 ![0, 0] (m ((c : Thread nD τ).loc main_arg14) : S512x15.Idx → EReal) slices_S512x15_S128x15_0_0⟩,
             ⟨S128x15, extractStridedSlice S128x15 ![256, 0] (m ((c : Thread nD τ).loc main_arg14) : S512x15.Idx → EReal) slices_S512x15_S128x15_256_0⟩,
             ⟨S128x15, extractStridedSlice S128x15 ![384, 0] (m ((c : Thread nD τ).loc main_arg14) : S512x15.Idx → EReal) slices_S512x15_S128x15_384_0⟩]
            concatenates_S128x15_S128x15_S128x15_S384x15_d0)
          transposes_S384x15_S15x384_1_0 := by
  show StableHlo.after hostOps0 (fun b => m (c, b)) (Proc.devRef .tc main_v4) = _
  host_results
  rfl

/-- The gate table the region reads: gate column `col` of feature `kk` is row `gateRow col` of the LSTM table. -/
theorem V_v4_apply (kk : Fin 15) (col : Fin 384) :
    (V m c main_v4 : S15x384.Idx → EReal) (ix2 kk col)
      = (m ((c : Thread nD τ).loc main_arg14) : S512x15.Idx → EReal) (ix2 (gateRow col) kk) := by
  rw [V_v4_eq]
  refine (transpose_ix2_apply _ _ kk col).trans ?_
  have hc := col.isLt
  have hoff : ∀ (i : S128x15.Idx), i = ix2 (i 0) kk → ∀ b : Fin 2, b ≠ (0 : Fin 2) → (i b).val = ((ix2 col kk : S384x15.Idx) b).val := by
    intro i hi b hb
    match b with
    | ⟨0, _⟩ => exact absurd rfl hb
    | ⟨1, _⟩ => rw [hi]
  by_cases h0 : col.val < 128
  · refine (concatenate3_apply_fst (t := S384x15) (s := S128x15) (0 : Fin 2) _ _ _ _ (ix2 col kk) rfl
      (ix2 (⟨col.val, h0⟩ : Fin 128) kk) (hoff _ rfl) ?_).trans ?_
    · show col.val = col.val
      omega
    · exact slice2_axis0_apply 0 _ _ _ kk (gateRow col) (by
        show (if col.val < 128 then col.val else col.val + 128) = 0 + col.val
        rw [if_pos h0]; omega)
  · by_cases h1 : col.val < 256
    · refine (concatenate3_apply_snd (t := S384x15) (s := S128x15) (0 : Fin 2) _ _ _ _ (ix2 col kk) rfl
        (ix2 (⟨col.val - 128, by omega⟩ : Fin 128) kk) (hoff _ rfl) ?_).trans ?_
      · show 128 + (col.val - 128) = col.val
        omega
      · exact slice2_axis0_apply 256 _ _ _ kk (gateRow col) (by
          show (if col.val < 128 then col.val else col.val + 128) = 256 + (col.val - 128)
          rw [if_neg h0]; omega)
    · refine (concatenate3_apply_thd (t := S384x15) (s := S128x15) (0 : Fin 2) _ _ _ _ (ix2 col kk) rfl
        (ix2 (⟨col.val - 256, by omega⟩ : Fin 128) kk) (hoff _ rfl) ?_).trans ?_
      · show 2 * 128 + (col.val - 256) = col.val
        omega
      · exact slice2_axis0_apply 384 _ _ _ kk (gateRow col) (by
          show (if col.val < 128 then col.val else col.val + 128) = 384 + (col.val - 256)
          rw [if_neg h0]; omega)

/-- The gate biases as the operations build them: three slices of the two bias vectors added, laid end to end,
    reshaped to a row. -/
theorem V_v15_eq :
    (V m c main_v15 : S1x384.Idx → EReal)
      = shapeCast S1x384
          (concatenate S384 0
            [⟨S128, addf (F := Ideal) (φ := .f32)
                (extractStridedSlice S128 ![0] (m ((c : Thread nD τ).loc main_arg16) : S512.Idx → EReal) slices_S512_S128_0)
                (extractStridedSlice S128 ![0] (m ((c : Thread nD τ).loc main_arg17) : S512.Idx → EReal) slices_S512_S128_0)⟩,
             ⟨S128, addf (F := Ideal) (φ := .f32)
                (extractStridedSlice S128 ![256] (m ((c : Thread nD τ).loc main_arg16) : S512.Idx → EReal) slices_S512_S128_256)
                (extractStridedSlice S128 ![256] (m ((c : Thread nD τ).loc main_arg17) : S512.Idx → EReal) slices_S512_S128_256)⟩,
             ⟨S128, addf (F := Ideal) (φ := .f32)
                (extractStridedSlice S128 ![384] (m ((c : Thread nD τ).loc main_arg16) : S512.Idx → EReal) slices_S512_S128_384)
                (extractStridedSlice S128 ![384] (m ((c : Thread nD τ).loc main_arg17) : S512.Idx → EReal) slices_S512_S128_384)⟩]
            concatenates_S128_S128_S128_S384_d0)
          shapeCasts_S384_S1x384 := by
  show StableHlo.after hostOps0 (fun b => m (c, b)) (Proc.devRef .tc main_v15) = _
  host_results
  rfl

/-- A vector cut from `o` reads, at `j`, the source at `k = o + j`. -/
theorem slice1_apply {α : Type} {n0 n : Nat} (o : Nat) (X : (⟨1, ![n0]⟩ : Shape).Idx → α)
    (h : (⟨1, ![n0]⟩ : Shape).Slices ![o] ⟨1, ![n]⟩) (j : Fin n) (k : Fin n0) (hk : k.val = o + j.val) :
    extractStridedSlice ⟨1, ![n]⟩ ![o] X h (ix1 j) = X (ix1 k) :=
  extractStridedSlice_apply _ _ _ _ _ (fun ax => by
    match ax with
    | ⟨0, _⟩ => exact hk)

/-- The gate biases the region reads: column `col` is the sum of the two bias vectors at row `gateRow col`. -/
theorem V_v15_apply (col : Fin 384) :
    (V m c main_v15 : S1x384.Idx → EReal) (ix2 (0 : Fin 1) col)
      = @HAdd.hAdd EReal EReal EReal _ (m ((c : Thread nD τ).loc main_arg16) (ix1 (gateRow col)))
          (m ((c : Thread nD τ).loc main_arg17) (ix1 (gateRow col))) := by
  rw [V_v15_eq]
  refine (shapeCast_a_1a_apply _ _ (0 : Fin 1) col).trans ?_
  have hc := col.isLt
  have hoff : ∀ (i : S128.Idx) (b : Fin 1), b ≠ (0 : Fin 1) → (i b).val = ((ix1 col : S384.Idx) b).val := by
    intro i b hb
    match b with
    | ⟨0, _⟩ => exact absurd rfl hb
  by_cases h0 : col.val < 128
  · have hg : (gateRow col).val = 0 + col.val := by
      show (if col.val < 128 then col.val else col.val + 128) = 0 + col.val
      rw [if_pos h0]; omega
    refine (concatenate3_apply_fst (t := S384) (s := S128) (0 : Fin 1) _ _ _ _ (ix1 col) rfl
      (ix1 (⟨col.val, h0⟩ : Fin 128)) (hoff _) ?_).trans ?_
    · show col.val = col.val
      omega
    · exact congrArg₂ (· + ·) (slice1_apply 0 _ _ _ (gateRow col) hg) (slice1_apply 0 _ _ _ (gateRow col) hg)
  · by_cases h1 : col.val < 256
    · have hg : (gateRow col).val = 256 + (col.val - 128) := by
        show (if col.val < 128 then col.val else col.val + 128) = 256 + (col.val - 128)
        rw [if_neg h0]; omega
      refine (concatenate3_apply_snd (t := S384) (s := S128) (0 : Fin 1) _ _ _ _ (ix1 col) rfl
        (ix1 (⟨col.val - 128, by omega⟩ : Fin 128)) (hoff _) ?_).trans ?_
      · show 128 + (col.val - 128) = col.val
        omega
      · exact congrArg₂ (· + ·) (slice1_apply 256 _ _ _ (gateRow col) hg) (slice1_apply 256 _ _ _ (gateRow col) hg)
    · have hg : (gateRow col).val = 384 + (col.val - 256) := by
        show (if col.val < 128 then col.val else col.val + 128) = 384 + (col.val - 256)
        rw [if_neg h0]; omega
      refine (concatenate3_apply_thd (t := S384) (s := S128) (0 : Fin 1) _ _ _ _ (ix1 col) rfl
        (ix1 (⟨col.val - 256, by omega⟩ : Fin 128)) (hoff _) ?_).trans ?_
      · show 2 * 128 + (col.val - 256) = col.val
        omega
      · exact congrArg₂ (· + ·) (slice1_apply 384 _ _ _ (gateRow col) hg) (slice1_apply 384 _ _ _ (gateRow col) hg)

/-! ## The final reshape -/

/-- The final reshape: entry (b, k·2048 + n) of the [128, 10240] result is entry (b, k, n) of the [128, 5, 2048] array. -/
theorem tail_apply (X : S128x5x2048.Idx → EReal) (b : Fin 128) (k : Fin 5) (n : Fin 2048) :
    shapeCast S128x10240 X shapeCasts_S128x5x2048_S128x10240
        (ix2 b (⟨k.val * 2048 + n.val, by have := k.isLt; have := n.isLt; omega⟩ : Fin 10240))
      = X (ix3 b k n) :=
  shapeCast_apply X _ _ _ (by
    rw [Shape.rowMajor_val_three, Shape.rowMajor_val_two]
    show (b.val * 5 + k.val) * 2048 + n.val = b.val * 10240 + (k.val * 2048 + n.val)
    omega)

end Cert.KernelIdeal.EntryValue

end
-- ==== Proof.RegionFn.lean ====
/-
  The region's result as ONE function of the arrays the region found: entry (b, k, n) of the [128, 5, 2048] result is
  result k of the update step at coordinate (b, n) — the coordinate arrays read at (b, n), the barrier weight at row
  b, the weight tables whole.
-/
import proofs.«101781_j12919261626992_2_alg».proof.Proof.FrameIdeal
import proofs.«101781_j12919261626992_2_alg».proof.Proof.StepSpec
import Idealize.ShloMosaic.Lib.Pipeline.Value
import Idealize.ShloMosaic.Lib.StableHlo.Run
import Idealize.ShloMosaic.Lib.ValueIdx

set_option maxRecDepth 16384

noncomputable section

namespace Cert.KernelIdeal.Region

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Entry Cert.KernelIdeal.Frm Cert.KernelIdeal.Body Cert.StepSpec

variable (m : (ℓ : Loc nD τ sig) → Buf (Elt Ideal) ℓ) (ρ : Dev nD → PrngReg)

/-- Entry (b, k, n) is result `k` of the update step at coordinate (b, n), over the arrays the region found (window by
    window). -/
def R (c : Dev nD) : S128x5x2048.Idx → EReal := fun i =>
  let b : Fin 128 := i 0
  let k : Fin 5 := i 1
  let n : Fin 2048 := i 2
  row ((V m c (Pipeline.arrRef spec0 0) : S128x2048.Idx → EReal) (ix2 b n))
      ((V m c (Pipeline.arrRef spec0 1) : S128x2048.Idx → EReal) (ix2 b n))
      ((V m c (Pipeline.arrRef spec0 2) : S128x2048.Idx → EReal) (ix2 b n))
      ((V m c (Pipeline.arrRef spec0 3) : S128x2048.Idx → EReal) (ix2 b n))
      ((V m c (Pipeline.arrRef spec0 4) : S128x2048.Idx → EReal) (ix2 b n))
      ((V m c (Pipeline.arrRef spec0 5) : S128x2048.Idx → EReal) (ix2 b n))
      ((V m c (Pipeline.arrRef spec0 6) : S128x2048.Idx → EReal) (ix2 b n))
      ((V m c (Pipeline.arrRef spec0 7) : S128x2048.Idx → EReal) (ix2 b n))
      ((V m c (Pipeline.arrRef spec0 8) : S128x2048.Idx → EReal) (ix2 b n))
      ((V m c (Pipeline.arrRef spec0 9) : S128x1.Idx → EReal) (ix2 b (0 : Fin 1)))
      ((V m c (Pipeline.arrRef spec0 10) : S128x2048.Idx → EReal) (ix2 b n))
      ((V m c (Pipeline.arrRef spec0 11) : S128x2048.Idx → EReal) (ix2 b n))
      ((V m c (Pipeline.arrRef spec0 12) : S128x2048.Idx → EReal) (ix2 b n))
      ((V m c (Pipeline.arrRef spec0 13) : S128x2048.Idx → EReal) (ix2 b n))
      (fun kk col => (V m c (Pipeline.arrRef spec0 14) : S15x384.Idx → EReal) (ix2 kk col))
      (fun col => (V m c (Pipeline.arrRef spec0 15) : S1x384.Idx → EReal) (ix2 (0 : Fin 1) col))
      (fun j i' => (V m c (Pipeline.arrRef spec0 16) : S128x128.Idx → EReal) (ix2 j i'))
      (fun i' => (V m c (Pipeline.arrRef spec0 17) : S1x128.Idx → EReal) (ix2 (0 : Fin 1) i'))
      (fun i' => (V m c (Pipeline.arrRef spec0 18) : S1x128.Idx → EReal) (ix2 (0 : Fin 1) i'))
      ((V m c (Pipeline.arrRef spec0 19) : S1x1.Idx → EReal) (ix2 (0 : Fin 1) (0 : Fin 1))) k

end Cert.KernelIdeal.Region

end
-- ==== Proof.BodyValue.lean ====
/-
  The block the kernel body stores, read at an index.  Entry (p, k, q) of the [32, 5, 256] block is result k of the
  specification's update step at coordinate (p, q) of the loaded blocks.  Each stage is read at an index in turn: the
  barrier-weight column broadcast along the lanes; the guarded multipliers and the clipped ratios; the feature matrix,
  whose row p·256 + q holds the fifteen features of coordinate (p, q); the gate pre-activations as affine forms (a
  product into the zero block plus a broadcast bias row); the hidden state from three column slices; the two-layer head,
  whose last layer is a lane sum; and the five results stacked along the middle axis.
-/
import proofs.«101781_j12919261626992_2_alg».proof.Proof.BodyTermIdeal
import proofs.«101781_j12919261626992_2_alg».proof.Proof.StepSpec
import Idealize.ShloMosaic.Lib.ValueLayout
import Idealize.ShloMosaic.PureOps.Ideal.Laws

noncomputable section

open scoped BigOperators

namespace Cert.KernelIdeal.BodyValue

open Idealize.ShloMosaic Idealize.ShloMosaic.ValueIdx Cert.KernelIdeal Cert.KernelIdeal.Gen Cert.StepSpec

section Layout
variable {α : Type}

/-- A [32, 256] array cast to [32, 256, 1] reads, at (p, q, 0), the operand at (p, q). -/
theorem cast_pq1_apply (x : S32x256.Idx → α) (h : S32x256.ShapeCasts S32x256x1) (p : Fin 32) (q : Fin 256) (u : Fin 1) :
    shapeCast S32x256x1 x h (ix3 p q u) = x (ix2 p q) :=
  shapeCast_apply x h _ _ (by
    have hu : u.val = 0 := by omega
    rw [Shape.rowMajor_val_three, Shape.rowMajor_val_two]
    show p.val * 256 + q.val = (p.val * 256 + q.val) * 1 + u.val
    omega)

/-- A [32, 256] array cast to [32, 1, 256] reads, at (p, 0, q), the operand at (p, q). -/
theorem cast_p1q_apply (x : S32x256.Idx → α) (h : S32x256.ShapeCasts S32x1x256) (p : Fin 32) (u : Fin 1) (q : Fin 256) :
    shapeCast S32x1x256 x h (ix3 p u q) = x (ix2 p q) :=
  shapeCast_apply x h _ _ (by
    have hu : u.val = 0 := by omega
    rw [Shape.rowMajor_val_three, Shape.rowMajor_val_two]
    show p.val * 256 + q.val = (p.val * 1 + u.val) * 256 + q.val
    omega)

/-- A [32, 256, 15] array cast to [8192, 15] reads, at (p·256 + q, k), the operand at (p, q, k). -/
theorem cast_rows_apply (x : S32x256x15.Idx → α) (h : S32x256x15.ShapeCasts S8192x15) (p : Fin 32) (q : Fin 256)
    (r : Fin 8192) (hr : r.val = p.val * 256 + q.val) (k : Fin 15) :
    shapeCast S8192x15 x h (ix2 r k) = x (ix3 p q k) :=
  shapeCast_apply x h _ _ (by
    rw [Shape.rowMajor_val_three, Shape.rowMajor_val_two]
    show (p.val * 256 + q.val) * 15 + k.val = r.val * 15 + k.val
    rw [hr])

/-- An [8192, 1] array cast to [32, 256] reads, at (p, q), the operand at (p·256 + q, 0). -/
theorem cast_col_apply (x : S8192x1.Idx → α) (h : S8192x1.ShapeCasts S32x256) (p : Fin 32) (q : Fin 256)
    (r : Fin 8192) (hr : r.val = p.val * 256 + q.val) :
    shapeCast S32x256 x h (ix2 p q) = x (ix2 r (0 : Fin 1)) :=
  shapeCast_apply x h _ _ (by
    rw [Shape.rowMajor_val_two, Shape.rowMajor_val_two]
    show r.val * 1 + 0 = p.val * 256 + q.val
    omega)

/-- An [8192] array cast to [8192, 1] reads, at (r, 0), the operand at r. -/
theorem cast_keep_apply (x : S8192.Idx → α) (h : S8192.ShapeCasts S8192x1) (r : Fin 8192) (u : Fin 1) :
    shapeCast S8192x1 x h (ix2 r u) = x (ix1 r) :=
  shapeCast_apply x h _ _ (by
    have hu : u.val = 0 := by omega
    rw [Shape.rowMajor_val_two, Shape.rowMajor_val_one]
    show r.val = r.val * 1 + u.val
    omega)

/-- The one entry of a [1, 1] array broadcast to [8192, 1]. -/
theorem bcast_11_apply (x : S1x1.Idx → α) (h : S1x1.Broadcasts S8192x1) (r : Fin 8192) (u : Fin 1) :
    broadcastTo S8192x1 x h (ix2 r u) = x (ix2 (0 : Fin 1) (0 : Fin 1)) := by
  refine broadcastTo_apply x h (ix2 r u) (ix2 (0 : Fin 1) (0 : Fin 1)) fun a => ?_
  match a with
  | ⟨0, _⟩ => rfl
  | ⟨1, _⟩ => rfl

end Layout

section Stack
variable {α : Type}

/-- Fifteen [32, 256, 1] pieces laid along the last axis: at (p, q, k) the stack reads piece k at (p, q, 0). -/
theorem stack15_apply (f : Fin 15 → (S32x256x1.Idx → α))
    (h : Shape.Concatenates (([⟨S32x256x1, f 0⟩, ⟨S32x256x1, f 1⟩, ⟨S32x256x1, f 2⟩, ⟨S32x256x1, f 3⟩, ⟨S32x256x1, f 4⟩,
      ⟨S32x256x1, f 5⟩, ⟨S32x256x1, f 6⟩, ⟨S32x256x1, f 7⟩, ⟨S32x256x1, f 8⟩, ⟨S32x256x1, f 9⟩, ⟨S32x256x1, f 10⟩,
      ⟨S32x256x1, f 11⟩, ⟨S32x256x1, f 12⟩, ⟨S32x256x1, f 13⟩, ⟨S32x256x1, f 14⟩] : List ((s : Shape) × (s.Idx → α))).map (·.1)) S32x256x15 2)
    (p : Fin 32) (q : Fin 256) (k : Fin 15) :
    concatenate S32x256x15 2 [⟨S32x256x1, f 0⟩, ⟨S32x256x1, f 1⟩, ⟨S32x256x1, f 2⟩, ⟨S32x256x1, f 3⟩, ⟨S32x256x1, f 4⟩,
      ⟨S32x256x1, f 5⟩, ⟨S32x256x1, f 6⟩, ⟨S32x256x1, f 7⟩, ⟨S32x256x1, f 8⟩, ⟨S32x256x1, f 9⟩, ⟨S32x256x1, f 10⟩,
      ⟨S32x256x1, f 11⟩, ⟨S32x256x1, f 12⟩, ⟨S32x256x1, f 13⟩, ⟨S32x256x1, f 14⟩] h (ix3 p q k)
      = f k (ix3 p q (0 : Fin 1)) := by
  refine concatenate_ofFn_unit_apply (t := S32x256x15) (s₁ := S32x256x1) 2 f h rfl rfl (ix3 p q k) k rfl
    (ix3 p q (0 : Fin 1)) fun b hb => ?_
  match b, hb with
  | ⟨0, _⟩, _ => rfl
  | ⟨1, _⟩, _ => rfl
  | ⟨2, _⟩, hb => exact absurd rfl hb

/-- Five [32, 1, 256] pieces laid along the middle axis: at (p, k, q) the stack reads piece k at (p, 0, q). -/
theorem stack5_apply (f : Fin 5 → (S32x1x256.Idx → α))
    (h : Shape.Concatenates (([⟨S32x1x256, f 0⟩, ⟨S32x1x256, f 1⟩, ⟨S32x1x256, f 2⟩, ⟨S32x1x256, f 3⟩,
      ⟨S32x1x256, f 4⟩] : List ((s : Shape) × (s.Idx → α))).map (·.1)) S32x5x256 1)
    (p : Fin 32) (k : Fin 5) (q : Fin 256) :
    concatenate S32x5x256 1 [⟨S32x1x256, f 0⟩, ⟨S32x1x256, f 1⟩, ⟨S32x1x256, f 2⟩, ⟨S32x1x256, f 3⟩,
      ⟨S32x1x256, f 4⟩] h (ix3 p k q) = f k (ix3 p (0 : Fin 1) q) := by
  refine concatenate_ofFn_unit_apply (t := S32x5x256) (s₁ := S32x1x256) 1 f h rfl rfl (ix3 p k q) k rfl
    (ix3 p (0 : Fin 1) q) fun b hb => ?_
  match b, hb with
  | ⟨0, _⟩, _ => rfl
  | ⟨1, _⟩, hb => exact absurd rfl hb
  | ⟨2, _⟩, _ => rfl

end Stack

section Products

/-- The first product, into the zero block: at (r, c) the sum over the fifteen features of row r's feature times the
    weight in column c. -/
theorem prod15_apply (A : FVec Ideal S8192x15 .bf16) (B : FVec Ideal S15x384 .bf16) (r : Fin 8192) (c : Fin 384) :
    matmul dot_S8192x15_S15x384_S8192x384_1_0_0_1_n_n none A B (constant (F := Ideal) S8192x384 .f32 0x00000000#32) (ix2 r c)
      = ∑ k : Fin 15, A (ix2 r k) * B (ix2 k c) := by
  refine (Ideal.matmul_constant_zero_apply dot_S8192x15_S15x384_S8192x384_1_0_0_1_n_n none A B (ix2 r c)).trans ?_
  rw [← Equiv.sum_comp (contrEquiv1 dot_S8192x15_S15x384_S8192x384_1_0_0_1_n_n 15 rfl rfl).symm]
  refine Finset.sum_congr rfl fun k _ => ?_
  have hk := contrEquiv1_symm_val dot_S8192x15_S15x384_S8192x384_1_0_0_1_n_n 15 rfl rfl k
  have el : dot_S8192x15_S15x384_S8192x384_1_0_0_1_n_n.lhsIdx (ix2 r c)
      ((contrEquiv1 dot_S8192x15_S15x384_S8192x384_1_0_0_1_n_n 15 rfl rfl).symm k) = ix2 r k :=
    funext fun a => Fin.ext (by
      match a with
      | ⟨0, _⟩ =>
        show (dot_S8192x15_S15x384_S8192x384_1_0_0_1_n_n.lhsIdx (ix2 r c) _ 0).val = r.val
        unfold DotDims.lhsIdx
        rw [dif_neg (show ¬(0 : Fin S8192x15.rank) ∈ dot_S8192x15_S15x384_S8192x384_1_0_0_1_n_n.lhsBatch by decide),
          dif_pos (show (0 : Fin S8192x15.rank) ∈ dot_S8192x15_S15x384_S8192x384_1_0_0_1_n_n.lhsNonContracting by decide)]
        rfl
      | ⟨1, _⟩ => exact (dot_S8192x15_S15x384_S8192x384_1_0_0_1_n_n.lhsIdx_val_of_single rfl (ix2 r c) _).trans hk)
  have er : dot_S8192x15_S15x384_S8192x384_1_0_0_1_n_n.rhsIdx (ix2 r c)
      ((contrEquiv1 dot_S8192x15_S15x384_S8192x384_1_0_0_1_n_n 15 rfl rfl).symm k) = ix2 k c :=
    funext fun a => Fin.ext (by
      match a with
      | ⟨0, _⟩ => exact (dot_S8192x15_S15x384_S8192x384_1_0_0_1_n_n.rhsIdx_val_of_single rfl (ix2 r c) _).trans hk
      | ⟨1, _⟩ =>
        show (dot_S8192x15_S15x384_S8192x384_1_0_0_1_n_n.rhsIdx (ix2 r c) _ 1).val = c.val
        unfold DotDims.rhsIdx
        rw [dif_neg (show ¬(1 : Fin S15x384.rank) ∈ dot_S8192x15_S15x384_S8192x384_1_0_0_1_n_n.rhsBatch by decide),
          dif_pos (show (1 : Fin S15x384.rank) ∈ dot_S8192x15_S15x384_S8192x384_1_0_0_1_n_n.rhsNonContracting by decide)]
        rfl)
  rw [el, er]

/-- The second product, into the zero block: at (r, i) the sum over the 128 hidden values of row r's value times the
    weight in column i. -/
theorem prod128_apply (A : FVec Ideal S8192x128 .bf16) (B : FVec Ideal S128x128 .bf16) (r : Fin 8192) (i : Fin 128) :
    matmul dot_S8192x128_S128x128_S8192x128_1_0_0_1_n_n none A B (constant (F := Ideal) S8192x128 .f32 0x00000000#32) (ix2 r i)
      = ∑ j : Fin 128, A (ix2 r j) * B (ix2 j i) := by
  refine (Ideal.matmul_constant_zero_apply dot_S8192x128_S128x128_S8192x128_1_0_0_1_n_n none A B (ix2 r i)).trans ?_
  rw [← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 r i)
      ((contrEquiv1 dot_S8192x128_S128x128_S8192x128_1_0_0_1_n_n 128 rfl rfl).symm k) = ix2 r k :=
    funext fun a => Fin.ext (by
      match a with
      | ⟨0, _⟩ =>
        show (dot_S8192x128_S128x128_S8192x128_1_0_0_1_n_n.lhsIdx (ix2 r i) _ 0).val = r.val
        unfold DotDims.lhsIdx
        rw [dif_neg (show ¬(0 : Fin S8192x128.rank) ∈ dot_S8192x128_S128x128_S8192x128_1_0_0_1_n_n.lhsBatch by decide),
          dif_pos (show (0 : Fin S8192x128.rank) ∈ dot_S8192x128_S128x128_S8192x128_1_0_0_1_n_n.lhsNonContracting by decide)]
        rfl
      | ⟨1, _⟩ => exact (dot_S8192x128_S128x128_S8192x128_1_0_0_1_n_n.lhsIdx_val_of_single rfl (ix2 r i) _).trans hk)
  have er : dot_S8192x128_S128x128_S8192x128_1_0_0_1_n_n.rhsIdx (ix2 r i)
      ((contrEquiv1 dot_S8192x128_S128x128_S8192x128_1_0_0_1_n_n 128 rfl rfl).symm k) = ix2 k i :=
    funext fun a => Fin.ext (by
      match a with
      | ⟨0, _⟩ => exact (dot_S8192x128_S128x128_S8192x128_1_0_0_1_n_n.rhsIdx_val_of_single rfl (ix2 r i) _).trans hk
      | ⟨1, _⟩ =>
        show (dot_S8192x128_S128x128_S8192x128_1_0_0_1_n_n.rhsIdx (ix2 r i) _ 1).val = i.val
        unfold DotDims.rhsIdx
        rw [dif_neg (show ¬(1 : Fin S128x128.rank) ∈ dot_S8192x128_S128x128_S8192x128_1_0_0_1_n_n.rhsBatch by decide),
          dif_pos (show (1 : Fin S128x128.rank) ∈ dot_S8192x128_S128x128_S8192x128_1_0_0_1_n_n.rhsNonContracting by decide)]
        rfl)
  rw [el, er]

/-- The lane sum of a [8192, 128] block: at row r the sum of that row's 128 entries. -/
theorem laneSum_apply (x : FVec Ideal S8192x128 .f32) (h : S8192x128.Reduces [1] S8192) (hφ : FKind.Formats .f32)
    (hacc : (0x00000000#32 : BitVec 32) = 0x00000000#32) (r : Fin 8192) :
    multiReduction (F := Ideal) .add [1] S8192 x 0x00000000#32 h hφ hacc (ix1 r) = ∑ i : Fin 128, x (ix2 r i) := by
  refine (Ideal.multiReduction_add_single x 0x00000000#32 h hφ hacc (ix1 r)).trans ?_
  refine Finset.sum_congr rfl fun i _ => congrArg x (funext fun a => Fin.ext ?_)
  match a with
  | ⟨0, _⟩ => rfl
  | ⟨1, _⟩ => rfl

end Products

section Features
variable {α : Type}

/-- Fifteen [32, 256] arrays stacked as the columns of an [8192, 15] matrix: row p·256 + q, column k reads array k
    at (p, q). -/
theorem rows15_apply (g : Fin 15 → (S32x256.Idx → α)) (h1 : S32x256.ShapeCasts S32x256x1)
    (h15 : Shape.Concatenates [S32x256x1, S32x256x1, S32x256x1, S32x256x1, S32x256x1, S32x256x1, S32x256x1, S32x256x1,
      S32x256x1, S32x256x1, S32x256x1, S32x256x1, S32x256x1, S32x256x1, S32x256x1] S32x256x15 2)
    (h2 : S32x256x15.ShapeCasts S8192x15) (p : Fin 32) (q : Fin 256) (r : Fin 8192) (hr : r.val = p.val * 256 + q.val)
    (k : Fin 15) :
    shapeCast S8192x15 (concatenate S32x256x15 2 [⟨S32x256x1, shapeCast S32x256x1 (g 0) h1⟩,
      ⟨S32x256x1, shapeCast S32x256x1 (g 1) h1⟩, ⟨S32x256x1, shapeCast S32x256x1 (g 2) h1⟩,
      ⟨S32x256x1, shapeCast S32x256x1 (g 3) h1⟩, ⟨S32x256x1, shapeCast S32x256x1 (g 4) h1⟩,
      ⟨S32x256x1, shapeCast S32x256x1 (g 5) h1⟩, ⟨S32x256x1, shapeCast S32x256x1 (g 6) h1⟩,
      ⟨S32x256x1, shapeCast S32x256x1 (g 7) h1⟩, ⟨S32x256x1, shapeCast S32x256x1 (g 8) h1⟩,
      ⟨S32x256x1, shapeCast S32x256x1 (g 9) h1⟩, ⟨S32x256x1, shapeCast S32x256x1 (g 10) h1⟩,
      ⟨S32x256x1, shapeCast S32x256x1 (g 11) h1⟩, ⟨S32x256x1, shapeCast S32x256x1 (g 12) h1⟩,
      ⟨S32x256x1, shapeCast S32x256x1 (g 13) h1⟩, ⟨S32x256x1, shapeCast S32x256x1 (g 14) h1⟩] h15) h2 (ix2 r k)
      = g k (ix2 p q) := by
  refine (cast_rows_apply _ h2 p q r hr k).trans ?_
  refine (stack15_apply (fun n => shapeCast S32x256x1 (g n) h1) h15 p q k).trans ?_
  exact cast_pq1_apply (g k) h1 p q 0

end Features

/-- The barrier-weight column broadcast along the lanes: at (p, q) it is the column's entry of row p. -/
theorem pay4_apply (l9 : Vec Ideal S32x1 .f32) (p : Fin 32) (q : Fin 256) :
    k0_pay4 l9 (ix2 p q) = l9 (ix2 p (0 : Fin 1)) := by
  unfold k0_pay4
  rw [shapeCast_self]
  refine broadcastTo_apply l9 _ (ix2 p q) (ix2 p (0 : Fin 1)) fun a => ?_
  match a with
  | ⟨0, _⟩ => rfl
  | ⟨1, _⟩ => rfl

/-- The first multiplier, dropped to zero where it and the barrier weight do not sum to something positive. -/
theorem pay5_apply (l3 : Vec Ideal S32x256 .f32) (l9 : Vec Ideal S32x1 .f32) (p : Fin 32) (q : Fin 256) :
    k0_pay5 l3 l9 (ix2 p q) = guard (l3 (ix2 p q)) (l9 (ix2 p (0 : Fin 1))) := by
  show Scalar.select (Ideal.cmp .ole (l3 (ix2 p q) + k0_pay4 l9 (ix2 p q)) w0) w0 (l3 (ix2 p q)) = _
  rw [pay4_apply]
  rfl

/-- The test that drops the second multiplier: its sum with the barrier weight is at most zero. -/
theorem pay6_apply (l4 : Vec Ideal S32x256 .f32) (l9 : Vec Ideal S32x1 .f32) (p : Fin 32) (q : Fin 256) :
    k0_pay6 l4 l9 (ix2 p q) = Ideal.cmp .ole (l4 (ix2 p q) + l9 (ix2 p (0 : Fin 1))) w0 := by
  show Ideal.cmp .ole (l4 (ix2 p q) + k0_pay4 l9 (ix2 p q)) w0 = _
  rw [pay4_apply]

/-- The second multiplier, dropped to zero under that test. -/
theorem pay7_apply (l4 : Vec Ideal S32x256 .f32) (l9 : Vec Ideal S32x1 .f32) (p : Fin 32) (q : Fin 256) :
    k0_pay7 l4 (k0_pay6 l4 l9) (Scalar.ofBits .f32 0x00000000#32) (ix2 p q)
      = guard (l4 (ix2 p q)) (l9 (ix2 p (0 : Fin 1))) := by
  show Scalar.select (k0_pay6 l4 l9 (ix2 p q)) w0 (l4 (ix2 p q)) = _
  rw [pay6_apply]
  rfl

/-- The first clipped ratio, over the guarded multiplier, the slack and the barrier weight at (p, q). -/
theorem pay8_apply (l1 : Vec Ideal S32x256 .f32) (v17 v22 : FVec Ideal S32x256 .f32) (p : Fin 32) (q : Fin 256) :
    k0_pay8 l1 v17 v22 (ix2 p q) = ratio (v22 (ix2 p q)) (l1 (ix2 p q)) (v17 (ix2 p q)) := rfl

/-- The second clipped ratio likewise. -/
theorem pay9_apply (l2 l4 : Vec Ideal S32x256 .f32) (v17 : FVec Ideal S32x256 .f32) (v25 : IVec S32x256 1)
    (c : Ideal .f32) (p : Fin 32) (q : Fin 256) :
    k0_pay9 l2 l4 v17 v25 c (ix2 p q) = ratio (k0_pay7 l4 v25 c (ix2 p q)) (l2 (ix2 p q)) (v17 (ix2 p q)) := rfl

/-- The lower-bound flag block is read unchanged. -/
theorem pay2_apply (l12 : Vec Ideal S32x256 .f32) (p : Fin 32) (q : Fin 256) : k0_pay2 l12 (ix2 p q) = l12 (ix2 p q) := by
  unfold k0_pay2
  rw [shapeCast_self]

/-- The upper-bound flag block is read unchanged. -/
theorem pay3_apply (l13 : Vec Ideal S32x256 .f32) (p : Fin 32) (q : Fin 256) : k0_pay3 l13 (ix2 p q) = l13 (ix2 p q) := by
  unfold k0_pay3
  rw [shapeCast_self]

/-- The feature matrix: row p·256 + q holds the fifteen features of coordinate (p, q), in the stacking order. -/
theorem pay10_apply (l0 l1 l2 l4 l5 l6 l7 l8 : Vec Ideal S32x256 .f32) (v17 v22 : FVec Ideal S32x256 .f32)
    (v25 : IVec S32x256 1) (c : Ideal .f32) (p : Fin 32) (q : Fin 256) (r : Fin 8192)
    (hr : r.val = p.val * 256 + q.val) (k : Fin 15) :
    k0_pay10 l0 l1 l2 l4 l5 l6 l7 l8 v17 v22 v25 c (ix2 r k)
      = feat (l0 (ix2 p q)) (l1 (ix2 p q)) (l2 (ix2 p q)) (v22 (ix2 p q)) (k0_pay7 l4 v25 c (ix2 p q))
          (l5 (ix2 p q)) (l6 (ix2 p q)) (l7 (ix2 p q)) (l8 (ix2 p q)) (v17 (ix2 p q))
          (k0_pay8 l1 v17 v22 (ix2 p q)) (k0_pay9 l2 l4 v17 v25 c (ix2 p q)) k := by
  unfold k0_pay10
  refine (rows15_apply ![truncf .bf16 l0 bitsLt_bf16_f32, truncf .bf16 l1 bitsLt_bf16_f32, truncf .bf16 l2 bitsLt_bf16_f32,
    truncf .bf16 v22 bitsLt_bf16_f32, truncf .bf16 (k0_pay7 l4 v25 c) bitsLt_bf16_f32, truncf .bf16 l0 bitsLt_bf16_f32,
    truncf .bf16 v22 bitsLt_bf16_f32, truncf .bf16 (k0_pay7 l4 v25 c) bitsLt_bf16_f32, truncf .bf16 l5 bitsLt_bf16_f32,
    truncf .bf16 l6 bitsLt_bf16_f32, truncf .bf16 l7 bitsLt_bf16_f32, truncf .bf16 l8 bitsLt_bf16_f32,
    truncf .bf16 v17 bitsLt_bf16_f32, truncf .bf16 (k0_pay8 l1 v17 v22) bitsLt_bf16_f32,
    truncf .bf16 (k0_pay9 l2 l4 v17 v25 c) bitsLt_bf16_f32] _ _ _ p q r hr k).trans ?_
  fin_cases k <;> rfl

section Cell

/-- One gate pre-activation: the product of the feature matrix with the gate table plus the broadcast bias row, at
    (r, c), is the affine form of row r's features in gate column c. -/
theorem gate_apply (A : FVec Ideal S8192x15 .bf16) (l14 : Vec Ideal S15x384 .f32) (l15 : Vec Ideal S1x384 .f32)
    (r : Fin 8192) (c : Fin 384) :
    addf (matmul dot_S8192x15_S15x384_S8192x384_1_0_0_1_n_n none A
        (truncf .bf16 (shapeCast S15x384 l14 shapeCasts_S15x384_S15x384) bitsLt_bf16_f32)
        (constant (F := Ideal) S8192x384 .f32 0x00000000#32))
      (broadcastTo S8192x384 (shapeCast S1x384 l15 shapeCasts_S1x384_S1x384) broadcasts_S1x384_S8192x384) (ix2 r c)
      = lin (fun k => A (ix2 r k)) (fun k => l14 (ix2 k c)) (l15 (ix2 (0 : Fin 1) c)) := by
  rw [shapeCast_self, shapeCast_self]
  exact congrArg₂ (· + ·) (prod15_apply A (truncf .bf16 l14 bitsLt_bf16_f32) r c)
    (broadcastTo_1b_ab_apply l15 broadcasts_S1x384_S8192x384 r c)

/-- The hidden state from the three gate slices: sigmoid(output) · tanh(sigmoid(input) · tanh(cell)). -/
theorem hidden_apply (G : FVec Ideal S8192x384 .f32) (r : Fin 8192) (j : Fin 128) :
    mulf (logistic (extractStridedSlice S8192x128 ![0, 256] G slices_S8192x384_o0_256_S8192x128))
      (tanh (mulf (logistic (extractStridedSlice S8192x128 ![0, 0] G slices_S8192x384_o0_0_S8192x128))
        (tanh (extractStridedSlice S8192x128 ![0, 128] G slices_S8192x384_o0_128_S8192x128)))) (ix2 r j)
      = Ideal.logistic (G (ix2 r ⟨j.val + 256, by have := j.isLt; omega⟩))
        * Ideal.tanh (Ideal.logistic (G (ix2 r ⟨j.val, by have := j.isLt; omega⟩))
          * Ideal.tanh (G (ix2 r ⟨j.val + 128, by have := j.isLt; omega⟩))) := by
  have e0 := slice2_axis1_apply 0 G slices_S8192x384_o0_0_S8192x128 r j ⟨j.val, by have := j.isLt; omega⟩
    (Nat.zero_add _).symm
  have e1 := slice2_axis1_apply 128 G slices_S8192x384_o0_128_S8192x128 r j ⟨j.val + 128, by have := j.isLt; omega⟩
    (Nat.add_comm _ _)
  have e2 := slice2_axis1_apply 256 G slices_S8192x384_o0_256_S8192x128 r j ⟨j.val + 256, by have := j.isLt; omega⟩
    (Nat.add_comm _ _)
  show Ideal.logistic (extractStridedSlice S8192x128 ![0, 256] G slices_S8192x384_o0_256_S8192x128 (ix2 r j))
    * Ideal.tanh (Ideal.logistic (extractStridedSlice S8192x128 ![0, 0] G slices_S8192x384_o0_0_S8192x128 (ix2 r j))
      * Ideal.tanh (extractStridedSlice S8192x128 ![0, 128] G slices_S8192x384_o0_128_S8192x128 (ix2 r j))) = _
  rw [e0, e1, e2]

/-- The head's first layer: the product of the hidden block with the transposed weights plus the broadcast bias row,
    cut at zero. -/
theorem head1_apply (Hh : FVec Ideal S8192x128 .f32) (l16 : Vec Ideal S128x128 .f32) (l17 : Vec Ideal S1x128 .f32)
    (r : Fin 8192) (i : Fin 128) :
    maximumf (addf (matmul dot_S8192x128_S128x128_S8192x128_1_0_0_1_n_n none (truncf .bf16 Hh bitsLt_bf16_f32)
          (truncf .bf16 (shapeCast S128x128 l16 shapeCasts_S128x128_S128x128) bitsLt_bf16_f32)
          (constant (F := Ideal) S8192x128 .f32 0x00000000#32))
        (broadcastTo S8192x128 (shapeCast S1x128 l17 shapeCasts_S1x128_S1x128) broadcasts_S1x128_S8192x128))
      (broadcast S8192x128 (Scalar.ofBits .f32 0x00000000#32)) (ix2 r i)
      = max (lin (fun j => Hh (ix2 r j)) (fun j => l16 (ix2 j i)) (l17 (ix2 (0 : Fin 1) i))) w0 := by
  rw [shapeCast_self, shapeCast_self]
  exact congrArg (fun s => max s w0) (congrArg₂ (· + ·)
    (prod128_apply (truncf .bf16 Hh bitsLt_bf16_f32) (truncf .bf16 l16 bitsLt_bf16_f32) r i)
    (broadcastTo_1b_ab_apply l17 broadcasts_S1x128_S8192x128 r i))

/-- The head's last layer and the absolute value, read back at (p, q): the lane sum of the first layer times the
    broadcast last row, plus the broadcast bias, in absolute value, at row p·256 + q. -/
theorem head2_apply (T : FVec Ideal S8192x128 .f32) (l18 : Vec Ideal S1x128 .f32) (l19 : Vec Ideal S1x1 .f32)
    (hφ : FKind.Formats .f32) (hacc : (0x00000000#32 : BitVec 32) = 0x00000000#32)
    (p : Fin 32) (q : Fin 256) (r : Fin 8192) (hr : r.val = p.val * 256 + q.val) :
    shapeCast S32x256 (absf (addf (shapeCast S8192x1 (multiReduction (F := Ideal) .add [1] S8192
          (mulf T (broadcastTo S8192x128 l18 broadcasts_S1x128_S8192x128)) 0x00000000#32 reduces_S8192x128_S8192 hφ hacc)
          shapeCasts_S8192_S8192x1)
        (broadcastTo S8192x1 (shapeCast S1x1 l19 shapeCasts_S1x1_S1x1) broadcasts_S1x1_S8192x1)))
      shapeCasts_S8192x1_S32x256 (ix2 p q)
      = absE (lin (fun i => T (ix2 r i)) (fun i => l18 (ix2 (0 : Fin 1) i)) (l19 (ix2 (0 : Fin 1) (0 : Fin 1)))) := by
  rw [shapeCast_self]
  refine (cast_col_apply _ shapeCasts_S8192x1_S32x256 p q r hr).trans ?_
  refine congrArg absE (congrArg₂ (· + ·) ?_ (bcast_11_apply l19 broadcasts_S1x1_S8192x1 r 0))
  refine (cast_keep_apply _ shapeCasts_S8192_S8192x1 r 0).trans ?_
  refine (laneSum_apply _ reduces_S8192x128_S8192 hφ hacc r).trans ?_
  exact Finset.sum_congr rfl fun i _ =>
    congrArg (T (ix2 r i) * ·) (broadcastTo_1b_ab_apply l18 broadcasts_S1x128_S8192x128 r i)

end Cell

/-- The step size: the stored [32, 256] block of step sizes, at (p, q), is the specification's step size of the
    features in row p·256 + q of the feature matrix. -/
theorem pay11_apply (v77 : FVec Ideal S8192x15 .bf16) (l14 : Vec Ideal S15x384 .f32) (l15 : Vec Ideal S1x384 .f32)
    (l16 : Vec Ideal S128x128 .f32) (l17 l18 : Vec Ideal S1x128 .f32) (l19 : Vec Ideal S1x1 .f32)
    (p : Fin 32) (q : Fin 256) (r : Fin 8192) (hr : r.val = p.val * 256 + q.val) :
    k0_pay11 v77 l14 l15 l16 l17 l18 l19 (ix2 p q)
      = stepSize (fun k => v77 (ix2 r k)) (fun k c => l14 (ix2 k c)) (fun c => l15 (ix2 (0 : Fin 1) c))
          (fun j i => l16 (ix2 j i)) (fun i => l17 (ix2 (0 : Fin 1) i)) (fun i => l18 (ix2 (0 : Fin 1) i))
          (l19 (ix2 (0 : Fin 1) (0 : Fin 1))) := by
  unfold k0_pay11
  refine (head2_apply _ l18 l19 _ _ p q r hr).trans ?_
  unfold stepSize
  refine congrArg (fun t => absE (lin t (fun i => l18 (ix2 (0 : Fin 1) i)) (l19 (ix2 (0 : Fin 1) (0 : Fin 1)))))
    (funext fun i => ?_)
  refine (head1_apply _ l16 l17 r i).trans ?_
  refine congrArg (fun h => max (lin h (fun j => l16 (ix2 j i)) (l17 (ix2 (0 : Fin 1) i))) w0) (funext fun j => ?_)
  refine (hidden_apply _ r j).trans ?_
  rw [gate_apply, gate_apply, gate_apply]

/-- The updated iterate x' = x + (0 - p) · x, with p the stored step size. -/
theorem pay12_apply (l0 : Vec Ideal S32x256 .f32) (v77 : FVec Ideal S8192x15 .bf16) (l14 : Vec Ideal S15x384 .f32)
    (l15 : Vec Ideal S1x384 .f32) (l16 : Vec Ideal S128x128 .f32) (l17 l18 : Vec Ideal S1x128 .f32)
    (l19 : Vec Ideal S1x1 .f32) (p : Fin 32) (q : Fin 256) :
    k0_pay12 l0 v77 l14 l15 l16 l17 l18 l19 (ix2 p q)
      = l0 (ix2 p q) + (w0 - k0_pay11 v77 l14 l15 l16 l17 l18 l19 (ix2 p q)) * l0 (ix2 p q) := rfl

/-- The stored block: at (p, k, q), result k of the five updates, written over the blocks they are computed from. -/
theorem pay1_apply (l0 l10 l11 : Vec Ideal S32x256 .f32) (v13 v15 v22 v27 v36 v45 v116 v120 : FVec Ideal S32x256 .f32)
    (p : Fin 32) (k : Fin 5) (q : Fin 256) :
    k0_pay1 l0 l10 l11 v13 v15 v22 v27 v36 v45 v116 v120 (k0_pay13 (F := Ideal)) (ix3 p k q)
      = ![v120 (ix2 p q),
          Scalar.select (Ideal.cmp .ogt (v13 (ix2 p q)) wHalf) (v120 (ix2 p q) - l10 (ix2 p q)) w0,
          Scalar.select (Ideal.cmp .ogt (v15 (ix2 p q)) wHalf) (l11 (ix2 p q) - v120 (ix2 p q)) w0,
          v22 (ix2 p q) - v36 (ix2 p q) * ((w0 - v116 (ix2 p q)) * l0 (ix2 p q) + v22 (ix2 p q)),
          v27 (ix2 p q) - v45 (ix2 p q) * (v116 (ix2 p q) * l0 (ix2 p q) + v27 (ix2 p q))] k := by
  unfold k0_pay1
  refine (stack5_apply (fun n => shapeCast S32x1x256 (![v120,
      select (cmpf .ogt v13 (broadcast S32x256 (Scalar.ofBits .f32 0x3F000000#32))) (subf v120 l10)
        (broadcast S32x256 (Scalar.ofBits .f32 0x00000000#32)),
      select (cmpf .ogt v15 (broadcast S32x256 (Scalar.ofBits .f32 0x3F000000#32))) (subf l11 v120)
        (broadcast S32x256 (Scalar.ofBits .f32 0x00000000#32)),
      subf v22 (mulf v36 (addf (mulf (subf (k0_pay13 (F := Ideal)) v116) l0) v22)),
      subf v27 (mulf v45 (addf (mulf v116 l0) v27))] n) shapeCasts_S32x256_S32x1x256) _ p k q).trans ?_
  refine (cast_p1q_apply _ shapeCasts_S32x256_S32x1x256 p 0 q).trans ?_
  fin_cases k <;> rfl

/-- THE STORED BLOCK AT AN INDEX: entry (p, k, q) of the block the body stores is result k of the specification's
    update of coordinate (p, q), read off the twenty loaded blocks. -/
theorem bodyVal_apply (l0 l1 l2 l3 l4 l5 l6 l7 l8 : Vec Ideal S32x256 .f32) (l9 : Vec Ideal S32x1 .f32)
    (l10 l11 l12 l13 : Vec Ideal S32x256 .f32) (l14 : Vec Ideal S15x384 .f32) (l15 : Vec Ideal S1x384 .f32)
    (l16 : Vec Ideal S128x128 .f32) (l17 l18 : Vec Ideal S1x128 .f32) (l19 : Vec Ideal S1x1 .f32)
    (p : Fin 32) (k : Fin 5) (q : Fin 256) :
    Cert.KernelIdeal.Body.bodyVal l0 l1 l2 l3 l4 l5 l6 l7 l8 l9 l10 l11 l12 l13 l14 l15 l16 l17 l18 l19 (ix3 p k q)
      = row (l0 (ix2 p q)) (l1 (ix2 p q)) (l2 (ix2 p q)) (l3 (ix2 p q)) (l4 (ix2 p q)) (l5 (ix2 p q)) (l6 (ix2 p q))
          (l7 (ix2 p q)) (l8 (ix2 p q)) (l9 (ix2 p (0 : Fin 1))) (l10 (ix2 p q)) (l11 (ix2 p q)) (l12 (ix2 p q))
          (l13 (ix2 p q)) (fun kk c => l14 (ix2 kk c)) (fun c => l15 (ix2 (0 : Fin 1) c)) (fun j i => l16 (ix2 j i))
          (fun i => l17 (ix2 (0 : Fin 1) i)) (fun i => l18 (ix2 (0 : Fin 1) i)) (l19 (ix2 (0 : Fin 1) (0 : Fin 1))) k := by
  unfold Cert.KernelIdeal.Body.bodyVal
  refine (pay1_apply l0 l10 l11 _ _ _ _ _ _ _ _ p k q).trans ?_
  have hlt : p.val * 256 + q.val < 8192 := by have := p.isLt; have := q.isLt; omega
  have hf : (fun kk => k0_pay10 l0 l1 l2 l4 l5 l6 l7 l8 (k0_pay4 l9) (k0_pay5 l3 l9) (k0_pay6 l4 l9)
      (Scalar.ofBits .f32 0x00000000#32) (ix2 (⟨p.val * 256 + q.val, hlt⟩ : Fin 8192) kk)) = _ :=
    funext fun kk => pay10_apply l0 l1 l2 l4 l5 l6 l7 l8 (k0_pay4 l9) (k0_pay5 l3 l9) (k0_pay6 l4 l9)
      (Scalar.ofBits .f32 0x00000000#32) p q ⟨p.val * 256 + q.val, hlt⟩ rfl kk
  have hp := pay11_apply (k0_pay10 l0 l1 l2 l4 l5 l6 l7 l8 (k0_pay4 l9) (k0_pay5 l3 l9) (k0_pay6 l4 l9)
    (Scalar.ofBits .f32 0x00000000#32)) l14 l15 l16 l17 l18 l19 p q ⟨p.val * 256 + q.val, hlt⟩ rfl
  rw [hf] at hp
  rw [pay12_apply, hp, pay8_apply, pay9_apply, pay7_apply, pay5_apply, pay4_apply, pay2_apply, pay3_apply]
  rfl

end Cert.KernelIdeal.BodyValue

end
-- ==== Proof.RegionBlocks.lean ====
/-
  The region's blocks tile its result.  Grid point (i, j) writes back the [32, 5, 256] block at rows 32·i, columns
  256·j; the coordinate windows' blocks sit at the same rows and columns, the barrier-weight column's at the same
  rows, and the six weight windows are one whole block each.  So what a point writes back — the body's value at its
  input blocks — is the block of `R` there (`BodyValue.bodyVal_apply` at each entry), and the 32 blocks cover the
  result: after the run the region's result array is `R`.
-/
import proofs.«101781_j12919261626992_2_alg».proof.Proof.FrameIdeal
import proofs.«101781_j12919261626992_2_alg».proof.Proof.BodyValue
import proofs.«101781_j12919261626992_2_alg».proof.Proof.RegionFn
import proofs.«101781_j12919261626992_2_alg».proof.Proof.StepSpec
import Idealize.ShloMosaic.Lib.Pipeline.Value
import Idealize.ShloMosaic.Lib.StableHlo.Run
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Entry Cert.KernelIdeal.Frm Cert.KernelIdeal.Body Cert.StepSpec
open Cert.KernelIdeal.Region
variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed block-index maps over the grid: a coordinate window's block moves with the output's (rows with its
    first axis, columns with its last), the barrier-weight column's with its rows only, the six weight windows stay
    at block zero, and the output's block indices range over 4 × 1 × 8. -/
theorem idx_facts : ∀ t : Fin cfg0.N, win0_0.index t (0 : Fin 2) = win0_20.index t (0 : Fin 3)
    ∧ win0_0.index t (1 : Fin 2) = win0_20.index t (2 : Fin 3)
    ∧ win0_1.index t (0 : Fin 2) = win0_20.index t (0 : Fin 3)
    ∧ win0_1.index t (1 : Fin 2) = win0_20.index t (2 : Fin 3)
    ∧ win0_2.index t (0 : Fin 2) = win0_20.index t (0 : Fin 3)
    ∧ win0_2.index t (1 : Fin 2) = win0_20.index t (2 : Fin 3)
    ∧ win0_3.index t (0 : Fin 2) = win0_20.index t (0 : Fin 3)
    ∧ win0_3.index t (1 : Fin 2) = win0_20.index t (2 : Fin 3)
    ∧ win0_4.index t (0 : Fin 2) = win0_20.index t (0 : Fin 3)
    ∧ win0_4.index t (1 : Fin 2) = win0_20.index t (2 : Fin 3)
    ∧ win0_5.index t (0 : Fin 2) = win0_20.index t (0 : Fin 3)
    ∧ win0_5.index t (1 : Fin 2) = win0_20.index t (2 : Fin 3)
    ∧ win0_6.index t (0 : Fin 2) = win0_20.index t (0 : Fin 3)
    ∧ win0_6.index t (1 : Fin 2) = win0_20.index t (2 : Fin 3)
    ∧ win0_7.index t (0 : Fin 2) = win0_20.index t (0 : Fin 3)
    ∧ win0_7.index t (1 : Fin 2) = win0_20.index t (2 : Fin 3)
    ∧ win0_8.index t (0 : Fin 2) = win0_20.index t (0 : Fin 3)
    ∧ win0_8.index t (1 : Fin 2) = win0_20.index t (2 : Fin 3)
    ∧ win0_10.index t (0 : Fin 2) = win0_20.index t (0 : Fin 3)
    ∧ win0_10.index t (1 : Fin 2) = win0_20.index t (2 : Fin 3)
    ∧ win0_11.index t (0 : Fin 2) = win0_20.index t (0 : Fin 3)
    ∧ win0_11.index t (1 : Fin 2) = win0_20.index t (2 : Fin 3)
    ∧ win0_12.index t (0 : Fin 2) = win0_20.index t (0 : Fin 3)
    ∧ win0_12.index t (1 : Fin 2) = win0_20.index t (2 : Fin 3)
    ∧ win0_13.index t (0 : Fin 2) = win0_20.index t (0 : Fin 3)
    ∧ win0_13.index t (1 : Fin 2) = win0_20.index t (2 : Fin 3)
    ∧ win0_9.index t (0 : Fin 2) = win0_20.index t (0 : Fin 3)
    ∧ win0_9.index t (1 : Fin 2) = 0
    ∧ win0_14.index t (0 : Fin 2) = 0
    ∧ win0_14.index t (1 : Fin 2) = 0
    ∧ win0_15.index t (0 : Fin 2) = 0
    ∧ win0_15.index t (1 : Fin 2) = 0
    ∧ win0_16.index t (0 : Fin 2) = 0
    ∧ win0_16.index t (1 : Fin 2) = 0
    ∧ win0_17.index t (0 : Fin 2) = 0
    ∧ win0_17.index t (1 : Fin 2) = 0
    ∧ win0_18.index t (0 : Fin 2) = 0
    ∧ win0_18.index t (1 : Fin 2) = 0
    ∧ win0_19.index t (0 : Fin 2) = 0
    ∧ win0_19.index t (1 : Fin 2) = 0
    ∧ win0_20.index t (0 : Fin 3) ≤ 3
    ∧ win0_20.index t (1 : Fin 3) = 0
    ∧ win0_20.index t (2 : Fin 3) ≤ 7 :=
  (by decide +kernel : ∀ t : Fin grid0.N, _)

/-- Every block of the result is some point's. -/
theorem idx_onto : ∀ (q0 : Fin 4) (q2 : Fin 8), ∃ t : Fin cfg0.N, win0_20.index t = ![q0.val, 0, q2.val] :=
  (by decide +kernel : ∀ (q0 : Fin 4) (q2 : Fin 8), ∃ t : Fin grid0.N, win0_20.index t = ![q0.val, 0, q2.val])

/-- Window 0's block at a point, read at (p, q), is its array at the output block's rows and columns. -/
theorem read0 (c : Dev nD) (t : Fin cfg0.N) (p : Fin 32) (q : Fin 256)
    (hb : win0_20.index t (0 : Fin 3) * 32 + p.val < 128) (hn : win0_20.index t (2 : Fin 3) * 256 + q.val < 2048)
    (e0 : win0_0.index t (0 : Fin 2) = win0_20.index t (0 : Fin 3)) (e1 : win0_0.index t (1 : Fin 2) = win0_20.index t (2 : Fin 3)) :
    iblk m c 0 t (ix2 p q) = (V m c (Pipeline.arrRef spec0 0) : S128x2048.Idx → EReal) (ix2 (⟨_, hb⟩ : Fin 128) (⟨_, hn⟩ : Fin 2048)) := by
  show (V m c (Pipeline.arrRef spec0 0) : S128x2048.Idx → EReal) (((cfg0.win 0).blk t).view.emb (ix2 p q)) = _
  refine congrArg (V m c (Pipeline.arrRef spec0 0) : S128x2048.Idx → EReal) ?_
  funext a; apply Fin.ext
  match a with
  | ⟨0, _⟩ => show win0_0.index t (0 : Fin 2) * 32 + 1 * p.val = win0_20.index t (0 : Fin 3) * 32 + p.val; omega
  | ⟨1, _⟩ => show win0_0.index t (1 : Fin 2) * 256 + 1 * q.val = win0_20.index t (2 : Fin 3) * 256 + q.val; omega

/-- Window 1's block at a point, read at (p, q), is its array at the output block's rows and columns. -/
theorem read1 (c : Dev nD) (t : Fin cfg0.N) (p : Fin 32) (q : Fin 256)
    (hb : win0_20.index t (0 : Fin 3) * 32 + p.val < 128) (hn : win0_20.index t (2 : Fin 3) * 256 + q.val < 2048)
    (e0 : win0_1.index t (0 : Fin 2) = win0_20.index t (0 : Fin 3)) (e1 : win0_1.index t (1 : Fin 2) = win0_20.index t (2 : Fin 3)) :
    iblk m c 1 t (ix2 p q) = (V m c (Pipeline.arrRef spec0 1) : S128x2048.Idx → EReal) (ix2 (⟨_, hb⟩ : Fin 128) (⟨_, hn⟩ : Fin 2048)) := by
  show (V m c (Pipeline.arrRef spec0 1) : S128x2048.Idx → EReal) (((cfg0.win 1).blk t).view.emb (ix2 p q)) = _
  refine congrArg (V m c (Pipeline.arrRef spec0 1) : S128x2048.Idx → EReal) ?_
  funext a; apply Fin.ext
  match a with
  | ⟨0, _⟩ => show win0_1.index t (0 : Fin 2) * 32 + 1 * p.val = win0_20.index t (0 : Fin 3) * 32 + p.val; omega
  | ⟨1, _⟩ => show win0_1.index t (1 : Fin 2) * 256 + 1 * q.val = win0_20.index t (2 : Fin 3) * 256 + q.val; omega

/-- Window 2's block at a point, read at (p, q), is its array at the output block's rows and columns. -/
theorem read2 (c : Dev nD) (t : Fin cfg0.N) (p : Fin 32) (q : Fin 256)
    (hb : win0_20.index t (0 : Fin 3) * 32 + p.val < 128) (hn : win0_20.index t (2 : Fin 3) * 256 + q.val < 2048)
    (e0 : win0_2.index t (0 : Fin 2) = win0_20.index t (0 : Fin 3)) (e1 : win0_2.index t (1 : Fin 2) = win0_20.index t (2 : Fin 3)) :
    iblk m c 2 t (ix2 p q) = (V m c (Pipeline.arrRef spec0 2) : S128x2048.Idx → EReal) (ix2 (⟨_, hb⟩ : Fin 128) (⟨_, hn⟩ : Fin 2048)) := by
  show (V m c (Pipeline.arrRef spec0 2) : S128x2048.Idx → EReal) (((cfg0.win 2).blk t).view.emb (ix2 p q)) = _
  refine congrArg (V m c (Pipeline.arrRef spec0 2) : S128x2048.Idx → EReal) ?_
  funext a; apply Fin.ext
  match a with
  | ⟨0, _⟩ => show win0_2.index t (0 : Fin 2) * 32 + 1 * p.val = win0_20.index t (0 : Fin 3) * 32 + p.val; omega
  | ⟨1, _⟩ => show win0_2.index t (1 : Fin 2) * 256 + 1 * q.val = win0_20.index t (2 : Fin 3) * 256 + q.val; omega

/-- Window 3's block at a point, read at (p, q), is its array at the output block's rows and columns. -/
theorem read3 (c : Dev nD) (t : Fin cfg0.N) (p : Fin 32) (q : Fin 256)
    (hb : win0_20.index t (0 : Fin 3) * 32 + p.val < 128) (hn : win0_20.index t (2 : Fin 3) * 256 + q.val < 2048)
    (e0 : win0_3.index t (0 : Fin 2) = win0_20.index t (0 : Fin 3)) (e1 : win0_3.index t (1 : Fin 2) = win0_20.index t (2 : Fin 3)) :
    iblk m c 3 t (ix2 p q) = (V m c (Pipeline.arrRef spec0 3) : S128x2048.Idx → EReal) (ix2 (⟨_, hb⟩ : Fin 128) (⟨_, hn⟩ : Fin 2048)) := by
  show (V m c (Pipeline.arrRef spec0 3) : S128x2048.Idx → EReal) (((cfg0.win 3).blk t).view.emb (ix2 p q)) = _
  refine congrArg (V m c (Pipeline.arrRef spec0 3) : S128x2048.Idx → EReal) ?_
  funext a; apply Fin.ext
  match a with
  | ⟨0, _⟩ => show win0_3.index t (0 : Fin 2) * 32 + 1 * p.val = win0_20.index t (0 : Fin 3) * 32 + p.val; omega
  | ⟨1, _⟩ => show win0_3.index t (1 : Fin 2) * 256 + 1 * q.val = win0_20.index t (2 : Fin 3) * 256 + q.val; omega

/-- Window 4's block at a point, read at (p, q), is its array at the output block's rows and columns. -/
theorem read4 (c : Dev nD) (t : Fin cfg0.N) (p : Fin 32) (q : Fin 256)
    (hb : win0_20.index t (0 : Fin 3) * 32 + p.val < 128) (hn : win0_20.index t (2 : Fin 3) * 256 + q.val < 2048)
    (e0 : win0_4.index t (0 : Fin 2) = win0_20.index t (0 : Fin 3)) (e1 : win0_4.index t (1 : Fin 2) = win0_20.index t (2 : Fin 3)) :
    iblk m c 4 t (ix2 p q) = (V m c (Pipeline.arrRef spec0 4) : S128x2048.Idx → EReal) (ix2 (⟨_, hb⟩ : Fin 128) (⟨_, hn⟩ : Fin 2048)) := by
  show (V m c (Pipeline.arrRef spec0 4) : S128x2048.Idx → EReal) (((cfg0.win 4).blk t).view.emb (ix2 p q)) = _
  refine congrArg (V m c (Pipeline.arrRef spec0 4) : S128x2048.Idx → EReal) ?_
  funext a; apply Fin.ext
  match a with
  | ⟨0, _⟩ => show win0_4.index t (0 : Fin 2) * 32 + 1 * p.val = win0_20.index t (0 : Fin 3) * 32 + p.val; omega
  | ⟨1, _⟩ => show win0_4.index t (1 : Fin 2) * 256 + 1 * q.val = win0_20.index t (2 : Fin 3) * 256 + q.val; omega

/-- Window 5's block at a point, read at (p, q), is its array at the output block's rows and columns. -/
theorem read5 (c : Dev nD) (t : Fin cfg0.N) (p : Fin 32) (q : Fin 256)
    (hb : win0_20.index t (0 : Fin 3) * 32 + p.val < 128) (hn : win0_20.index t (2 : Fin 3) * 256 + q.val < 2048)
    (e0 : win0_5.index t (0 : Fin 2) = win0_20.index t (0 : Fin 3)) (e1 : win0_5.index t (1 : Fin 2) = win0_20.index t (2 : Fin 3)) :
    iblk m c 5 t (ix2 p q) = (V m c (Pipeline.arrRef spec0 5) : S128x2048.Idx → EReal) (ix2 (⟨_, hb⟩ : Fin 128) (⟨_, hn⟩ : Fin 2048)) := by
  show (V m c (Pipeline.arrRef spec0 5) : S128x2048.Idx → EReal) (((cfg0.win 5).blk t).view.emb (ix2 p q)) = _
  refine congrArg (V m c (Pipeline.arrRef spec0 5) : S128x2048.Idx → EReal) ?_
  funext a; apply Fin.ext
  match a with
  | ⟨0, _⟩ => show win0_5.index t (0 : Fin 2) * 32 + 1 * p.val = win0_20.index t (0 : Fin 3) * 32 + p.val; omega
  | ⟨1, _⟩ => show win0_5.index t (1 : Fin 2) * 256 + 1 * q.val = win0_20.index t (2 : Fin 3) * 256 + q.val; omega

/-- Window 6's block at a point, read at (p, q), is its array at the output block's rows and columns. -/
theorem read6 (c : Dev nD) (t : Fin cfg0.N) (p : Fin 32) (q : Fin 256)
    (hb : win0_20.index t (0 : Fin 3) * 32 + p.val < 128) (hn : win0_20.index t (2 : Fin 3) * 256 + q.val < 2048)
    (e0 : win0_6.index t (0 : Fin 2) = win0_20.index t (0 : Fin 3)) (e1 : win0_6.index t (1 : Fin 2) = win0_20.index t (2 : Fin 3)) :
    iblk m c 6 t (ix2 p q) = (V m c (Pipeline.arrRef spec0 6) : S128x2048.Idx → EReal) (ix2 (⟨_, hb⟩ : Fin 128) (⟨_, hn⟩ : Fin 2048)) := by
  show (V m c (Pipeline.arrRef spec0 6) : S128x2048.Idx → EReal) (((cfg0.win 6).blk t).view.emb (ix2 p q)) = _
  refine congrArg (V m c (Pipeline.arrRef spec0 6) : S128x2048.Idx → EReal) ?_
  funext a; apply Fin.ext
  match a with
  | ⟨0, _⟩ => show win0_6.index t (0 : Fin 2) * 32 + 1 * p.val = win0_20.index t (0 : Fin 3) * 32 + p.val; omega
  | ⟨1, _⟩ => show win0_6.index t (1 : Fin 2) * 256 + 1 * q.val = win0_20.index t (2 : Fin 3) * 256 + q.val; omega

/-- Window 7's block at a point, read at (p, q), is its array at the output block's rows and columns. -/
theorem read7 (c : Dev nD) (t : Fin cfg0.N) (p : Fin 32) (q : Fin 256)
    (hb : win0_20.index t (0 : Fin 3) * 32 + p.val < 128) (hn : win0_20.index t (2 : Fin 3) * 256 + q.val < 2048)
    (e0 : win0_7.index t (0 : Fin 2) = win0_20.index t (0 : Fin 3)) (e1 : win0_7.index t (1 : Fin 2) = win0_20.index t (2 : Fin 3)) :
    iblk m c 7 t (ix2 p q) = (V m c (Pipeline.arrRef spec0 7) : S128x2048.Idx → EReal) (ix2 (⟨_, hb⟩ : Fin 128) (⟨_, hn⟩ : Fin 2048)) := by
  show (V m c (Pipeline.arrRef spec0 7) : S128x2048.Idx → EReal) (((cfg0.win 7).blk t).view.emb (ix2 p q)) = _
  refine congrArg (V m c (Pipeline.arrRef spec0 7) : S128x2048.Idx → EReal) ?_
  funext a; apply Fin.ext
  match a with
  | ⟨0, _⟩ => show win0_7.index t (0 : Fin 2) * 32 + 1 * p.val = win0_20.index t (0 : Fin 3) * 32 + p.val; omega
  | ⟨1, _⟩ => show win0_7.index t (1 : Fin 2) * 256 + 1 * q.val = win0_20.index t (2 : Fin 3) * 256 + q.val; omega

/-- Window 8's block at a point, read at (p, q), is its array at the output block's rows and columns. -/
theorem read8 (c : Dev nD) (t : Fin cfg0.N) (p : Fin 32) (q : Fin 256)
    (hb : win0_20.index t (0 : Fin 3) * 32 + p.val < 128) (hn : win0_20.index t (2 : Fin 3) * 256 + q.val < 2048)
    (e0 : win0_8.index t (0 : Fin 2) = win0_20.index t (0 : Fin 3)) (e1 : win0_8.index t (1 : Fin 2) = win0_20.index t (2 : Fin 3)) :
    iblk m c 8 t (ix2 p q) = (V m c (Pipeline.arrRef spec0 8) : S128x2048.Idx → EReal) (ix2 (⟨_, hb⟩ : Fin 128) (⟨_, hn⟩ : Fin 2048)) := by
  show (V m c (Pipeline.arrRef spec0 8) : S128x2048.Idx → EReal) (((cfg0.win 8).blk t).view.emb (ix2 p q)) = _
  refine congrArg (V m c (Pipeline.arrRef spec0 8) : S128x2048.Idx → EReal) ?_
  funext a; apply Fin.ext
  match a with
  | ⟨0, _⟩ => show win0_8.index t (0 : Fin 2) * 32 + 1 * p.val = win0_20.index t (0 : Fin 3) * 32 + p.val; omega
  | ⟨1, _⟩ => show win0_8.index t (1 : Fin 2) * 256 + 1 * q.val = win0_20.index t (2 : Fin 3) * 256 + q.val; omega

/-- Window 10's block at a point, read at (p, q), is its array at the output block's rows and columns. -/
theorem read10 (c : Dev nD) (t : Fin cfg0.N) (p : Fin 32) (q : Fin 256)
    (hb : win0_20.index t (0 : Fin 3) * 32 + p.val < 128) (hn : win0_20.index t (2 : Fin 3) * 256 + q.val < 2048)
    (e0 : win0_10.index t (0 : Fin 2) = win0_20.index t (0 : Fin 3)) (e1 : win0_10.index t (1 : Fin 2) = win0_20.index t (2 : Fin 3)) :
    iblk m c 10 t (ix2 p q) = (V m c (Pipeline.arrRef spec0 10) : S128x2048.Idx → EReal) (ix2 (⟨_, hb⟩ : Fin 128) (⟨_, hn⟩ : Fin 2048)) := by
  show (V m c (Pipeline.arrRef spec0 10) : S128x2048.Idx → EReal) (((cfg0.win 10).blk t).view.emb (ix2 p q)) = _
  refine congrArg (V m c (Pipeline.arrRef spec0 10) : S128x2048.Idx → EReal) ?_
  funext a; apply Fin.ext
  match a with
  | ⟨0, _⟩ => show win0_10.index t (0 : Fin 2) * 32 + 1 * p.val = win0_20.index t (0 : Fin 3) * 32 + p.val; omega
  | ⟨1, _⟩ => show win0_10.index t (1 : Fin 2) * 256 + 1 * q.val = win0_20.index t (2 : Fin 3) * 256 + q.val; omega

/-- Window 11's block at a point, read at (p, q), is its array at the output block's rows and columns. -/
theorem read11 (c : Dev nD) (t : Fin cfg0.N) (p : Fin 32) (q : Fin 256)
    (hb : win0_20.index t (0 : Fin 3) * 32 + p.val < 128) (hn : win0_20.index t (2 : Fin 3) * 256 + q.val < 2048)
    (e0 : win0_11.index t (0 : Fin 2) = win0_20.index t (0 : Fin 3)) (e1 : win0_11.index t (1 : Fin 2) = win0_20.index t (2 : Fin 3)) :
    iblk m c 11 t (ix2 p q) = (V m c (Pipeline.arrRef spec0 11) : S128x2048.Idx → EReal) (ix2 (⟨_, hb⟩ : Fin 128) (⟨_, hn⟩ : Fin 2048)) := by
  show (V m c (Pipeline.arrRef spec0 11) : S128x2048.Idx → EReal) (((cfg0.win 11).blk t).view.emb (ix2 p q)) = _
  refine congrArg (V m c (Pipeline.arrRef spec0 11) : S128x2048.Idx → EReal) ?_
  funext a; apply Fin.ext
  match a with
  | ⟨0, _⟩ => show win0_11.index t (0 : Fin 2) * 32 + 1 * p.val = win0_20.index t (0 : Fin 3) * 32 + p.val; omega
  | ⟨1, _⟩ => show win0_11.index t (1 : Fin 2) * 256 + 1 * q.val = win0_20.index t (2 : Fin 3) * 256 + q.val; omega

/-- Window 12's block at a point, read at (p, q), is its array at the output block's rows and columns. -/
theorem read12 (c : Dev nD) (t : Fin cfg0.N) (p : Fin 32) (q : Fin 256)
    (hb : win0_20.index t (0 : Fin 3) * 32 + p.val < 128) (hn : win0_20.index t (2 : Fin 3) * 256 + q.val < 2048)
    (e0 : win0_12.index t (0 : Fin 2) = win0_20.index t (0 : Fin 3)) (e1 : win0_12.index t (1 : Fin 2) = win0_20.index t (2 : Fin 3)) :
    iblk m c 12 t (ix2 p q) = (V m c (Pipeline.arrRef spec0 12) : S128x2048.Idx → EReal) (ix2 (⟨_, hb⟩ : Fin 128) (⟨_, hn⟩ : Fin 2048)) := by
  show (V m c (Pipeline.arrRef spec0 12) : S128x2048.Idx → EReal) (((cfg0.win 12).blk t).view.emb (ix2 p q)) = _
  refine congrArg (V m c (Pipeline.arrRef spec0 12) : S128x2048.Idx → EReal) ?_
  funext a; apply Fin.ext
  match a with
  | ⟨0, _⟩ => show win0_12.index t (0 : Fin 2) * 32 + 1 * p.val = win0_20.index t (0 : Fin 3) * 32 + p.val; omega
  | ⟨1, _⟩ => show win0_12.index t (1 : Fin 2) * 256 + 1 * q.val = win0_20.index t (2 : Fin 3) * 256 + q.val; omega

/-- Window 13's block at a point, read at (p, q), is its array at the output block's rows and columns. -/
theorem read13 (c : Dev nD) (t : Fin cfg0.N) (p : Fin 32) (q : Fin 256)
    (hb : win0_20.index t (0 : Fin 3) * 32 + p.val < 128) (hn : win0_20.index t (2 : Fin 3) * 256 + q.val < 2048)
    (e0 : win0_13.index t (0 : Fin 2) = win0_20.index t (0 : Fin 3)) (e1 : win0_13.index t (1 : Fin 2) = win0_20.index t (2 : Fin 3)) :
    iblk m c 13 t (ix2 p q) = (V m c (Pipeline.arrRef spec0 13) : S128x2048.Idx → EReal) (ix2 (⟨_, hb⟩ : Fin 128) (⟨_, hn⟩ : Fin 2048)) := by
  show (V m c (Pipeline.arrRef spec0 13) : S128x2048.Idx → EReal) (((cfg0.win 13).blk t).view.emb (ix2 p q)) = _
  refine congrArg (V m c (Pipeline.arrRef spec0 13) : S128x2048.Idx → EReal) ?_
  funext a; apply Fin.ext
  match a with
  | ⟨0, _⟩ => show win0_13.index t (0 : Fin 2) * 32 + 1 * p.val = win0_20.index t (0 : Fin 3) * 32 + p.val; omega
  | ⟨1, _⟩ => show win0_13.index t (1 : Fin 2) * 256 + 1 * q.val = win0_20.index t (2 : Fin 3) * 256 + q.val; omega

/-- The barrier-weight column's block, read at row p, is its array at the output block's row. -/
theorem read9 (c : Dev nD) (t : Fin cfg0.N) (p : Fin 32)
    (hb : win0_20.index t (0 : Fin 3) * 32 + p.val < 128)
    (e0 : win0_9.index t (0 : Fin 2) = win0_20.index t (0 : Fin 3)) (e1 : win0_9.index t (1 : Fin 2) = 0) :
    iblk m c 9 t (ix2 p (0 : Fin 1)) = (V m c (Pipeline.arrRef spec0 9) : S128x1.Idx → EReal) (ix2 (⟨_, hb⟩ : Fin 128) (0 : Fin 1)) := by
  show (V m c (Pipeline.arrRef spec0 9) : S128x1.Idx → EReal) (((cfg0.win 9).blk t).view.emb (ix2 p (0 : Fin 1))) = _
  refine congrArg (V m c (Pipeline.arrRef spec0 9) : S128x1.Idx → EReal) ?_
  funext a; apply Fin.ext
  match a with
  | ⟨0, _⟩ => show win0_9.index t (0 : Fin 2) * 32 + 1 * p.val = win0_20.index t (0 : Fin 3) * 32 + p.val; omega
  | ⟨1, _⟩ => show win0_9.index t (1 : Fin 2) * 1 + 1 * 0 = 0; rw [e1]

/-- Window 14 is one whole block at every point: its block read at an index is its array there. -/
theorem read14 (c : Dev nD) (t : Fin cfg0.N) (kk : Fin 15) (col : Fin 384)
    (e0 : win0_14.index t (0 : Fin 2) = 0) (e1 : win0_14.index t (1 : Fin 2) = 0) :
    iblk m c 14 t (ix2 kk col) = (V m c (Pipeline.arrRef spec0 14) : S15x384.Idx → EReal) (ix2 kk col) := by
  show (V m c (Pipeline.arrRef spec0 14) : S15x384.Idx → EReal) (((cfg0.win 14).blk t).view.emb (ix2 kk col)) = _
  refine congrArg (V m c (Pipeline.arrRef spec0 14) : S15x384.Idx → EReal) ?_
  funext a; apply Fin.ext
  match a with
  | ⟨0, _⟩ => show win0_14.index t (0 : Fin 2) * 15 + 1 * (kk).val = (kk).val; rw [e0]; omega
  | ⟨1, _⟩ => show win0_14.index t (1 : Fin 2) * 384 + 1 * (col).val = (col).val; rw [e1]; omega

/-- Window 15 is one whole block at every point: its block read at an index is its array there. -/
theorem read15 (c : Dev nD) (t : Fin cfg0.N) (col : Fin 384)
    (e0 : win0_15.index t (0 : Fin 2) = 0) (e1 : win0_15.index t (1 : Fin 2) = 0) :
    iblk m c 15 t (ix2 (0 : Fin 1) col) = (V m c (Pipeline.arrRef spec0 15) : S1x384.Idx → EReal) (ix2 (0 : Fin 1) col) := by
  show (V m c (Pipeline.arrRef spec0 15) : S1x384.Idx → EReal) (((cfg0.win 15).blk t).view.emb (ix2 (0 : Fin 1) col)) = _
  refine congrArg (V m c (Pipeline.arrRef spec0 15) : S1x384.Idx → EReal) ?_
  funext a; apply Fin.ext
  match a with
  | ⟨0, _⟩ => show win0_15.index t (0 : Fin 2) * 1 + 1 * ((0 : Fin 1)).val = ((0 : Fin 1)).val; rw [e0]; omega
  | ⟨1, _⟩ => show win0_15.index t (1 : Fin 2) * 384 + 1 * (col).val = (col).val; rw [e1]; omega

/-- Window 16 is one whole block at every point: its block read at an index is its array there. -/
theorem read16 (c : Dev nD) (t : Fin cfg0.N) (j i' : Fin 128)
    (e0 : win0_16.index t (0 : Fin 2) = 0) (e1 : win0_16.index t (1 : Fin 2) = 0) :
    iblk m c 16 t (ix2 j i') = (V m c (Pipeline.arrRef spec0 16) : S128x128.Idx → EReal) (ix2 j i') := by
  show (V m c (Pipeline.arrRef spec0 16) : S128x128.Idx → EReal) (((cfg0.win 16).blk t).view.emb (ix2 j i')) = _
  refine congrArg (V m c (Pipeline.arrRef spec0 16) : S128x128.Idx → EReal) ?_
  funext a; apply Fin.ext
  match a with
  | ⟨0, _⟩ => show win0_16.index t (0 : Fin 2) * 128 + 1 * (j).val = (j).val; rw [e0]; omega
  | ⟨1, _⟩ => show win0_16.index t (1 : Fin 2) * 128 + 1 * (i').val = (i').val; rw [e1]; omega

/-- Window 17 is one whole block at every point: its block read at an index is its array there. -/
theorem read17 (c : Dev nD) (t : Fin cfg0.N) (i' : Fin 128)
    (e0 : win0_17.index t (0 : Fin 2) = 0) (e1 : win0_17.index t (1 : Fin 2) = 0) :
    iblk m c 17 t (ix2 (0 : Fin 1) i') = (V m c (Pipeline.arrRef spec0 17) : S1x128.Idx → EReal) (ix2 (0 : Fin 1) i') := by
  show (V m c (Pipeline.arrRef spec0 17) : S1x128.Idx → EReal) (((cfg0.win 17).blk t).view.emb (ix2 (0 : Fin 1) i')) = _
  refine congrArg (V m c (Pipeline.arrRef spec0 17) : S1x128.Idx → EReal) ?_
  funext a; apply Fin.ext
  match a with
  | ⟨0, _⟩ => show win0_17.index t (0 : Fin 2) * 1 + 1 * ((0 : Fin 1)).val = ((0 : Fin 1)).val; rw [e0]; omega
  | ⟨1, _⟩ => show win0_17.index t (1 : Fin 2) * 128 + 1 * (i').val = (i').val; rw [e1]; omega

/-- Window 18 is one whole block at every point: its block read at an index is its array there. -/
theorem read18 (c : Dev nD) (t : Fin cfg0.N) (i' : Fin 128)
    (e0 : win0_18.index t (0 : Fin 2) = 0) (e1 : win0_18.index t (1 : Fin 2) = 0) :
    iblk m c 18 t (ix2 (0 : Fin 1) i') = (V m c (Pipeline.arrRef spec0 18) : S1x128.Idx → EReal) (ix2 (0 : Fin 1) i') := by
  show (V m c (Pipeline.arrRef spec0 18) : S1x128.Idx → EReal) (((cfg0.win 18).blk t).view.emb (ix2 (0 : Fin 1) i')) = _
  refine congrArg (V m c (Pipeline.arrRef spec0 18) : S1x128.Idx → EReal) ?_
  funext a; apply Fin.ext
  match a with
  | ⟨0, _⟩ => show win0_18.index t (0 : Fin 2) * 1 + 1 * ((0 : Fin 1)).val = ((0 : Fin 1)).val; rw [e0]; omega
  | ⟨1, _⟩ => show win0_18.index t (1 : Fin 2) * 128 + 1 * (i').val = (i').val; rw [e1]; omega

/-- Window 19 is one whole block at every point: its block read at an index is its array there. -/
theorem read19 (c : Dev nD) (t : Fin cfg0.N)
    (e0 : win0_19.index t (0 : Fin 2) = 0) (e1 : win0_19.index t (1 : Fin 2) = 0) :
    iblk m c 19 t (ix2 (0 : Fin 1) (0 : Fin 1)) = (V m c (Pipeline.arrRef spec0 19) : S1x1.Idx → EReal) (ix2 (0 : Fin 1) (0 : Fin 1)) := by
  show (V m c (Pipeline.arrRef spec0 19) : S1x1.Idx → EReal) (((cfg0.win 19).blk t).view.emb (ix2 (0 : Fin 1) (0 : Fin 1))) = _
  refine congrArg (V m c (Pipeline.arrRef spec0 19) : S1x1.Idx → EReal) ?_
  funext a; apply Fin.ext
  match a with
  | ⟨0, _⟩ => show win0_19.index t (0 : Fin 2) * 1 + 1 * ((0 : Fin 1)).val = ((0 : Fin 1)).val; rw [e0]; omega
  | ⟨1, _⟩ => show win0_19.index t (1 : Fin 2) * 1 + 1 * ((0 : Fin 1)).val = ((0 : Fin 1)).val; rw [e1]; omega

/-- The output block's index embedding. -/
theorem emb20 (t : Fin cfg0.N) (p : Fin 32) (k : Fin 5) (q : Fin 256)
    (hb : win0_20.index t (0 : Fin 3) * 32 + p.val < 128) (hn : win0_20.index t (2 : Fin 3) * 256 + q.val < 2048)
    (e1 : win0_20.index t (1 : Fin 3) = 0) :
    ((cfg0.win 20).blk t).view.emb (ix3 p k q) = ix3 (⟨_, hb⟩ : Fin 128) k (⟨_, hn⟩ : Fin 2048) := by
  funext a; apply Fin.ext
  match a with
  | ⟨0, _⟩ => show win0_20.index t (0 : Fin 3) * 32 + 1 * p.val = win0_20.index t (0 : Fin 3) * 32 + p.val; omega
  | ⟨1, _⟩ => show win0_20.index t (1 : Fin 3) * 5 + 1 * k.val = k.val; rw [e1]; omega
  | ⟨2, _⟩ => show win0_20.index t (2 : Fin 3) * 256 + 1 * q.val = win0_20.index t (2 : Fin 3) * 256 + q.val; omega

set_option maxHeartbeats 4000000 in
/-- What point `t` writes back is block `t` of `R`. -/
theorem flushed_eq (c : Dev nD) (t : Fin cfg0.N) :
    (dats m 0 c).flushed 20 t = ((cfg0.win 20).blk t).view.read (Elt Ideal) (R m c) := by
  show (cfg0.win 20).cut (grid0.coords t) ((dats m 0 c).after 20 t) = _
  rw [after0_20]
  unfold out0_20
  rw [View.canon_unit_zero hz3]
  simp only [View.ld_unit_zero (S := S32x256) hz2, View.ld_unit_zero (S := S32x1) hz2, View.ld_unit_zero (S := S15x384) hz2,
    View.ld_unit_zero (S := S1x384) hz2, View.ld_unit_zero (S := S128x128) hz2, View.ld_unit_zero (S := S1x128) hz2,
    View.ld_unit_zero (S := S1x1) hz2]
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42⟩ := idx_facts t
  refine funext fun (y : S32x5x256.Idx) => ?_
  obtain ⟨p, k, q, rfl⟩ : ∃ (p : Fin 32) (k : Fin 5) (q : Fin 256), y = ix3 p k q := ⟨y 0, y 1, y 2, eq_ix3 y⟩
  have hp : p.val < 32 := p.isLt
  have hq : q.val < 256 := q.isLt
  have hb : win0_20.index t (0 : Fin 3) * 32 + p.val < 128 := by omega
  have hn : win0_20.index t (2 : Fin 3) * 256 + q.val < 2048 := by omega
  show bodyVal (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix3 p k q)
    = R m c (((cfg0.win 20).blk t).view.emb (ix3 p k q))
  rw [emb20 t p k q hb hn e41]
  refine (Cert.KernelIdeal.BodyValue.bodyVal_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p k q).trans ?_
  rw [read0 m c t p q hb hn e0 e1,
    read1 m c t p q hb hn e2 e3,
    read2 m c t p q hb hn e4 e5,
    read3 m c t p q hb hn e6 e7,
    read4 m c t p q hb hn e8 e9,
    read5 m c t p q hb hn e10 e11,
    read6 m c t p q hb hn e12 e13,
    read7 m c t p q hb hn e14 e15,
    read8 m c t p q hb hn e16 e17,
    read10 m c t p q hb hn e18 e19,
    read11 m c t p q hb hn e20 e21,
    read12 m c t p q hb hn e22 e23,
    read13 m c t p q hb hn e24 e25,
    read9 m c t p hb e26 e27,
    show (fun kk col => iblk m c 14 t (ix2 kk col)) = (fun kk col => (V m c (Pipeline.arrRef spec0 14) : S15x384.Idx → EReal) (ix2 kk col)) from
      funext fun kk => funext fun col => read14 m c t kk col e28 e29,
    show (fun col => iblk m c 15 t (ix2 (0 : Fin 1) col)) = (fun col => (V m c (Pipeline.arrRef spec0 15) : S1x384.Idx → EReal) (ix2 (0 : Fin 1) col)) from
      funext fun col => read15 m c t col e30 e31,
    show (fun j i' => iblk m c 16 t (ix2 j i')) = (fun j i' => (V m c (Pipeline.arrRef spec0 16) : S128x128.Idx → EReal) (ix2 j i')) from
      funext fun j => funext fun i' => read16 m c t j i' e32 e33,
    show (fun i' => iblk m c 17 t (ix2 (0 : Fin 1) i')) = (fun i' => (V m c (Pipeline.arrRef spec0 17) : S1x128.Idx → EReal) (ix2 (0 : Fin 1) i')) from
      funext fun i' => read17 m c t i' e34 e35,
    show (fun i' => iblk m c 18 t (ix2 (0 : Fin 1) i')) = (fun i' => (V m c (Pipeline.arrRef spec0 18) : S1x128.Idx → EReal) (ix2 (0 : Fin 1) i')) from
      funext fun i' => read18 m c t i' e36 e37,
    read19 m c t e38 e39]
  rfl

/-- An index of the result is in point `t`'s block iff each coordinate is in the block's range on its axis. -/
theorem mem_blk (t : Fin cfg0.N) (i : S128x5x2048.Idx) :
    i ∈ ((cfg0.win 20).blk t).view.set ↔ ∀ a : Fin 3, win0_20.index t a * S32x5x256.size a ≤ (i a).val ∧ (i a).val < win0_20.index t a * S32x5x256.size a + S32x5x256.size a := by
  show i ∈ ((View.whole main_v21).slice (win0_20.rect t)).set ↔ _
  rw [View.set_slice_whole, Rect.mem_set_unit]
  exact Iff.rfl

/-- The blocks tile the result: entry (b, k, n) lies in the block of the point with block indices (b / 32, 0, n / 256). -/
theorem cover (i : S128x5x2048.Idx) : ∃ t : Fin cfg0.N, (cfg0.win 20).flush t = true ∧ i ∈ ((cfg0.win 20).blk t).view.set := by
  have hi0 : (i 0).val < 128 := (i 0).isLt
  have hi1 : (i 1).val < 5 := (i 1).isLt
  have hi2 : (i 2).val < 2048 := (i 2).isLt
  obtain ⟨t, ht⟩ := idx_onto ⟨(i 0).val / 32, by omega⟩ ⟨(i 2).val / 256, by omega⟩
  have q0 : win0_20.index t (0 : Fin 3) = (i 0).val / 32 := congrFun ht 0
  have q1 : win0_20.index t (1 : Fin 3) = 0 := congrFun ht 1
  have q2 : win0_20.index t (2 : Fin 3) = (i 2).val / 256 := congrFun ht 2
  refine ⟨t, flush0_20 t, ?_⟩
  rw [mem_blk]
  intro a
  match a with
  | ⟨0, _⟩ => show win0_20.index t (0 : Fin 3) * 32 ≤ (i 0).val ∧ (i 0).val < win0_20.index t (0 : Fin 3) * 32 + 32; omega
  | ⟨1, _⟩ => show win0_20.index t (1 : Fin 3) * 5 ≤ (i 1).val ∧ (i 1).val < win0_20.index t (1 : Fin 3) * 5 + 5; omega
  | ⟨2, _⟩ => show win0_20.index t (2 : Fin 3) * 256 ≤ (i 2).val ∧ (i 2).val < win0_20.index t (2 : Fin 3) * 256 + 256; omega

/-- The region's result array after the run is `R`. -/
theorem final (c : Dev nD) : (dats m 0 c).arrAt 20 cfg0.N = R m c :=
  (dats m 0 c).arrAt_eq_of_cover 20 (R m c) (fun t _ => flushed_eq m c t) (cover)

end Cert.KernelIdeal.Blocks

end
-- ==== Proof.RegionSpec.lean ====
/-
  The arrays the region found, read through: the staged argument arrays are the arguments themselves (no host
  operation writes an argument), the fused gate table's entry (k, c) is the LSTM table's entry (gateRow c, k), its bias
  row the sum of the two bias vectors at gateRow c, the head's first layer transposed, three reshapes, and the two
  bound flags as floats.  So `R` at (b, k, n) is the update step of the ARGUMENTS at coordinate (b, n).
-/
import proofs.«101781_j12919261626992_2_alg».proof.Proof.FrameIdeal
import proofs.«101781_j12919261626992_2_alg».proof.Proof.EntryValue
import proofs.«101781_j12919261626992_2_alg».proof.Proof.RegionFn
import proofs.«101781_j12919261626992_2_alg».proof.Proof.StepSpec
import Idealize.ShloMosaic.Lib.Pipeline.Value
import Idealize.ShloMosaic.Lib.StableHlo.Run
import Idealize.ShloMosaic.Lib.ValueIdx

set_option maxRecDepth 16384

noncomputable section

namespace Cert.KernelIdeal.RegionSpec

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Entry Cert.KernelIdeal.Frm Cert.KernelIdeal.Body Cert.StepSpec
open Cert.KernelIdeal.Region
variable (m : (ℓ : Loc nD τ sig) → Buf (Elt Ideal) ℓ) (ρ : Dev nD → PrngReg)

set_option maxHeartbeats 4000000 in
/-- `R` at (b, k, n) is result `k` of the update step of the arguments at coordinate (b, n). -/
theorem R_apply (c : Dev nD) (b : Fin 128) (k : Fin 5) (n : Fin 2048) :
    R m c (ix3 b k n) = row ((m ((c : Thread nD τ).loc main_arg0)) (ix2 b n))
      ((m ((c : Thread nD τ).loc main_arg1)) (ix2 b n))
      ((m ((c : Thread nD τ).loc main_arg2)) (ix2 b n))
      ((m ((c : Thread nD τ).loc main_arg3)) (ix2 b n))
      ((m ((c : Thread nD τ).loc main_arg4)) (ix2 b n))
      ((m ((c : Thread nD τ).loc main_arg5)) (ix2 b n))
      ((m ((c : Thread nD τ).loc main_arg6)) (ix2 b n))
      ((m ((c : Thread nD τ).loc main_arg7)) (ix2 b n))
      ((m ((c : Thread nD τ).loc main_arg8)) (ix2 b n))
      ((m ((c : Thread nD τ).loc main_arg9)) (ix2 b (0 : Fin 1)))
      ((m ((c : Thread nD τ).loc main_arg10)) (ix2 b n))
      ((m ((c : Thread nD τ).loc main_arg11)) (ix2 b n))
      (FloatOps.uitofp (F := Ideal) .f32 ((m ((c : Thread nD τ).loc main_arg12)) (ix2 b n)))
      (FloatOps.uitofp (F := Ideal) .f32 ((m ((c : Thread nD τ).loc main_arg13)) (ix2 b n)))
      (fun kk col => (m ((c : Thread nD τ).loc main_arg14)) (ix2 (gateRow col) kk))
      (fun col => @HAdd.hAdd EReal EReal EReal _ ((m ((c : Thread nD τ).loc main_arg16)) (ix1 (gateRow col))) ((m ((c : Thread nD τ).loc main_arg17)) (ix1 (gateRow col))))
      (fun j i' => (m ((c : Thread nD τ).loc main_arg18)) (ix2 i' j))
      (fun i' => (m ((c : Thread nD τ).loc main_arg19)) (ix1 i'))
      (fun i' => (m ((c : Thread nD τ).loc main_arg20)) (ix2 (0 : Fin 1) i'))
      ((m ((c : Thread nD τ).loc main_arg21)) (ix1 (0 : Fin 1))) k := by
  show row ((V m c main_arg0 : S128x2048.Idx → EReal) (ix2 b n))
      ((V m c main_arg1 : S128x2048.Idx → EReal) (ix2 b n))
      ((V m c main_arg2 : S128x2048.Idx → EReal) (ix2 b n))
      ((V m c main_arg3 : S128x2048.Idx → EReal) (ix2 b n))
      ((V m c main_arg4 : S128x2048.Idx → EReal) (ix2 b n))
      ((V m c main_arg5 : S128x2048.Idx → EReal) (ix2 b n))
      ((V m c main_arg6 : S128x2048.Idx → EReal) (ix2 b n))
      ((V m c main_arg7 : S128x2048.Idx → EReal) (ix2 b n))
      ((V m c main_arg8 : S128x2048.Idx → EReal) (ix2 b n))
      ((V m c main_arg9 : S128x1.Idx → EReal) (ix2 b (0 : Fin 1)))
      ((V m c main_arg10 : S128x2048.Idx → EReal) (ix2 b n))
      ((V m c main_arg11 : S128x2048.Idx → EReal) (ix2 b n))
      ((V m c main_v19 : S128x2048.Idx → EReal) (ix2 b n))
      ((V m c main_v20 : S128x2048.Idx → EReal) (ix2 b n))
      (fun kk col => (V m c main_v4 : S15x384.Idx → EReal) (ix2 kk col))
      (fun col => (V m c main_v15 : S1x384.Idx → EReal) (ix2 (0 : Fin 1) col))
      (fun j i' => (V m c main_v16 : S128x128.Idx → EReal) (ix2 j i'))
      (fun i' => (V m c main_v17 : S1x128.Idx → EReal) (ix2 (0 : Fin 1) i'))
      (fun i' => (V m c main_arg20 : S1x128.Idx → EReal) (ix2 (0 : Fin 1) i'))
      ((V m c main_v18 : S1x1.Idx → EReal) (ix2 (0 : Fin 1) (0 : Fin 1))) k = _
  rw [V_main_arg0 m c, V_main_arg1 m c, V_main_arg2 m c, V_main_arg3 m c, V_main_arg4 m c, V_main_arg5 m c, V_main_arg6 m c,
    V_main_arg7 m c, V_main_arg8 m c, V_main_arg9 m c, V_main_arg10 m c, V_main_arg11 m c, V_main_arg20 m c,
    Cert.KernelIdeal.EntryValue.V_v19_apply m c b n, Cert.KernelIdeal.EntryValue.V_v20_apply m c b n,
    Cert.KernelIdeal.EntryValue.V_v18_apply m c,
    show (fun kk col => (V m c main_v4 : S15x384.Idx → EReal) (ix2 kk col)) = (fun kk col => (m ((c : Thread nD τ).loc main_arg14)) (ix2 (gateRow col) kk)) from
      funext fun kk => funext fun col => Cert.KernelIdeal.EntryValue.V_v4_apply m c kk col,
    show (fun col => (V m c main_v15 : S1x384.Idx → EReal) (ix2 (0 : Fin 1) col)) = (fun col => @HAdd.hAdd EReal EReal EReal _ ((m ((c : Thread nD τ).loc main_arg16)) (ix1 (gateRow col))) ((m ((c : Thread nD τ).loc main_arg17)) (ix1 (gateRow col)))) from
      funext fun col => Cert.KernelIdeal.EntryValue.V_v15_apply m c col,
    show (fun j i' => (V m c main_v16 : S128x128.Idx → EReal) (ix2 j i')) = (fun j i' => (m ((c : Thread nD τ).loc main_arg18)) (ix2 i' j)) from
      funext fun j => funext fun i' => Cert.KernelIdeal.EntryValue.V_v16_apply m c j i',
    show (fun i' => (V m c main_v17 : S1x128.Idx → EReal) (ix2 (0 : Fin 1) i')) = (fun i' => (m ((c : Thread nD τ).loc main_arg19)) (ix1 i')) from
      funext fun i' => Cert.KernelIdeal.EntryValue.V_v17_apply m c i']

end Cert.KernelIdeal.RegionSpec

end
-- ==== Proof.ResultValue.lean ====
/-
  The kernel program's result.  After the region, one reshape lays the [128, 5, 2048] result out as [128, 5·2048]:
  entry (b, k·2048 + n) is entry (b, k, n).  With the region's result array equal to `R` and `R` the update step of the
  arguments, the program's result is the specification `StepSpec.G` of its arguments.
-/
import proofs.«101781_j12919261626992_2_alg».proof.Proof.FrameIdeal
import proofs.«101781_j12919261626992_2_alg».proof.Proof.EntryValue
import proofs.«101781_j12919261626992_2_alg».proof.Proof.RegionFn
import proofs.«101781_j12919261626992_2_alg».proof.Proof.RegionBlocks
import proofs.«101781_j12919261626992_2_alg».proof.Proof.RegionSpec
import proofs.«101781_j12919261626992_2_alg».proof.Proof.StepSpec
import Idealize.ShloMosaic.Lib.Pipeline.Value
import Idealize.ShloMosaic.Lib.StableHlo.Run
import Idealize.ShloMosaic.Lib.ValueIdx

set_option maxRecDepth 16384

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Entry Cert.KernelIdeal.Frm Cert.KernelIdeal.Body Cert.StepSpec
open Cert.KernelIdeal.Region Cert.KernelIdeal.Blocks Cert.KernelIdeal.RegionSpec
variable (m : (ℓ : Loc nD τ sig) → Buf (Elt Ideal) ℓ) (ρ : Dev nD → PrngReg)

/-- The arguments, read as the specification reads them. -/
abbrev spec (c : Dev nD) : S128x10240.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg16)) (m ((c : Thread nD τ).loc main_arg17)) (m ((c : Thread nD τ).loc main_arg18))
    (m ((c : Thread nD τ).loc main_arg19)) (m ((c : Thread nD τ).loc main_arg20)) (m ((c : Thread nD τ).loc main_arg21))

set_option maxHeartbeats 2000000 in
/-- What the reshape after the region leaves in the result array: the reshape of `R`. -/
theorem tail_eq (c : Dev nD) :
    (Pipeline.afterTail₀ cfgs (dats m) 0 (V0 m) [hostOps1] c main_v22 : S128x10240.Idx → EReal)
      = shapeCast S128x10240 (R m c) shapeCasts_S128x5x2048_S128x10240 := by
  unfold Pipeline.afterTail₀
  show StableHlo.after hostOps1 _ (Proc.devRef .tc main_v22) = _
  after_results
  have hw : Pipeline.withArrays spec0 c (V0 m c) (fun w => (dats m 0 c).arrAt w cfg0.N) (Proc.devRef .tc main_v21) = R m c :=
    (Pipeline.withArrays_arr spec0 launch0.win.arr_inj c _ _ 20).trans (final m c)
  rw [hw]
  rfl

set_option maxHeartbeats 2000000 in
/-- The program's result is the specification of its arguments. -/
theorem result_eq (c : Dev nD) :
    Pipeline.afterTail₀ cfgs (dats m) 0 (V0 m) [hostOps1] c main_v22 = spec m c := by
  refine (tail_eq m c).trans ?_
  funext i
  obtain ⟨b, col, rfl⟩ : ∃ (b : Fin 128) (col : Fin 10240), i = ix2 b col := ⟨i 0, i 1, eq_ix2 i⟩
  have hc : col.val < 10240 := col.isLt
  have hk : col.val / 2048 < 5 := by omega
  have hn : col.val % 2048 < 2048 := Nat.mod_lt _ (by norm_num)
  have hcol : col = (⟨(⟨col.val / 2048, hk⟩ : Fin 5).val * 2048 + (⟨col.val % 2048, hn⟩ : Fin 2048).val, by
      show col.val / 2048 * 2048 + col.val % 2048 < 10240; omega⟩ : Fin 10240) :=
    Fin.ext (by show col.val = col.val / 2048 * 2048 + col.val % 2048; omega)
  refine (congrArg (fun cc => shapeCast S128x10240 (R m c) shapeCasts_S128x5x2048_S128x10240 (ix2 b cc)) hcol).trans ?_
  refine (Cert.KernelIdeal.EntryValue.tail_apply (R m c) b ⟨col.val / 2048, hk⟩ ⟨col.val % 2048, hn⟩).trans ?_
  exact R_apply m c b ⟨col.val / 2048, hk⟩ ⟨col.val % 2048, hn⟩

end Cert.KernelIdeal.KValue

end
-- ==== Proof.RefIsSpec.lean ====
/-
  The reference program is the specification.  Read at the extended reals, the reference's result array, as a function
  of its argument arrays, is entry by entry the step `Cert.StepSpec.G`:  entry (b, k · 2048 + n) is result k of
  coordinate (b, n).  Stage by stage: the guarded multipliers and the clipped ratios at (b, n); the stack of the fifteen
  features at row b · 2048 + n; all 512 gate columns, where the two bias vectors added one after the other are their sum
  added once (associativity of + on the extended reals); the input, cell and output gates as columns j, j + 256, j + 384,
  which are columns j, j + 128, j + 256 of the specification's 384-column table; the sigmoid written out as
  1 / (1 + exp (-x)); the two-layer head and the absolute value; the five results; the final split of the column index.
  A bound flag selects directly in the reference and through the test "flag as a float > 1/2" in the specification; the two
  agree for a one-bit flag.  Nothing here needs finiteness.
-/
import proofs.«101781_j12919261626992_2_alg».proof.Proof.Gen.ReferenceIdeal.Read
import proofs.«101781_j12919261626992_2_alg».proof.Proof.StepSpec
import Idealize.ShloMosaic.Lib.IdealHost
import Idealize.ShloMosaic.Lib.ValueLayout

noncomputable section

open scoped BigOperators

namespace Cert.RefSpec

open Cert.ReferenceIdeal Cert.ReferenceIdeal.Gen Cert.ReferenceIdeal.Read Cert.StepSpec
open Idealize.ShloMosaic Idealize.ShloMosaic.ValueIdx

/-! ## Index bookkeeping -/

theorem to_ix1 {n0 : Nat} (j : (⟨1, ![n0]⟩ : Shape).Idx) (a : Fin n0) (h0 : (j 0).val = a.val) : j = ix1 a := by
  funext d; match d with | ⟨0, _⟩ => exact Fin.ext h0

theorem to_ix2 {n0 n1 : Nat} (j : (⟨2, ![n0, n1]⟩ : Shape).Idx) (a : Fin n0) (b : Fin n1)
    (h0 : (j 0).val = a.val) (h1 : (j 1).val = b.val) : j = ix2 a b := by
  funext d; match d with | ⟨0, _⟩ => exact Fin.ext h0 | ⟨1, _⟩ => exact Fin.ext h1

theorem to_ix3 {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c := by
  funext d; match d with | ⟨0, _⟩ => exact Fin.ext h0 | ⟨1, _⟩ => exact Fin.ext h1 | ⟨2, _⟩ => exact Fin.ext h2

/-- Row `b · 2048 + n` of the flattened [262144, ·] matrices is coordinate (b, n). -/
def rowIx (b : Fin 128) (n : Fin 2048) : Fin 262144 := ⟨b.val * 2048 + n.val, by have := b.isLt; have := n.isLt; omega⟩

/-! ## The two float words that are evaluated -/

theorem half_eq : Ideal.ofBits .f32 0x3F000000#32 = (((1 : ℝ) / 2 : ℝ) : EReal) := by
  simp [Ideal.ofBits, Ideal.ieee, -EReal.coe_mul]; norm_num

/-- The flag test: a one-bit flag, turned into the float 1 or 0, exceeds one half exactly when it is set. -/
theorem flag_gt_half (b : BitVec 1) :
    Ideal.cmp .ogt (FloatOps.uitofp (F := Ideal) .f32 b) wHalf = b := by
  show Ideal.cmp .ogt (((b.toNat : ℝ)) : EReal) (Ideal.ofBits .f32 0x3F000000#32) = b
  rw [half_eq]
  by_cases h : b = 1#1
  · subst h
    have h1 : ((((1 : ℝ) / 2 : ℝ)) : EReal) < ((((1#1 : BitVec 1).toNat : ℕ) : ℝ) : EReal) := by
      rw [EReal.coe_lt_coe_iff]; norm_num
    show BitVec.ofBool (decide ((((1 : ℝ) / 2 : ℝ) : EReal) < ((((1#1 : BitVec 1).toNat : ℕ) : ℝ) : EReal))) = 1#1
    rw [decide_eq_true h1]; rfl
  · have h0 := eq_zero_of_ne_one h
    subst h0
    have h1 : ¬ ((((1 : ℝ) / 2 : ℝ)) : EReal) < ((((0#1 : BitVec 1).toNat : ℕ) : ℝ) : EReal) := by
      rw [EReal.coe_lt_coe_iff]; norm_num
    show BitVec.ofBool (decide ((((1 : ℝ) / 2 : ℝ) : EReal) < ((((0#1 : BitVec 1).toNat : ℕ) : ℝ) : EReal))) = 0#1
    rw [decide_eq_false h1]; rfl

/-- The expanded sigmoid 1 / (1 + exp (-x)), with the float word of one, is the logistic function. -/
theorem logistic_expanded (x : EReal) :
    Ideal.div (Ideal.ofBits .f32 0x3F800000#32) (Ideal.ofBits .f32 0x3F800000#32 + Ideal.exp (-x)) = Ideal.logistic x := by
  rw [Ideal.ofBits_one_f32]; rfl

theorem zero_sub_word (p : EReal) : w0 - p = -p := by
  show Ideal.ofBits .f32 0x00000000#32 - p = -p
  rw [Ideal.ofBits_zero_f32, zero_sub]

section
variable (x0 x1 x2 x3 x4 x5 x6 x7 x8 : (⟨S128x2048, .f32⟩ : BufTy).Contents (Elt Ideal))
  (x9 : (⟨S128x1, .f32⟩ : BufTy).Contents (Elt Ideal))
  (x10 x11 : (⟨S128x2048, .f32⟩ : BufTy).Contents (Elt Ideal))
  (x12 x13 : (⟨S128x2048, .i1⟩ : BufTy).Contents (Elt Ideal))
  (x14 : (⟨S512x15, .f32⟩ : BufTy).Contents (Elt Ideal))
  (x16 x17 : (⟨S512, .f32⟩ : BufTy).Contents (Elt Ideal))
  (x18 : (⟨S128x128, .f32⟩ : BufTy).Contents (Elt Ideal))
  (x19 : (⟨S128, .f32⟩ : BufTy).Contents (Elt Ideal))
  (x20 : (⟨S1x128, .f32⟩ : BufTy).Contents (Elt Ideal))
  (x21 : (⟨S1, .f32⟩ : BufTy).Contents (Elt Ideal))
  (b : Fin 128) (n : Fin 2048)

/-! ## The specification's quantities at one coordinate (b, n) -/

/-- The guarded multiplier. -/
def zg (z : (⟨S128x2048, .f32⟩ : BufTy).Contents (Elt Ideal)) (x9 : (⟨S128x1, .f32⟩ : BufTy).Contents (Elt Ideal)) (b : Fin 128) (n : Fin 2048) : EReal :=
  guard (z (ix2 b n)) (x9 (ix2 b (0 : Fin 1)))

/-- The clipped ratio. -/
def dd (x z : (⟨S128x2048, .f32⟩ : BufTy).Contents (Elt Ideal)) (x9 : (⟨S128x1, .f32⟩ : BufTy).Contents (Elt Ideal)) (b : Fin 128) (n : Fin 2048) : EReal :=
  ratio (zg z x9 b n) (x (ix2 b n)) (x9 (ix2 b (0 : Fin 1)))

/-- The fifteen features. -/
def fe : Fin 15 → EReal :=
  feat (x0 (ix2 b n)) (x1 (ix2 b n)) (x2 (ix2 b n)) (zg x3 x9 b n) (zg x4 x9 b n) (x5 (ix2 b n)) (x6 (ix2 b n))
    (x7 (ix2 b n)) (x8 (ix2 b n)) (x9 (ix2 b (0 : Fin 1))) (dd x1 x3 x9 b n) (dd x2 x4 x9 b n)

/-- Gate column `c` of the 512-column LSTM table, the two biases added first. -/
def gate (c : Fin 512) : EReal :=
  lin (fe x0 x1 x2 x3 x4 x5 x6 x7 x8 x9 b n) (fun k => x14 (ix2 c k)) (x16 (ix1 c) + x17 (ix1 c))

/-- The hidden state: columns j (input), j + 256 (cell), j + 384 (output). -/
def hid (j : Fin 128) : EReal :=
  Ideal.logistic (gate x0 x1 x2 x3 x4 x5 x6 x7 x8 x9 x14 x16 x17 b n ⟨j.val + 384, by have := j.isLt; omega⟩)
    * Ideal.tanh (Ideal.logistic (gate x0 x1 x2 x3 x4 x5 x6 x7 x8 x9 x14 x16 x17 b n ⟨j.val, by have := j.isLt; omega⟩)
        * Ideal.tanh (gate x0 x1 x2 x3 x4 x5 x6 x7 x8 x9 x14 x16 x17 b n ⟨j.val + 256, by have := j.isLt; omega⟩))

/-- The head's first layer after the rectifier. -/
def hd (i : Fin 128) : EReal :=
  max (lin (hid x0 x1 x2 x3 x4 x5 x6 x7 x8 x9 x14 x16 x17 b n) (fun j => x18 (ix2 i j)) (x19 (ix1 i))) w0

/-- The step size. -/
def pp : EReal :=
  absE (lin (hd x0 x1 x2 x3 x4 x5 x6 x7 x8 x9 x14 x16 x17 x18 x19 b n) (fun i => x20 (ix2 (0 : Fin 1) i)) (x21 (ix1 (0 : Fin 1))))

theorem gateRow_i (j : Fin 128) (h : j.val < 384) : gateRow ⟨j.val, h⟩ = ⟨j.val, by omega⟩ := by
  apply Fin.ext; show (if j.val < 128 then j.val else j.val + 128) = j.val
  rw [if_pos j.isLt]

theorem gateRow_g (j : Fin 128) (h : j.val + 128 < 384) : gateRow ⟨j.val + 128, h⟩ = ⟨j.val + 256, by omega⟩ := by
  apply Fin.ext; show (if j.val + 128 < 128 then j.val + 128 else j.val + 128 + 128) = j.val + 256
  rw [if_neg (by omega)]

theorem gateRow_o (j : Fin 128) (h : j.val + 256 < 384) : gateRow ⟨j.val + 256, h⟩ = ⟨j.val + 384, by omega⟩ := by
  apply Fin.ext; show (if j.val + 256 < 128 then j.val + 256 else j.val + 256 + 128) = j.val + 384
  rw [if_neg (by omega)]

/-- The step size is the specification's, read through the 384-column layout. -/
theorem pp_eq_stepSize :
    pp x0 x1 x2 x3 x4 x5 x6 x7 x8 x9 x14 x16 x17 x18 x19 x20 x21 b n
      = stepSize (fe x0 x1 x2 x3 x4 x5 x6 x7 x8 x9 b n) (fun kk c => x14 (ix2 (gateRow c) kk))
          (fun c => x16 (ix1 (gateRow c)) + x17 (ix1 (gateRow c))) (fun j i' => x18 (ix2 i' j)) (fun i' => x19 (ix1 i'))
          (fun i' => x20 (ix2 (0 : Fin 1) i')) (x21 (ix1 (0 : Fin 1))) := by
  unfold pp hd hid gate stepSize
  simp only [gateRow_i, gateRow_g, gateRow_o]

theorem idx_v0 : idx_main_v0 (ix2 b n) = ix2 b (0 : Fin 1) := to_ix2 _ _ _ rfl rfl
theorem idx_v5 : idx_main_v5 (ix2 b n) = ix2 b (0 : Fin 1) := to_ix2 _ _ _ rfl rfl
theorem idx_v10 : idx_main_v10 (ix2 b n) = ix2 b (0 : Fin 1) := to_ix2 _ _ _ rfl rfl
theorem idx_v12 : idx_main_v12 (ix2 b n) = ix2 b (0 : Fin 1) := to_ix2 _ _ _ rfl rfl
theorem idx_v18 : idx_main_v18 (ix2 b n) = ix2 b (0 : Fin 1) := to_ix2 _ _ _ rfl rfl
theorem idx_v20 : idx_main_v20 (ix2 b n) = ix2 b (0 : Fin 1) := to_ix2 _ _ _ rfl rfl
theorem idx_v26 : idx_main_v26 (ix2 b n) = ix2 b (0 : Fin 1) := to_ix2 _ _ _ rfl rfl

/-! ## Guarded multipliers and ratios -/

theorem v4_at : val_main_v4 (F := Ideal) x3 x9 (ix2 b n) = zg x3 x9 b n := by
  rw [val_main_v4_apply, val_main_v3_apply, val_main_v1_apply, val_main_v0_apply, idx_v0, val_main_v2_apply,
    val_main_cst_apply, val_main_call0_v1_apply, val_main_call0_v0_apply, val_main_cst_0_apply]
  rfl

theorem v9_at : val_main_v9 (F := Ideal) x4 x9 (ix2 b n) = zg x4 x9 b n := by
  rw [val_main_v9_apply, val_main_v8_apply, val_main_v6_apply, val_main_v5_apply, idx_v5, val_main_v7_apply,
    val_main_cst_1_apply, val_main_call1_v1_apply, val_main_call1_v0_apply, val_main_cst_2_apply]
  rfl

theorem v17_at : val_main_v17 (F := Ideal) x1 x3 x9 (ix2 b n) = dd x1 x3 x9 b n := by
  rw [val_main_v17_apply, val_main_call2_v4_apply, val_main_call2_v3_apply, val_main_cst_5_apply,
    val_main_call2_v2_apply, val_main_call2_v1_apply, val_main_call2_v0_apply, val_main_cst_4_apply,
    val_main_v16_apply, val_main_v11_apply, v4_at, val_main_v10_apply, idx_v10, val_main_v15_apply,
    val_main_v13_apply, val_main_v12_apply, idx_v12, val_main_v14_apply, val_main_cst_3_apply]
  rfl

theorem v25_at : val_main_v25 (F := Ideal) x2 x4 x9 (ix2 b n) = dd x2 x4 x9 b n := by
  rw [val_main_v25_apply, val_main_call3_v4_apply, val_main_call3_v3_apply, val_main_cst_8_apply,
    val_main_call3_v2_apply, val_main_call3_v1_apply, val_main_call3_v0_apply, val_main_cst_7_apply,
    val_main_v24_apply, val_main_v19_apply, v9_at, val_main_v18_apply, idx_v18, val_main_v23_apply,
    val_main_v21_apply, val_main_v20_apply, idx_v20, val_main_v22_apply, val_main_cst_6_apply]
  rfl

theorem v26_at : val_main_v26 (F := Ideal) x9 (ix2 b n) = x9 (ix2 b (0 : Fin 1)) := by
  rw [val_main_v26_apply, idx_v26]

/-! ## The feature stack -/

theorem v27_at : val_main_v27 (F := Ideal) x0 (ix3 b n (0 : Fin 1)) = x0 (ix2 b n) := by
  rw [val_main_v27_apply, show idx_main_v27 (ix3 b n (0 : Fin 1)) = ix2 b n from to_ix2 _ _ _ rfl rfl]
theorem v28_at : val_main_v28 (F := Ideal) x1 (ix3 b n (0 : Fin 1)) = x1 (ix2 b n) := by
  rw [val_main_v28_apply, show idx_main_v28 (ix3 b n (0 : Fin 1)) = ix2 b n from to_ix2 _ _ _ rfl rfl]
theorem v29_at : val_main_v29 (F := Ideal) x2 (ix3 b n (0 : Fin 1)) = x2 (ix2 b n) := by
  rw [val_main_v29_apply, show idx_main_v29 (ix3 b n (0 : Fin 1)) = ix2 b n from to_ix2 _ _ _ rfl rfl]
theorem v30_at : val_main_v30 (F := Ideal) x3 x9 (ix3 b n (0 : Fin 1)) = zg x3 x9 b n := by
  rw [val_main_v30_apply, show idx_main_v30 (ix3 b n (0 : Fin 1)) = ix2 b n from to_ix2 _ _ _ rfl rfl, v4_at]
theorem v31_at : val_main_v31 (F := Ideal) x4 x9 (ix3 b n (0 : Fin 1)) = zg x4 x9 b n := by
  rw [val_main_v31_apply, show idx_main_v31 (ix3 b n (0 : Fin 1)) = ix2 b n from to_ix2 _ _ _ rfl rfl, v9_at]
theorem v32_at : val_main_v32 (F := Ideal) x0 (ix3 b n (0 : Fin 1)) = x0 (ix2 b n) := by
  rw [val_main_v32_apply, show idx_main_v32 (ix3 b n (0 : Fin 1)) = ix2 b n from to_ix2 _ _ _ rfl rfl]
theorem v33_at : val_main_v33 (F := Ideal) x3 x9 (ix3 b n (0 : Fin 1)) = zg x3 x9 b n := by
  rw [val_main_v33_apply, show idx_main_v33 (ix3 b n (0 : Fin 1)) = ix2 b n from to_ix2 _ _ _ rfl rfl, v4_at]
theorem v34_at : val_main_v34 (F := Ideal) x4 x9 (ix3 b n (0 : Fin 1)) = zg x4 x9 b n := by
  rw [val_main_v34_apply, show idx_main_v34 (ix3 b n (0 : Fin 1)) = ix2 b n from to_ix2 _ _ _ rfl rfl, v9_at]
theorem v35_at : val_main_v35 (F := Ideal) x5 (ix3 b n (0 : Fin 1)) = x5 (ix2 b n) := by
  rw [val_main_v35_apply, show idx_main_v35 (ix3 b n (0 : Fin 1)) = ix2 b n from to_ix2 _ _ _ rfl rfl]
theorem v36_at : val_main_v36 (F := Ideal) x6 (ix3 b n (0 : Fin 1)) = x6 (ix2 b n) := by
  rw [val_main_v36_apply, show idx_main_v36 (ix3 b n (0 : Fin 1)) = ix2 b n from to_ix2 _ _ _ rfl rfl]
theorem v37_at : val_main_v37 (F := Ideal) x7 (ix3 b n (0 : Fin 1)) = x7 (ix2 b n) := by
  rw [val_main_v37_apply, show idx_main_v37 (ix3 b n (0 : Fin 1)) = ix2 b n from to_ix2 _ _ _ rfl rfl]
theorem v38_at : val_main_v38 (F := Ideal) x8 (ix3 b n (0 : Fin 1)) = x8 (ix2 b n) := by
  rw [val_main_v38_apply, show idx_main_v38 (ix3 b n (0 : Fin 1)) = ix2 b n from to_ix2 _ _ _ rfl rfl]
theorem v39_at : val_main_v39 (F := Ideal) x9 (ix3 b n (0 : Fin 1)) = x9 (ix2 b (0 : Fin 1)) := by
  rw [val_main_v39_apply, show idx_main_v39 (ix3 b n (0 : Fin 1)) = ix2 b n from to_ix2 _ _ _ rfl rfl, v26_at]
theorem v40_at : val_main_v40 (F := Ideal) x1 x3 x9 (ix3 b n (0 : Fin 1)) = dd x1 x3 x9 b n := by
  rw [val_main_v40_apply, show idx_main_v40 (ix3 b n (0 : Fin 1)) = ix2 b n from to_ix2 _ _ _ rfl rfl, v17_at]
theorem v41_at : val_main_v41 (F := Ideal) x2 x4 x9 (ix3 b n (0 : Fin 1)) = dd x2 x4 x9 b n := by
  rw [val_main_v41_apply, show idx_main_v41 (ix3 b n (0 : Fin 1)) = ix2 b n from to_ix2 _ _ _ rfl rfl, v25_at]

/-- Off the joined axis (the last of three), a unit piece is read at the index's own coordinates. -/
theorem off_axis2 (k : Fin 15) :
    ∀ c : Fin S128x2048x1.rank, c.cast (rfl : S128x2048x1.rank = S128x2048x15.rank) ≠ (2 : Fin 3) →
      ((ix3 b n (0 : Fin 1) : S128x2048x1.Idx) c).val = ((ix3 b n k : S128x2048x15.Idx) (c.cast rfl)).val := by
  intro c hc
  match c, hc with
  | ⟨0, _⟩, _ => rfl
  | ⟨1, _⟩, _ => rfl
  | ⟨2, _⟩, hc => exact absurd rfl hc

/-- The stack of the fifteen features, read at (b, n, k). -/
theorem v42_at (k : Fin 15) : val_main_v42 (F := Ideal) x0 x1 x2 x3 x4 x5 x6 x7 x8 x9 (ix3 b n k) = fe x0 x1 x2 x3 x4 x5 x6 x7 x8 x9 b n k := by
  unfold val_main_v42
  refine (concatenate_ofFn_unit_apply (t := S128x2048x15) (s₁ := S128x2048x1) (2 : Fin 3)
    ![val_main_v27 (F := Ideal) x0,
      val_main_v28 (F := Ideal) x1,
      val_main_v29 (F := Ideal) x2,
      val_main_v30 (F := Ideal) x3 x9,
      val_main_v31 (F := Ideal) x4 x9,
      val_main_v32 (F := Ideal) x0,
      val_main_v33 (F := Ideal) x3 x9,
      val_main_v34 (F := Ideal) x4 x9,
      val_main_v35 (F := Ideal) x5,
      val_main_v36 (F := Ideal) x6,
      val_main_v37 (F := Ideal) x7,
      val_main_v38 (F := Ideal) x8,
      val_main_v39 (F := Ideal) x9,
      val_main_v40 (F := Ideal) x1 x3 x9,
      val_main_v41 (F := Ideal) x2 x4 x9]
    concatenates_S128x2048x1_S128x2048x1_S128x2048x1_S128x2048x1_S128x2048x1_S128x2048x1_S128x2048x1_S128x2048x1_S128x2048x1_S128x2048x1_S128x2048x1_S128x2048x1_S128x2048x1_S128x2048x1_S128x2048x1_S128x2048x15_d2
    rfl rfl (ix3 b n k) k rfl (ix3 b n (0 : Fin 1)) (off_axis2 b n k)).trans ?_
  match k with
  | ⟨0, _⟩ => exact v27_at x0 b n
  | ⟨1, _⟩ => exact v28_at x1 b n
  | ⟨2, _⟩ => exact v29_at x2 b n
  | ⟨3, _⟩ => exact v30_at x3 x9 b n
  | ⟨4, _⟩ => exact v31_at x4 x9 b n
  | ⟨5, _⟩ => exact v32_at x0 b n
  | ⟨6, _⟩ => exact v33_at x3 x9 b n
  | ⟨7, _⟩ => exact v34_at x4 x9 b n
  | ⟨8, _⟩ => exact v35_at x5 b n
  | ⟨9, _⟩ => exact v36_at x6 b n
  | ⟨10, _⟩ => exact v37_at x7 b n
  | ⟨11, _⟩ => exact v38_at x8 b n
  | ⟨12, _⟩ => exact v39_at x9 b n
  | ⟨13, _⟩ => exact v40_at x1 x3 x9 b n
  | ⟨14, _⟩ => exact v41_at x2 x4 x9 b n
  | ⟨k + 15, h⟩ => exact absurd h (by omega)

/-- The flattened feature matrix: row b · 2048 + n, column k. -/
theorem v43_at (k : Fin 15) : val_main_v43 (F := Ideal) x0 x1 x2 x3 x4 x5 x6 x7 x8 x9 (ix2 (rowIx b n) k) = fe x0 x1 x2 x3 x4 x5 x6 x7 x8 x9 b n k := by
  rw [val_main_v43_apply, show idx_main_v43 (ix2 (rowIx b n) k) = ix3 b n k from
    to_ix3 _ _ _ _ (by have := b.isLt; have := n.isLt; have := k.isLt; show ((b.val * 2048 + n.val) * 15 + k.val) / 30720 = b.val; omega)
      (by have := b.isLt; have := n.isLt; have := k.isLt; show ((b.val * 2048 + n.val) * 15 + k.val) / 15 % 2048 = n.val; omega)
      (by have := b.isLt; have := n.isLt; have := k.isLt; show ((b.val * 2048 + n.val) * 15 + k.val) % 15 = k.val; omega)]
  exact v42_at x0 x1 x2 x3 x4 x5 x6 x7 x8 x9 b n k

/-! ## The gates -/

/-- Every one of the 512 gate columns: the inner product with the features, then the two biases one after the other. -/
theorem v51_at (c : Fin 512) : val_main_v51 (F := Ideal) x0 x1 x2 x3 x4 x5 x6 x7 x8 x9 x14 x16 x17 (ix2 (rowIx b n) c) = gate x0 x1 x2 x3 x4 x5 x6 x7 x8 x9 x14 x16 x17 b n c := by
  rw [val_main_v51_apply, val_main_v48_apply, val_main_v45_apply, val_main_v47_apply, val_main_v46_apply,
    val_main_v50_apply, val_main_v49_apply,
    show idx_main_v46 (idx_main_v47 (ix2 (rowIx b n) c)) = ix1 c from to_ix1 _ _ rfl,
    show idx_main_v49 (idx_main_v50 (ix2 (rowIx b n) c)) = ix1 c from to_ix1 _ _ rfl]
  show (∑ k : Fin 15, _) + x16 (ix1 c) + x17 (ix1 c) = (∑ k : Fin 15, fe x0 x1 x2 x3 x4 x5 x6 x7 x8 x9 b n k * x14 (ix2 c k)) + (x16 (ix1 c) + x17 (ix1 c))
  rw [add_assoc]
  refine congrArg (· + (x16 (ix1 c) + x17 (ix1 c))) (Finset.sum_congr rfl fun k _ => ?_)
  rw [show lidx_main_v45 (ix2 (rowIx b n) c) k = ix2 (rowIx b n) k from to_ix2 _ _ _ rfl rfl,
    show ridx_main_v45 (ix2 (rowIx b n) c) k = ix2 k c from to_ix2 _ _ _ rfl rfl,
    v43_at, val_main_v44_apply, show idx_main_v44 (ix2 k c) = ix2 c k from to_ix2 _ _ _ rfl rfl]

theorem v52_at (j : Fin 128) : val_main_v52 (F := Ideal) x0 x1 x2 x3 x4 x5 x6 x7 x8 x9 x14 x16 x17 (ix2 (rowIx b n) j)
    = gate x0 x1 x2 x3 x4 x5 x6 x7 x8 x9 x14 x16 x17 b n ⟨j.val, by have := j.isLt; omega⟩ := by
  rw [val_main_v52_apply, show idx_main_v52 (ix2 (rowIx b n) j) = ix2 (rowIx b n) (⟨j.val, by have := j.isLt; omega⟩ : Fin 512) from
    to_ix2 _ _ _ rfl rfl]
  exact v51_at x0 x1 x2 x3 x4 x5 x6 x7 x8 x9 x14 x16 x17 b n _

theorem v54_at (j : Fin 128) : val_main_v54 (F := Ideal) x0 x1 x2 x3 x4 x5 x6 x7 x8 x9 x14 x16 x17 (ix2 (rowIx b n) j)
    = gate x0 x1 x2 x3 x4 x5 x6 x7 x8 x9 x14 x16 x17 b n ⟨j.val + 256, by have := j.isLt; omega⟩ := by
  rw [val_main_v54_apply, show idx_main_v54 (ix2 (rowIx b n) j) = ix2 (rowIx b n) (⟨j.val + 256, by have := j.isLt; omega⟩ : Fin 512) from
    to_ix2 _ _ _ rfl (by show 256 + j.val = j.val + 256; omega)]
  exact v51_at x0 x1 x2 x3 x4 x5 x6 x7 x8 x9 x14 x16 x17 b n _

theorem v55_at (j : Fin 128) : val_main_v55 (F := Ideal) x0 x1 x2 x3 x4 x5 x6 x7 x8 x9 x14 x16 x17 (ix2 (rowIx b n) j)
    = gate x0 x1 x2 x3 x4 x5 x6 x7 x8 x9 x14 x16 x17 b n ⟨j.val + 384, by have := j.isLt; omega⟩ := by
  rw [val_main_v55_apply, show idx_main_v55 (ix2 (rowIx b n) j) = ix2 (rowIx b n) (⟨j.val + 384, by have := j.isLt; omega⟩ : Fin 512) from
    to_ix2 _ _ _ rfl (by show 384 + j.val = j.val + 384; omega)]
  exact v51_at x0 x1 x2 x3 x4 x5 x6 x7 x8 x9 x14 x16 x17 b n _

/-! ## The hidden state -/

theorem v61_at (j : Fin 128) : val_main_v61 (F := Ideal) x0 x1 x2 x3 x4 x5 x6 x7 x8 x9 x14 x16 x17 (ix2 (rowIx b n) j)
    = Ideal.logistic (gate x0 x1 x2 x3 x4 x5 x6 x7 x8 x9 x14 x16 x17 b n ⟨j.val, by have := j.isLt; omega⟩) := by
  rw [val_main_v61_apply, val_main_v60_apply, val_main_cst_10_apply, val_main_v59_apply, val_main_v58_apply,
    val_main_cst_9_apply, val_main_v57_apply, val_main_v56_apply, v52_at]
  exact logistic_expanded _

theorem v69_at (j : Fin 128) : val_main_v69 (F := Ideal) x0 x1 x2 x3 x4 x5 x6 x7 x8 x9 x14 x16 x17 (ix2 (rowIx b n) j)
    = Ideal.logistic (gate x0 x1 x2 x3 x4 x5 x6 x7 x8 x9 x14 x16 x17 b n ⟨j.val + 384, by have := j.isLt; omega⟩) := by
  rw [val_main_v69_apply, val_main_v68_apply, val_main_cst_12_apply, val_main_v67_apply, val_main_v66_apply,
    val_main_cst_11_apply, val_main_v65_apply, val_main_v64_apply, v55_at]
  exact logistic_expanded _

theorem v71_at (j : Fin 128) : val_main_v71 (F := Ideal) x0 x1 x2 x3 x4 x5 x6 x7 x8 x9 x14 x16 x17 (ix2 (rowIx b n) j) = hid x0 x1 x2 x3 x4 x5 x6 x7 x8 x9 x14 x16 x17 b n j := by
  rw [val_main_v71_apply, v69_at, val_main_v70_apply, val_main_v63_apply, v61_at, val_main_v62_apply, v54_at]
  rfl

/-! ## The head -/

theorem v77_at (i : Fin 128) : val_main_v77 (F := Ideal) x0 x1 x2 x3 x4 x5 x6 x7 x8 x9 x14 x16 x17 x18 x19 (ix2 (rowIx b n) i) = hd x0 x1 x2 x3 x4 x5 x6 x7 x8 x9 x14 x16 x17 x18 x19 b n i := by
  rw [val_main_v77_apply, val_main_call4_v0_apply, val_main_call4_cst_apply, val_main_v76_apply, val_main_v73_apply,
    val_main_v75_apply, val_main_v74_apply,
    show idx_main_v74 (idx_main_v75 (ix2 (rowIx b n) i)) = ix1 i from to_ix1 _ _ rfl]
  show max ((∑ k : Fin 128, _) + x19 (ix1 i)) w0 = max ((∑ j : Fin 128, hid x0 x1 x2 x3 x4 x5 x6 x7 x8 x9 x14 x16 x17 b n j * x18 (ix2 i j)) + x19 (ix1 i)) w0
  refine congrArg (fun s => max (s + x19 (ix1 i)) w0) (Finset.sum_congr rfl fun k _ => ?_)
  rw [show lidx_main_v73 (ix2 (rowIx b n) i) k = ix2 (rowIx b n) k from to_ix2 _ _ _ rfl rfl,
    show ridx_main_v73 (ix2 (rowIx b n) i) k = ix2 k i from to_ix2 _ _ _ rfl rfl,
    v71_at, val_main_v72_apply, show idx_main_v72 (ix2 k i) = ix2 i k from to_ix2 _ _ _ rfl rfl]

/-- The step size, back on the [128, 2048] grid. -/
theorem v84_at : val_main_v84 (F := Ideal) x0 x1 x2 x3 x4 x5 x6 x7 x8 x9 x14 x16 x17 x18 x19 x20 x21 (ix2 b n) = pp x0 x1 x2 x3 x4 x5 x6 x7 x8 x9 x14 x16 x17 x18 x19 x20 x21 b n := by
  rw [val_main_v84_apply, show idx_main_v84 (ix2 b n) = ix2 (rowIx b n) (0 : Fin 1) from
      to_ix2 _ _ _ (by show (b.val * 2048 + n.val) / 1 = b.val * 2048 + n.val; omega) rfl,
    val_main_v83_apply, val_main_v82_apply, val_main_v79_apply, val_main_v81_apply, val_main_v80_apply,
    show idx_main_v80 (idx_main_v81 (ix2 (rowIx b n) (0 : Fin 1))) = ix1 (0 : Fin 1) from to_ix1 _ _ rfl]
  show absE ((∑ k : Fin 128, _) + x21 (ix1 (0 : Fin 1)))
    = absE ((∑ i : Fin 128, hd x0 x1 x2 x3 x4 x5 x6 x7 x8 x9 x14 x16 x17 x18 x19 b n i * x20 (ix2 (0 : Fin 1) i)) + x21 (ix1 (0 : Fin 1)))
  refine congrArg (fun s => absE (s + x21 (ix1 (0 : Fin 1)))) (Finset.sum_congr rfl fun k _ => ?_)
  rw [show lidx_main_v79 (ix2 (rowIx b n) (0 : Fin 1)) k = ix2 (rowIx b n) k from to_ix2 _ _ _ rfl rfl,
    show ridx_main_v79 (ix2 (rowIx b n) (0 : Fin 1)) k = ix2 k (0 : Fin 1) from to_ix2 _ _ _ rfl rfl,
    v77_at, val_main_v78_apply, show idx_main_v78 (ix2 k (0 : Fin 1)) = ix2 (0 : Fin 1) k from to_ix2 _ _ _ rfl rfl]

/-! ## The five results at (b, n) -/

theorem v87_at : val_main_v87 (F := Ideal) x0 x1 x2 x3 x4 x5 x6 x7 x8 x9 x14 x16 x17 x18 x19 x20 x21 (ix2 b n)
    = x0 (ix2 b n) + (w0 - pp x0 x1 x2 x3 x4 x5 x6 x7 x8 x9 x14 x16 x17 x18 x19 x20 x21 b n) * x0 (ix2 b n) := by
  rw [val_main_v87_apply, val_main_v86_apply, val_main_v85_apply, v84_at, zero_sub_word]
  rfl

theorem v92_at : val_main_v92 (F := Ideal) x0 x1 x2 x3 x4 x5 x6 x7 x8 x9 x14 x16 x17 x18 x19 x20 x21 (ix2 b n)
    = zg x3 x9 b n - dd x1 x3 x9 b n * ((w0 - pp x0 x1 x2 x3 x4 x5 x6 x7 x8 x9 x14 x16 x17 x18 x19 x20 x21 b n) * x0 (ix2 b n) + zg x3 x9 b n) := by
  rw [val_main_v92_apply, val_main_v91_apply, val_main_v90_apply, val_main_v89_apply, val_main_v88_apply, v84_at,
    v4_at, v17_at, zero_sub_word]
  rfl

theorem v96_at : val_main_v96 (F := Ideal) x0 x1 x2 x3 x4 x5 x6 x7 x8 x9 x14 x16 x17 x18 x19 x20 x21 (ix2 b n)
    = zg x4 x9 b n - dd x2 x4 x9 b n * (pp x0 x1 x2 x3 x4 x5 x6 x7 x8 x9 x14 x16 x17 x18 x19 x20 x21 b n * x0 (ix2 b n) + zg x4 x9 b n) := by
  rw [val_main_v96_apply, val_main_v95_apply, val_main_v94_apply, val_main_v93_apply, v84_at, v9_at, v25_at]
  rfl

theorem v98_at : val_main_v98 (F := Ideal) x0 x1 x2 x3 x4 x5 x6 x7 x8 x9 x10 x12 x14 x16 x17 x18 x19 x20 x21 (ix2 b n)
    = Scalar.select (Ideal.cmp .ogt (FloatOps.uitofp (F := Ideal) .f32 (x12 (ix2 b n))) wHalf)
        (x0 (ix2 b n) + (w0 - pp x0 x1 x2 x3 x4 x5 x6 x7 x8 x9 x14 x16 x17 x18 x19 x20 x21 b n) * x0 (ix2 b n) - x10 (ix2 b n)) w0 := by
  rw [val_main_v98_apply, val_main_v97_apply, v87_at, val_main_call5_v1_apply, val_main_call5_v0_apply,
    val_main_cst_13_apply, flag_gt_half]
  rfl

theorem v100_at : val_main_v100 (F := Ideal) x0 x1 x2 x3 x4 x5 x6 x7 x8 x9 x11 x13 x14 x16 x17 x18 x19 x20 x21 (ix2 b n)
    = Scalar.select (Ideal.cmp .ogt (FloatOps.uitofp (F := Ideal) .f32 (x13 (ix2 b n))) wHalf)
        (x11 (ix2 b n) - (x0 (ix2 b n) + (w0 - pp x0 x1 x2 x3 x4 x5 x6 x7 x8 x9 x14 x16 x17 x18 x19 x20 x21 b n) * x0 (ix2 b n))) w0 := by
  rw [val_main_v100_apply, val_main_v99_apply, v87_at, val_main_call6_v1_apply, val_main_call6_v0_apply,
    val_main_cst_14_apply, flag_gt_half]
  rfl

/-- The specification's row of five results at (b, n). -/
def specRow : Fin 5 → EReal :=
  row (x0 (ix2 b n)) (x1 (ix2 b n)) (x2 (ix2 b n)) (x3 (ix2 b n)) (x4 (ix2 b n)) (x5 (ix2 b n))
    (x6 (ix2 b n)) (x7 (ix2 b n)) (x8 (ix2 b n)) (x9 (ix2 b (0 : Fin 1))) (x10 (ix2 b n)) (x11 (ix2 b n))
    (FloatOps.uitofp (F := Ideal) .f32 (x12 (ix2 b n))) (FloatOps.uitofp (F := Ideal) .f32 (x13 (ix2 b n)))
    (fun kk c => x14 (ix2 (gateRow c) kk)) (fun c => x16 (ix1 (gateRow c)) + x17 (ix1 (gateRow c)))
    (fun j i' => x18 (ix2 i' j)) (fun i' => x19 (ix1 i')) (fun i' => x20 (ix2 (0 : Fin 1) i')) (x21 (ix1 (0 : Fin 1)))

/-- The specification's row, with the step size named. -/
theorem specRow_eq : specRow x0 x1 x2 x3 x4 x5 x6 x7 x8 x9 x10 x11 x12 x13 x14 x16 x17 x18 x19 x20 x21 b n
    = ![x0 (ix2 b n) + (w0 - pp x0 x1 x2 x3 x4 x5 x6 x7 x8 x9 x14 x16 x17 x18 x19 x20 x21 b n) * x0 (ix2 b n),
        Scalar.select (Ideal.cmp .ogt (FloatOps.uitofp (F := Ideal) .f32 (x12 (ix2 b n))) wHalf)
          (x0 (ix2 b n) + (w0 - pp x0 x1 x2 x3 x4 x5 x6 x7 x8 x9 x14 x16 x17 x18 x19 x20 x21 b n) * x0 (ix2 b n) - x10 (ix2 b n)) w0,
        Scalar.select (Ideal.cmp .ogt (FloatOps.uitofp (F := Ideal) .f32 (x13 (ix2 b n))) wHalf)
          (x11 (ix2 b n) - (x0 (ix2 b n) + (w0 - pp x0 x1 x2 x3 x4 x5 x6 x7 x8 x9 x14 x16 x17 x18 x19 x20 x21 b n) * x0 (ix2 b n))) w0,
        zg x3 x9 b n - dd x1 x3 x9 b n * ((w0 - pp x0 x1 x2 x3 x4 x5 x6 x7 x8 x9 x14 x16 x17 x18 x19 x20 x21 b n) * x0 (ix2 b n) + zg x3 x9 b n),
        zg x4 x9 b n - dd x2 x4 x9 b n * (pp x0 x1 x2 x3 x4 x5 x6 x7 x8 x9 x14 x16 x17 x18 x19 x20 x21 b n * x0 (ix2 b n) + zg x4 x9 b n)] := by
  rw [pp_eq_stepSize]
  rfl

/-- Off the joined axis (the second of two), a piece is read at the index's own row. -/
theorem off_axis1 (m : Fin 10240) :
    ∀ c : Fin S128x2048.rank, c.cast (rfl : S128x2048.rank = S128x10240.rank) ≠ (1 : Fin 2) →
      ((ix2 b n : S128x2048.Idx) c).val = ((ix2 b m : S128x10240.Idx) (c.cast rfl)).val := by
  intro c hc
  match c, hc with
  | ⟨0, _⟩, _ => rfl
  | ⟨1, _⟩, hc => exact absurd rfl hc

/-- The run's result at row b, column k · 2048 + n is result k of coordinate (b, n). -/
theorem v101_at (k : Fin 5) :
    val_main_v101 (F := Ideal) x0 x1 x2 x3 x4 x5 x6 x7 x8 x9 x10 x11 x12 x13 x14 x16 x17 x18 x19 x20 x21 (ix2 b (⟨k.val * 2048 + n.val, by have := k.isLt; have := n.isLt; omega⟩ : Fin 10240))
      = specRow x0 x1 x2 x3 x4 x5 x6 x7 x8 x9 x10 x11 x12 x13 x14 x16 x17 x18 x19 x20 x21 b n k := by
  rw [specRow_eq]
  unfold val_main_v101
  refine (concatenate_ofFn_apply (t := S128x10240) (s₁ := S128x2048) (1 : Fin 2)
    ![val_main_v87 (F := Ideal) x0 x1 x2 x3 x4 x5 x6 x7 x8 x9 x14 x16 x17 x18 x19 x20 x21,
      val_main_v98 (F := Ideal) x0 x1 x2 x3 x4 x5 x6 x7 x8 x9 x10 x12 x14 x16 x17 x18 x19 x20 x21,
      val_main_v100 (F := Ideal) x0 x1 x2 x3 x4 x5 x6 x7 x8 x9 x11 x13 x14 x16 x17 x18 x19 x20 x21,
      val_main_v92 (F := Ideal) x0 x1 x2 x3 x4 x5 x6 x7 x8 x9 x14 x16 x17 x18 x19 x20 x21,
      val_main_v96 (F := Ideal) x0 x1 x2 x3 x4 x5 x6 x7 x8 x9 x14 x16 x17 x18 x19 x20 x21]
    concatenates_S128x2048_S128x2048_S128x2048_S128x2048_S128x2048_S128x10240_d1
    rfl 2048 rfl _ k
    (by show (k.val * 2048 + n.val) / 2048 = k.val; have := n.isLt; omega) (ix2 b n)
    (by show n.val = (k.val * 2048 + n.val) % 2048; have := n.isLt; omega) (off_axis1 b n _)).trans ?_
  match k with
  | ⟨0, _⟩ => exact v87_at x0 x1 x2 x3 x4 x5 x6 x7 x8 x9 x14 x16 x17 x18 x19 x20 x21 b n
  | ⟨1, _⟩ => exact v98_at x0 x1 x2 x3 x4 x5 x6 x7 x8 x9 x10 x12 x14 x16 x17 x18 x19 x20 x21 b n
  | ⟨2, _⟩ => exact v100_at x0 x1 x2 x3 x4 x5 x6 x7 x8 x9 x11 x13 x14 x16 x17 x18 x19 x20 x21 b n
  | ⟨3, _⟩ => exact v92_at x0 x1 x2 x3 x4 x5 x6 x7 x8 x9 x14 x16 x17 x18 x19 x20 x21 b n
  | ⟨4, _⟩ => exact v96_at x0 x1 x2 x3 x4 x5 x6 x7 x8 x9 x14 x16 x17 x18 x19 x20 x21 b n
  | ⟨k + 5, h⟩ => exact absurd h (by omega)

end

/-! ## The reference is the specification -/

/-- The reference program's result, as a function of its argument arrays, is the specification `G`. -/
theorem result_eq
    (x0 x1 x2 x3 x4 x5 x6 x7 x8 : (⟨S128x2048, .f32⟩ : BufTy).Contents (Elt Ideal))
    (x9 : (⟨S128x1, .f32⟩ : BufTy).Contents (Elt Ideal))
    (x10 x11 : (⟨S128x2048, .f32⟩ : BufTy).Contents (Elt Ideal))
    (x12 x13 : (⟨S128x2048, .i1⟩ : BufTy).Contents (Elt Ideal))
    (x14 : (⟨S512x15, .f32⟩ : BufTy).Contents (Elt Ideal))
    (x16 x17 : (⟨S512, .f32⟩ : BufTy).Contents (Elt Ideal))
    (x18 : (⟨S128x128, .f32⟩ : BufTy).Contents (Elt Ideal))
    (x19 : (⟨S128, .f32⟩ : BufTy).Contents (Elt Ideal))
    (x20 : (⟨S1x128, .f32⟩ : BufTy).Contents (Elt Ideal))
    (x21 : (⟨S1, .f32⟩ : BufTy).Contents (Elt Ideal)) :
    val_main_v101 (F := Ideal) x0 x1 x2 x3 x4 x5 x6 x7 x8 x9 x10 x11 x12 x13 x14 x16 x17 x18 x19 x20 x21 = G x0 x1 x2 x3 x4 x5 x6 x7 x8 x9 x10 x11 x12 x13 x14 x16 x17 x18 x19 x20 x21 := by
  funext i
  have hi1 : (i 1).val < 10240 := idx2_lt1 (n0 := 128) (n1 := 10240) i
  let k : Fin 5 := ⟨(i 1).val / 2048, by omega⟩
  let n : Fin 2048 := ⟨(i 1).val % 2048, Nat.mod_lt _ (by norm_num)⟩
  have ei : i = ix2 (i 0) (⟨k.val * 2048 + n.val, by have := k.isLt; have := n.isLt; omega⟩ : Fin 10240) :=
    to_ix2 i _ _ rfl (by show (i 1).val = (i 1).val / 2048 * 2048 + (i 1).val % 2048; omega)
  refine (congrArg (val_main_v101 (F := Ideal) x0 x1 x2 x3 x4 x5 x6 x7 x8 x9 x10 x11 x12 x13 x14 x16 x17 x18 x19 x20 x21) ei).trans ?_
  exact v101_at x0 x1 x2 x3 x4 x5 x6 x7 x8 x9 x10 x11 x12 x13 x14 x16 x17 x18 x19 x20 x21 (i 0) n k

end Cert.RefSpec

end
-- ==== Proof.lean ====
/-
  The five claims.  Each kernel program's frame is its run with the result forgotten (`Frm.run_full`, at the word
  instance and at the ideal one); the reference's is its generated run with the result forgotten; the idealization
  rewrote nothing, so `preserves` is trivial.  For the algebraic claim both idealized programs end with the
  specification `StepSpec.G` of their arguments — the kernel program by `KValue.result_eq` (the region's blocks tile
  the result, each block the update step of its coordinates, the final reshape laying the five results side by
  side), the reference by `RefSpec.result_eq` (its operations composed and read index by index) — and the arguments
  agree.  No finiteness of the inputs is used: the two sides are the same expression of the extended reals up to the
  association of the two bias additions and the layout of the gate rows.
-/
import proofs.«101781_j12919261626992_2_alg».proof.Defs
import proofs.«101781_j12919261626992_2_alg».proof.Proof.Gen.Kernel
import proofs.«101781_j12919261626992_2_alg».proof.Proof.Gen.KernelIdeal
import proofs.«101781_j12919261626992_2_alg».proof.Proof.Gen.ReferenceIdeal
import proofs.«101781_j12919261626992_2_alg».proof.Proof.Gen.Pre_finite_inputs
import proofs.«101781_j12919261626992_2_alg».proof.Proof.Gen.ReferenceIdeal.Run
import proofs.«101781_j12919261626992_2_alg».proof.Proof.Gen.ReferenceIdeal.Read
import proofs.«101781_j12919261626992_2_alg».proof.Proof.FrameBits
import proofs.«101781_j12919261626992_2_alg».proof.Proof.FrameIdeal
import proofs.«101781_j12919261626992_2_alg».proof.Proof.ResultValue
import proofs.«101781_j12919261626992_2_alg».proof.Proof.RefIsSpec
import Idealize.ShloMosaic.Adequacy
import Idealize.ShloMosaic.Init

noncomputable section

namespace Cert.Proof

open Idealize.ShloMosaic Idealize.SL.Sem

/-- The printed kernel program runs and leaves its arguments unchanged. -/
theorem frame_k : Cert.frame_Kernel := fun m ρ _ =>
  (θ_run Cert.Kernel.defs _ _).mono (fun _ h c => (h c).2) (Cert.Kernel.Frm.run_full (F := Bits) m ρ)

/-- So does its idealization. -/
theorem frame_ki : Cert.frame_KernelIdeal := fun m ρ _ =>
  (θ_run Cert.KernelIdeal.defs _ _).mono (fun _ h c => (h c).2) (Cert.KernelIdeal.Frm.run_full (F := Ideal) m ρ)

/-- And the reference. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification of their (agreeing) arguments. -/
theorem algebraic : Cert.algebraic_KernelIdeal_ReferenceIdeal := by
  intro m ρ m' ρ' _ hagree
  refine ⟨fun c => Cert.KernelIdeal.KValue.spec m c, ?_, ?_⟩
  · exact (θ_run Cert.KernelIdeal.defs _ _).mono
      (fun _ h c => ⟨(h c).1.trans (Cert.KernelIdeal.KValue.result_eq m c), (h c).2⟩)
      (Cert.KernelIdeal.Frm.run_full (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17, a18, a19, a20, a21⟩ := hagree c
    rw [Cert.ReferenceIdeal.Read.val_main_v101_eq, Cert.RefSpec.result_eq,
      a0, a1, a2, a3, a4, a5, a6, a7, a8, a9, a10, a11, a12, a13, a14, a16, a17, a18, a19, a20, a21]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
